-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v119) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3x128 : Shape := ⟨3, ![50000, 3, 128]⟩
abbrev S400000x128 : Shape := ⟨2, ![400000, 128]⟩
abbrev S400000x3 : Shape := ⟨2, ![400000, 3]⟩
abbrev S400000x2 : Shape := ⟨2, ![400000, 2]⟩
abbrev S100 : Shape := ⟨1, ![100]⟩
abbrev S384x128 : Shape := ⟨2, ![384, 128]⟩
abbrev S384 : Shape := ⟨1, ![384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3x128 : S_.BroadcastsInDim S50000x3x128 (![] : Fin 0 → Fin S50000x3x128.rank)
  reducesTo_S50000x3x128_S_d0_1_2 : S50000x3x128.ReducesTo [0, 1, 2] S_
  bcast_S_S400000x128 : S_.BroadcastsInDim S400000x128 (![] : Fin 0 → Fin S400000x128.rank)
  reducesTo_S400000x128_S_d0_1 : S400000x128.ReducesTo [0, 1] S_
  bcast_S_S400000x3 : S_.BroadcastsInDim S400000x3 (![] : Fin 0 → Fin S400000x3.rank)
  reducesTo_S400000x3_S_d0_1 : S400000x3.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S1 .f32) (main_arg14 : FVec F S128 .f32) (main_arg15 : FVec F S128 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S384x128 .f32) (main_arg11 : FVec F S384 .f32) (main_arg12 : FVec F S1x128 .f32) (main_arg13 : FVec F S1 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg10
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg11
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg13 main_arg14 main_arg15 main_v48 main_v49 main_v50

def fn_part1 {F : FTy → Type} [FloatOps F] (main_arg6 : FVec F S384x128 .f32) (main_arg7 : FVec F S384 .f32) (main_arg8 : FVec F S128x128 .f32) (main_arg9 : FVec F S128 .f32) (main_arg10 : FVec F S384x128 .f32) (main_arg11 : FVec F S384 .f32) (main_arg12 : FVec F S1x128 .f32) (main_arg13 : FVec F S1 .f32) (main_arg14 : FVec F S128 .f32) (main_arg15 : FVec F S128 .f32) (main_v13 : IVec S_ 1) (main_v16 : IVec S400000x3 1) : IVec S_ 1 :=
  let main_c_5 : IVec S_ 1 := constantI S_ 1 1#1
  let main_v17 : IVec S_ 1 := (fun x v => Host.reduce IntOp.andi x v reducesTo_S400000x3_S_d0_1 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg7
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S50000x3x128 .f32) (main_arg2 : FVec F S400000x128 .f32) (main_arg3 : FVec F S400000x3 .f32) (main_arg4 : IVec S400000x2 32) (main_arg5 : IVec S100 32) (main_arg6 : FVec F S384x128 .f32) (main_arg7 : FVec F S384 .f32) (main_arg8 : FVec F S128x128 .f32) (main_arg9 : FVec F S128 .f32) (main_arg10 : FVec F S384x128 .f32) (main_arg11 : FVec F S384 .f32) (main_arg12 : FVec F S1x128 .f32) (main_arg13 : FVec F S1 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3x128 .f32 := Host.absf main_arg1
  let main_cst_0 : FVec F S_ .f32 := constant S_ .f32 0x7F800000#32
  let main_v5 : FVec F S50000x3x128 .f32 := broadcastInDim S50000x3x128 ![] bcast_S_S50000x3x128 main_cst_0
  let main_v6 : IVec S50000x3x128 1 := cmpf .olt main_v4 main_v5
  let main_c_1 : IVec S_ 1 := constantI S_ 1 1#1
  let main_v7 : IVec S_ 1 := (fun x v => Host.reduce IntOp.andi x v reducesTo_S50000x3x128_S_d0_1_2 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S400000x3 .f32 := Host.absf main_arg3
  let main_cst_4 : FVec F S_ .f32 := constant S_ .f32 0x7F800000#32
  let main_v15 : FVec F S400000x3 .f32 := broadcastInDim S400000x3 ![] bcast_S_S400000x3 main_cst_4
  let main_v16 : IVec S400000x3 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S50000x3x128 : Shape := ⟨3, ![50000, 3, 128]⟩
abbrev S400000x128 : Shape := ⟨2, ![400000, 128]⟩
abbrev S400000x3 : Shape := ⟨2, ![400000, 3]⟩
abbrev S400000x2 : Shape := ⟨2, ![400000, 2]⟩
abbrev S100 : Shape := ⟨1, ![100]⟩
abbrev S384x128 : Shape := ⟨2, ![384, 128]⟩
abbrev S384 : Shape := ⟨1, ![384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S99 : Shape := ⟨1, ![99]⟩
abbrev S_ : Shape := ⟨0, ![]⟩
abbrev S50000 : Shape := ⟨1, ![50000]⟩
abbrev S100x1 : Shape := ⟨2, ![100, 1]⟩
abbrev S50000x1 : Shape := ⟨2, ![50000, 1]⟩
abbrev S1x1 : Shape := ⟨2, ![1, 1]⟩
abbrev S128x384 : Shape := ⟨2, ![128, 384]⟩
abbrev S1x384 : Shape := ⟨2, ![1, 384]⟩
abbrev S50000x384 : Shape := ⟨2, ![50000, 384]⟩
abbrev S5000x128 : Shape := ⟨2, ![5000, 128]⟩
abbrev S5000x384 : Shape := ⟨2, ![5000, 384]⟩
abbrev S400000x1 : Shape := ⟨2, ![400000, 1]⟩
abbrev S400000 : Shape := ⟨1, ![400000]⟩
abbrev S400000x384 : Shape := ⟨2, ![400000, 384]⟩
abbrev S400000x3x128 : Shape := ⟨3, ![400000, 3, 128]⟩
abbrev S400000x1x128 : Shape := ⟨3, ![400000, 1, 128]⟩
abbrev S128x1 : Shape := ⟨2, ![128, 1]⟩
abbrev S2000x128 : Shape := ⟨2, ![2000, 128]⟩
abbrev S2000x1 : Shape := ⟨2, ![2000, 1]⟩
abbrev S2000x384 : Shape := ⟨2, ![2000, 384]⟩

abbrev nBuf : Space → Nat
  | .hbm => 187
  | .vmem => 40
  | .smem => 0
  | _ => 0

abbrev hbmTy0_0 (i : Nat) : BufTy := match i % 128 with
  | 0 => ⟨S50000x128, .f32⟩
  | 1 => ⟨S50000x3x128, .f32⟩
  | 2 => ⟨S400000x128, .f32⟩
  | 3 => ⟨S400000x3, .f32⟩
  | 4 => ⟨S400000x2, .i32⟩
  | 5 => ⟨S100, .i32⟩
  | 6 => ⟨S384x128, .f32⟩
  | 7 => ⟨S384, .f32⟩
  | 8 => ⟨S128x128, .f32⟩
  | 9 => ⟨S128, .f32⟩
  | 10 => ⟨S384x128, .f32⟩
  | 11 => ⟨S384, .f32⟩
  | 12 => ⟨S1x128, .f32⟩
  | 13 => ⟨S1, .f32⟩
  | 14 => ⟨S128, .f32⟩
  | 15 => ⟨S128, .f32⟩
  | 16 => ⟨S100, .i32⟩
  | 17 => ⟨S1, .i32⟩
  | 18 => ⟨S99, .i32⟩
  | 19 => ⟨S100, .i32⟩
  | 20 => ⟨S_, .i32⟩
  | 21 => ⟨S1, .i32⟩
  | 22 => ⟨S_, .i32⟩
  | 23 => ⟨S100, .i32⟩
  | 24 => ⟨S_, .i32⟩
  | 25 => ⟨S_, .i32⟩
  | 26 => ⟨S100, .i32⟩
  | 27 => ⟨S_, .i32⟩
  | 28 => ⟨S50000, .i32⟩
  | 29 => ⟨S_, .i32⟩
  | 30 => ⟨S100, .i32⟩
  | 31 => ⟨S100, .i1⟩
  | 32 => ⟨S_, .i32⟩
  | 33 => ⟨S100, .i32⟩
  | 34 => ⟨S100, .i32⟩
  | 35 => ⟨S100, .i32⟩
  | 36 => ⟨S100x1, .i32⟩
  | 37 => ⟨S_, .i32⟩
  | 38 => ⟨S100, .i32⟩
  | 39 => ⟨S50000, .i32⟩
  | 40 => ⟨S_, .i32⟩
  | 41 => ⟨S_, .i32⟩
  | 42 => ⟨S50000, .i32⟩
  | 43 => ⟨S_, .i32⟩
  | 44 => ⟨S50000, .i32⟩
  | 45 => ⟨S50000, .i32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S1, .i32⟩
  | 55 => ⟨S_, .i32⟩
  | 56 => ⟨S50000x1, .i32⟩
  | 57 => ⟨S50000x1, .i1⟩
  | 58 => ⟨S1x1, .i32⟩
  | 59 => ⟨S50000x1, .i32⟩
  | 60 => ⟨S50000x1, .i1⟩
  | 61 => ⟨S50000x1, .i1⟩
  | 62 => ⟨S_, .i1⟩
  | 63 => ⟨S50000, .i1⟩
  | 64 => ⟨S50000, .i32⟩
  | 65 => ⟨S_, .i32⟩
  | 66 => ⟨S50000, .i32⟩
  | 67 => ⟨S50000, .i32⟩
  | 68 => ⟨S100, .f32⟩
  | 69 => ⟨S_, .f32⟩
  | 70 => ⟨S100, .f32⟩
  | 71 => ⟨S100, .f32⟩
  | 72 => ⟨S_, .f32⟩
  | 73 => ⟨S50000, .f32⟩
  | 74 => ⟨S_, .f32⟩
  | 75 => ⟨S100, .f32⟩
  | 76 => ⟨S50000x1, .i32⟩
  | 77 => ⟨S100, .f32⟩
  | 78 => ⟨S100, .f32⟩
  | 79 => ⟨S50000x128, .f32⟩
  | 80 => ⟨S_, .f32⟩
  | 81 => ⟨S50000, .f32⟩
  | 82 => ⟨S_, .f32⟩
  | 83 => ⟨S100, .f32⟩
  | 84 => ⟨S50000x1, .i32⟩
  | 85 => ⟨S100, .f32⟩
  | 86 => ⟨S100, .f32⟩
  | 87 => ⟨S100, .f32⟩
  | 88 => ⟨S100, .f32⟩
  | 89 => ⟨S_, .i32⟩
  | 90 => ⟨S50000, .i32⟩
  | 91 => ⟨S50000, .i1⟩
  | 92 => ⟨S_, .i32⟩
  | 93 => ⟨S50000, .i32⟩
  | 94 => ⟨S50000, .i32⟩
  | 95 => ⟨S50000, .i32⟩
  | 96 => ⟨S50000x1, .i32⟩
  | 97 => ⟨S50000, .f32⟩
  | 98 => ⟨S50000x1, .f32⟩
  | 99 => ⟨S50000x128, .f32⟩
  | 100 => ⟨S50000x128, .f32⟩
  | 101 => ⟨S_, .i32⟩
  | 102 => ⟨S50000, .i32⟩
  | 103 => ⟨S50000, .i1⟩
  | 104 => ⟨S_, .i32⟩
  | 105 => ⟨S50000, .i32⟩
  | 106 => ⟨S50000, .i32⟩
  | 107 => ⟨S50000, .i32⟩
  | 108 => ⟨S50000x1, .i32⟩
  | 109 => ⟨S50000, .f32⟩
  | 110 => ⟨S50000x1, .f32⟩
  | 111 => ⟨S_, .f32⟩
  | 112 => ⟨S50000x1, .f32⟩
  | 113 => ⟨S50000x1, .f32⟩
  | 114 => ⟨S50000x1, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S128x128, .f32⟩
  | 124 => ⟨S1x128, .f32⟩
  | 125 => ⟨S128x384, .f32⟩
  | 126 => ⟨S1x384, .f32⟩
  | 127 => ⟨S50000x384, .f32⟩
  | _ => ⟨S50000x128, .f32⟩

abbrev hbmTy0_1 (i : Nat) : BufTy := match i % 128 with
  | 0 => ⟨S400000x1, .i32⟩
  | 1 => ⟨S400000, .i32⟩
  | 2 => ⟨S400000x1, .i32⟩
  | 3 => ⟨S400000, .i32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x384, .f32⟩
  | 13 => ⟨S400000x128, .f32⟩
  | 14 => ⟨S400000x128, .f32⟩
  | 15 => ⟨S400000x128, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x3x128, .f32⟩
  | 25 => ⟨S400000x1x128, .f32⟩
  | 26 => ⟨S400000x128, .f32⟩
  | 27 => ⟨S400000x1x128, .f32⟩
  | 28 => ⟨S400000x128, .f32⟩
  | 29 => ⟨S400000x1x128, .f32⟩
  | 30 => ⟨S400000x128, .f32⟩
  | 31 => ⟨S400000x1, .f32⟩
  | 32 => ⟨S400000x1, .f32⟩
  | 33 => ⟨S400000x1, .f32⟩
  | 34 => ⟨S128x384, .f32⟩
  | 35 => ⟨S128x128, .f32⟩
  | 36 => ⟨S128x128, .f32⟩
  | 37 => ⟨S128x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128x1, .f32⟩
  | 45 => ⟨S1x1, .f32⟩
  | 46 => ⟨S400000x128, .f32⟩
  | 47 => ⟨S400000x384, .f32⟩
  | 48 => ⟨S400000x3x128, .f32⟩
  | 49 => ⟨S_, .f32⟩
  | 50 => ⟨S50000x128, .f32⟩
  | 51 => ⟨S400000x1, .i32⟩
  | 52 => ⟨S50000x128, .f32⟩
  | 53 => ⟨S_, .f32⟩
  | 54 => ⟨S50000x3x128, .f32⟩
  | 55 => ⟨S400000x1, .i32⟩
  | 56 => ⟨S50000x3x128, .f32⟩
  | 57 => ⟨S50000x128, .f32⟩
  | 58 => ⟨S50000x3x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x384, .f32⟩
  | .local _ .vmem, ⟨5, _⟩ => ⟨S1x384, .f32⟩
  | .local _ .vmem, ⟨6, _⟩ => ⟨S5000x384, .f32⟩
  | .local _ .vmem, ⟨7, _⟩ => ⟨S5000x384, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S2000x1, .f32⟩
  | .local _ .vmem, ⟨25, _⟩ => ⟨S2000x1, .f32⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x1, .f32⟩
  | .local _ .vmem, ⟨35, _⟩ => ⟨S1x1, .f32⟩
  | .local _ .vmem, ⟨36, _⟩ => ⟨S2000x128, .f32⟩
  | .local _ .vmem, ⟨37, _⟩ => ⟨S2000x128, .f32⟩
  | .local _ .vmem, ⟨38, _⟩ => ⟨S2000x384, .f32⟩
  | .local _ .vmem, ⟨39, _⟩ => ⟨S2000x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_v0 : Ref sig .tc := ⟨.hbm, 17, rfl⟩
abbrev main_call0_v1 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_call1_call0_c : Ref sig .tc := ⟨.hbm, 24, rfl⟩
abbrev main_call1_call0_v0 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_c_2 : Ref sig .tc := ⟨.hbm, 29, rfl⟩
abbrev main_v6 : Ref sig .tc := ⟨.hbm, 30, rfl⟩
abbrev main_v7 : Ref sig .tc := ⟨.hbm, 31, rfl⟩
abbrev main_c_3 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_4 : Ref sig .tc := ⟨.hbm, 37, rfl⟩
abbrev main_v12 : Ref sig .tc := ⟨.hbm, 38, rfl⟩
abbrev main_v13 : Ref sig .tc := ⟨.hbm, 39, rfl⟩
abbrev main_call2_call0_c : Ref sig .tc := ⟨.hbm, 40, rfl⟩
abbrev main_call2_call0_v0 : Ref sig .tc := ⟨.hbm, 41, rfl⟩
abbrev main_v14 : Ref sig .tc := ⟨.hbm, 42, rfl⟩
abbrev main_c_5 : Ref sig .tc := ⟨.hbm, 43, rfl⟩
abbrev main_v15 : Ref sig .tc := ⟨.hbm, 44, rfl⟩
abbrev main_v16 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_c_4 : Ref sig .tc := ⟨.hbm, 65, rfl⟩
abbrev main_call3_v14 : Ref sig .tc := ⟨.hbm, 66, rfl⟩
abbrev main_v17 : Ref sig .tc := ⟨.hbm, 67, rfl⟩
abbrev main_v18 : Ref sig .tc := ⟨.hbm, 68, rfl⟩
abbrev main_cst : Ref sig .tc := ⟨.hbm, 69, rfl⟩
abbrev main_v19 : Ref sig .tc := ⟨.hbm, 70, rfl⟩
abbrev main_v20 : Ref sig .tc := ⟨.hbm, 71, rfl⟩
abbrev main_cst_6 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_cst_8 : Ref sig .tc := ⟨.hbm, 80, rfl⟩
abbrev main_v27 : Ref sig .tc := ⟨.hbm, 81, rfl⟩
abbrev main_cst_9 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_c_10 : Ref sig .tc := ⟨.hbm, 89, rfl⟩
abbrev main_v34 : Ref sig .tc := ⟨.hbm, 90, rfl⟩
abbrev main_v35 : Ref sig .tc := ⟨.hbm, 91, rfl⟩
abbrev main_c_11 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_c_12 : Ref sig .tc := ⟨.hbm, 101, rfl⟩
abbrev main_v44 : Ref sig .tc := ⟨.hbm, 102, rfl⟩
abbrev main_v45 : Ref sig .tc := ⟨.hbm, 103, rfl⟩
abbrev main_c_13 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_14 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c_15 : Ref sig .tc := ⟨.hbm, 132, rfl⟩
abbrev main_v72 : Ref sig .tc := ⟨.hbm, 133, rfl⟩
abbrev main_v73 : Ref sig .tc := ⟨.hbm, 134, rfl⟩
abbrev main_c_16 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_c_17 : Ref sig .tc := ⟨.hbm, 144, rfl⟩
abbrev main_v82 : Ref sig .tc := ⟨.hbm, 145, rfl⟩
abbrev main_v83 : Ref sig .tc := ⟨.hbm, 146, rfl⟩
abbrev main_c_18 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110_0 : Ref sig .tc := ⟨.hbm, 174, rfl⟩
abbrev main_v110_1 : Ref sig .tc := ⟨.hbm, 175, rfl⟩
abbrev main_v111 : Ref sig .tc := ⟨.hbm, 176, rfl⟩
abbrev main_cst_19 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_cst_20 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg15_0 : Ref sig .tc := ⟨.vmem, 33, rfl⟩
abbrev cc1_stg16_0 : Ref sig .tc := ⟨.vmem, 34, rfl⟩
abbrev cc1_stg17_0 : Ref sig .tc := ⟨.vmem, 35, rfl⟩
abbrev cc1_stg18_0 : Ref sig .tc := ⟨.vmem, 36, rfl⟩
abbrev cc1_stg18_1 : Ref sig .tc := ⟨.vmem, 37, rfl⟩
abbrev cc1_stg19_0 : Ref sig .tc := ⟨.vmem, 38, rfl⟩
abbrev cc1_stg19_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem17_0 : DmaSem sig := 35
abbrev cc1_sem18_0 : DmaSem sig := 36
abbrev cc1_sem18_1 : DmaSem sig := 37
abbrev cc1_sem19_0 : DmaSem sig := 38
abbrev cc1_sem19_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S128x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S2000x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S2000x384 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

class Facts₀ : Prop where
  slices_S100_S1_99 : S100.Slices ![99] S1
  slices_S100_S99_0 : S100.Slices ![0] S99
  concatenates_S1_S99_S100_d0 : Shape.Concatenates [S1, S99] S100 0
  bcast_S_S1 : S_.BroadcastsInDim S1 (![] : Fin 0 → Fin S1.rank)
  bcast_S_S_ : S_.BroadcastsInDim S_ (![] : Fin 0 → Fin S_.rank)
  reduceWindows_S100_S100_w100s1p99_0 : S100.ReduceWindows (![100] : Fin 1 → Nat) ![1] ![99] ![0] S100
  h_S_ : 0 < S_.numel
  bcast_S_S50000 : S_.BroadcastsInDim S50000 (![] : Fin 0 → Fin S50000.rank)
  bcast_S_S100 : S_.BroadcastsInDim S100 (![] : Fin 0 → Fin S100.rank)
  bcast_S100_S100x1_0 : S100.BroadcastsInDim S100x1 (![0] : Fin 1 → Fin S100x1.rank)
  reduceWindows_S50000_S50000_w50000s1p49999_0 : S50000.ReduceWindows (![50000] : Fin 1 → Nat) ![1] ![49999] ![0] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  reducesTo_S50000x128_S50000_d1 : S50000x128.ReducesTo [1] S50000
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  shapeCasts_S128_S1x128 : S128.ShapeCasts S1x128
  transposes_S384x128_S128x384_1_0 : S384x128.Transposes [1, 0] S128x384
  shapeCasts_S384_S1x384 : S384.ShapeCasts S1x384
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  slices_S400000x3x128_S400000x1x128_0_0_0 : S400000x3x128.Slices ![0, 0, 0] S400000x1x128
  shapeCasts_S400000x1x128_S400000x128 : S400000x1x128.ShapeCasts S400000x128
  slices_S400000x3x128_S400000x1x128_0_1_0 : S400000x3x128.Slices ![0, 1, 0] S400000x1x128
  slices_S400000x3x128_S400000x1x128_0_2_0 : S400000x3x128.Slices ![0, 2, 0] S400000x1x128
  slices_S400000x3_S400000x1_0_0 : S400000x3.Slices ![0, 0] S400000x1
  slices_S400000x3_S400000x1_0_1 : S400000x3.Slices ![0, 1] S400000x1
  slices_S400000x3_S400000x1_0_2 : S400000x3.Slices ![0, 2] S400000x1
  slices_S128x384_S128x128_0_0 : S128x384.Slices ![0, 0] S128x128
  slices_S128x384_S128x128_0_128 : S128x384.Slices ![0, 128] S128x128
  slices_S128x384_S128x128_0_256 : S128x384.Slices ![0, 256] S128x128
  slices_S384_S128_0 : S384.Slices ![0] S128
  slices_S384_S128_128 : S384.Slices ![128] S128
  slices_S384_S128_256 : S384.Slices ![256] S128
  transposes_S1x128_S128x1_1_0 : S1x128.Transposes [1, 0] S128x1
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  broadcasts_S1x128_S2000x128 : S1x128.Broadcasts S2000x128
  shapeCasts_S2000x128_S2000x128 : S2000x128.ShapeCasts S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x128 : S2000x1.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x384_S2000x128_0_0 : ∀ a, (![0, 0] : Fin 2 → Nat) a + S2000x128.size a ≤ S2000x384.size a
  inb_S2000x384_S2000x128_0_128 : ∀ a, (![0, 128] : Fin 2 → Nat) a + S2000x128.size a ≤ S2000x384.size a
  inb_S2000x384_S2000x128_0_256 : ∀ a, (![0, 256] : Fin 2 → Nat) a + S2000x128.size a ≤ S2000x384.size a
  shapeCasts_S400000x384_S400000x3x128 : S400000x384.ShapeCasts S400000x3x128
  bcast_S_S50000x128 : S_.BroadcastsInDim S50000x128 (![] : Fin 0 → Fin S50000x128.rank)
  bcast_S_S50000x3x128 : S_.BroadcastsInDim S50000x3x128 (![] : Fin 0 → Fin S50000x3x128.rank)
  scatter_S100_S1_S__n_0_0_0_wf : ScatterDims.WF S100 S1 S_ [] [0] [0] 0
  scatter_S50000_S100x1_S100_n_0_0_1_wf : ScatterDims.WF S50000 S100x1 S100 [] [0] [0] 1
  gather_S100_S50000x1_S50000_n_0_n_n_0_1_1_wf : GatherDims.WF S100 S50000x1 S50000 [] [0] [] [0] [] 1 ![1]
  scatter_S100_S50000x1_S50000_n_0_0_1_wf : ScatterDims.WF S100 S50000x1 S50000 [] [0] [0] 1
  dot_S5000x128_S128x128_S5000x128_1_0_0_1_n_n_wf : DotDims.WF S5000x128 S128x128 S5000x128 [1] [0] [0] [1] [] []
  dot_S5000x128_S128x384_S5000x384_1_0_0_1_n_n_wf : DotDims.WF S5000x128 S128x384 S5000x384 [1] [0] [0] [1] [] []
  gather_S50000x384_S400000x1_S400000x384_1_0_n_n_0_1_1384_wf : GatherDims.WF S50000x384 S400000x1 S400000x384 [1] [0] [] [0] [] 1 ![1, 384]
  gather_S50000x3x128_S400000x1_S400000x3x128_12_0_n_n_0_1_13128_wf : GatherDims.WF S50000x3x128 S400000x1 S400000x3x128 [1, 2] [0] [] [0] [] 1 ![1, 3, 128]
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  scatter_S50000x128_S400000x1_S400000x128_1_0_0_1_wf : ScatterDims.WF S50000x128 S400000x1 S400000x128 [1] [0] [0] 1
  scatter_S50000x3x128_S400000x1_S400000x3x128_12_0_0_1_wf : ScatterDims.WF S50000x3x128 S400000x1 S400000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x384.size a ≤ S50000x384.size a
  hwx0_5 : ∀ i : grid0.Coords, EltTy.bits .f32 = 32 ∨ (Rect.block (s := S50000x384) S5000x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S400000x128.size a
  hwx1_0 : ∀ i : grid1.Coords, EltTy.bits .f32 = 32 ∨ (Rect.block (s := S400000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S400000x128.size a
  hwx1_1 : ∀ i : grid1.Coords, EltTy.bits .f32 = 32 ∨ (Rect.block (s := S400000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S400000x128.size a
  hwx1_2 : ∀ i : grid1.Coords, EltTy.bits .f32 = 32 ∨ (Rect.block (s := S400000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S400000x128.size a
  hwx1_3 : ∀ i : grid1.Coords, EltTy.bits .f32 = 32 ∨ (Rect.block (s := S400000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S400000x128.size a
  hwx1_4 : ∀ i : grid1.Coords, EltTy.bits .f32 = 32 ∨ (Rect.block (s := S400000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S400000x128.size a
  hwx1_5 : ∀ i : grid1.Coords, EltTy.bits .f32 = 32 ∨ (Rect.block (s := S400000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S400000x128.size a
  hwx1_6 : ∀ i : grid1.Coords, EltTy.bits .f32 = 32 ∨ (Rect.block (s := S400000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S400000x1.size a
  hwx1_7 : ∀ i : grid1.Coords, EltTy.bits .f32 = 32 ∨ (Rect.block (s := S400000x1) S2000x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S400000x1.size a
  hwx1_8 : ∀ i : grid1.Coords, EltTy.bits .f32 = 32 ∨ (Rect.block (s := S400000x1) S2000x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S400000x1.size a
  hwx1_9 : ∀ i : grid1.Coords, EltTy.bits .f32 = 32 ∨ (Rect.block (s := S400000x1) S2000x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S128x1.size a ≤ S128x1.size a
  hwx1_16 : ∀ i : grid1.Coords, EltTy.bits .f32 = 32 ∨ (Rect.block (s := S128x1) S128x1.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x1.size a ≤ S1x1.size a
  hwx1_17 : ∀ i : grid1.Coords, EltTy.bits .f32 = 32 ∨ (Rect.block (s := S1x1) S1x1.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2000x128.size a ≤ S400000x128.size a
  hwx1_18 : ∀ i : grid1.Coords, EltTy.bits .f32 = 32 ∨ (Rect.block (s := S400000x128) S2000x128.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S2000x384.size a ≤ S400000x384.size a
  hwx1_19 : ∀ i : grid1.Coords, EltTy.bits .f32 = 32 ∨ (Rect.block (s := S400000x384) S2000x384.size (cc1_transform_19 i) (hinb1_19 i)).WholeWords (EltTy.packing .f32)

variable [Facts₀]

def scatter_S100_S1_S__n_0_0_0 : ScatterDims S100 S1 S_ where
  updateWindowDims := []
  insertedWindowDims := [0]
  scatterDimsToOperandDims := [0]
  indexVectorDim := 0
  wf := scatter_S100_S1_S__n_0_0_0_wf
def scatter_S50000_S100x1_S100_n_0_0_1 : ScatterDims S50000 S100x1 S100 where
  updateWindowDims := []
  insertedWindowDims := [0]
  scatterDimsToOperandDims := [0]
  indexVectorDim := 1
  wf := scatter_S50000_S100x1_S100_n_0_0_1_wf
def gather_S100_S50000x1_S50000_n_0_n_n_0_1_1 : GatherDims S100 S50000x1 S50000 where
  offsetDims := []
  collapsedSliceDims := [0]
  operandBatchingDims := []
  startIndicesBatchingDims := []
  startIndexMap := [0]
  indexVectorDim := 1
  sliceSizes := ![1]
  wf := gather_S100_S50000x1_S50000_n_0_n_n_0_1_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x384_S400000x1_S400000x384_1_0_n_n_0_1_1384 : GatherDims S50000x384 S400000x1 S400000x384 where
  offsetDims := [1]
  collapsedSliceDims := [0]
  operandBatchingDims := []
  startIndicesBatchingDims := []
  startIndexMap := [0]
  indexVectorDim := 1
  sliceSizes := ![1, 384]
  wf := gather_S50000x384_S400000x1_S400000x384_1_0_n_n_0_1_1384_wf
def gather_S50000x3x128_S400000x1_S400000x3x128_12_0_n_n_0_1_13128 : GatherDims S50000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S50000x3x128_S400000x1_S400000x3x128_12_0_n_n_0_1_13128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x3x128_S400000x1_S400000x3x128_12_0_0_1 : ScatterDims S50000x3x128 S400000x1 S400000x3x128 where
  updateWindowDims := [1, 2]
  insertedWindowDims := [0]
  scatterDimsToOperandDims := [0]
  indexVectorDim := 1
  wf := scatter_S50000x3x128_S400000x1_S400000x3x128_12_0_0_1_wf

abbrev win0_0 : Pipeline.Window sig grid0 :=
  Pipeline.Window.ofSpec (Memref.whole main_v62) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v64) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S5000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v80) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v81) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v90) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v92) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v94) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v95) S2000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v96) S2000x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v97) S2000x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v99) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v100) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v101) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v103) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v105) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v107) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v108) S128x1.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v109) S1x1.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v110_0) S2000x128.size cc1_transform_18 reads1_18 true false 2 stage1_18 sem1_18
    hrank1 hreads1_18 hinb1_18 nbuf1_18 (Memref.isWhole_whole _) hwx1_18 hstage1_18

abbrev win1_19 : Pipeline.Window sig grid1 :=
  Pipeline.Window.ofSpec (Memref.whole main_v110_1) S2000x384.size cc1_transform_19 reads1_19 true false 2 stage1_19 sem1_19
    hrank1 hreads1_19 hinb1_19 nbuf1_19 (Memref.isWhole_whole _) hwx1_19 hstage1_19

abbrev win1 : Fin 20 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | ⟨_ + 20, h⟩ => absurd h (Nat.not_lt.2 (Nat.le_add_left _ _))
abbrev spec1 : Fin 20 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3x128 : Shape := ⟨3, ![50000, 3, 128]⟩
abbrev S400000x128 : Shape := ⟨2, ![400000, 128]⟩
abbrev S400000x3 : Shape := ⟨2, ![400000, 3]⟩
abbrev S400000x2 : Shape := ⟨2, ![400000, 2]⟩
abbrev S100 : Shape := ⟨1, ![100]⟩
abbrev S384x128 : Shape := ⟨2, ![384, 128]⟩
abbrev S384 : Shape := ⟨1, ![384]⟩
abbrev S128x128 : Shape := ⟨2, ![128, 128]⟩
abbrev S128 : Shape := ⟨1, ![128]⟩
abbrev S1x128 : Shape := ⟨2, ![1, 128]⟩
abbrev S1 : Shape := ⟨1, ![1]⟩
abbrev S99 : Shape := ⟨1, ![99]⟩
abbrev S_ : Shape := ⟨0, ![]⟩
abbrev S50000 : Shape := ⟨1, ![50000]⟩
abbrev S100x1 : Shape := ⟨2, ![100, 1]⟩
abbrev S50000x1 : Shape := ⟨2, ![50000, 1]⟩
abbrev S1x1 : Shape := ⟨2, ![1, 1]⟩
abbrev S128x384 : Shape := ⟨2, ![128, 384]⟩
abbrev S400000x384 : Shape := ⟨2, ![400000, 384]⟩
abbrev S1x384 : Shape := ⟨2, ![1, 384]⟩
abbrev S50000x384 : Shape := ⟨2, ![50000, 384]⟩
abbrev S400000x1 : Shape := ⟨2, ![400000, 1]⟩
abbrev S400000 : Shape := ⟨1, ![400000]⟩
abbrev S128x1 : Shape := ⟨2, ![128, 1]⟩
abbrev S400000x3x128 : Shape := ⟨3, ![400000, 3, 128]⟩
abbrev S400000x1x128 : Shape := ⟨3, ![400000, 1, 128]⟩
abbrev S400000x3x1 : Shape := ⟨3, ![400000, 3, 1]⟩
abbrev S400000x1x1 : Shape := ⟨3, ![400000, 1, 1]⟩

abbrev nBuf : Space → Nat
  | .hbm => 210
  | .vmem => 0
  | .smem => 0
  | _ => 0

abbrev hbmTy0_0 (i : Nat) : BufTy := match i % 128 with
  | 0 => ⟨S50000x128, .f32⟩
  | 1 => ⟨S50000x3x128, .f32⟩
  | 2 => ⟨S400000x128, .f32⟩
  | 3 => ⟨S400000x3, .f32⟩
  | 4 => ⟨S400000x2, .i32⟩
  | 5 => ⟨S100, .i32⟩
  | 6 => ⟨S384x128, .f32⟩
  | 7 => ⟨S384, .f32⟩
  | 8 => ⟨S128x128, .f32⟩
  | 9 => ⟨S128, .f32⟩
  | 10 => ⟨S384x128, .f32⟩
  | 11 => ⟨S384, .f32⟩
  | 12 => ⟨S1x128, .f32⟩
  | 13 => ⟨S1, .f32⟩
  | 14 => ⟨S128, .f32⟩
  | 15 => ⟨S128, .f32⟩
  | 16 => ⟨S100, .i32⟩
  | 17 => ⟨S1, .i32⟩
  | 18 => ⟨S99, .i32⟩
  | 19 => ⟨S100, .i32⟩
  | 20 => ⟨S_, .i32⟩
  | 21 => ⟨S1, .i32⟩
  | 22 => ⟨S_, .i32⟩
  | 23 => ⟨S100, .i32⟩
  | 24 => ⟨S_, .i32⟩
  | 25 => ⟨S_, .i32⟩
  | 26 => ⟨S100, .i32⟩
  | 27 => ⟨S_, .i32⟩
  | 28 => ⟨S50000, .i32⟩
  | 29 => ⟨S_, .i32⟩
  | 30 => ⟨S100, .i32⟩
  | 31 => ⟨S100, .i1⟩
  | 32 => ⟨S_, .i32⟩
  | 33 => ⟨S100, .i32⟩
  | 34 => ⟨S100, .i32⟩
  | 35 => ⟨S100, .i32⟩
  | 36 => ⟨S100x1, .i32⟩
  | 37 => ⟨S_, .i32⟩
  | 38 => ⟨S100, .i32⟩
  | 39 => ⟨S50000, .i32⟩
  | 40 => ⟨S_, .i32⟩
  | 41 => ⟨S_, .i32⟩
  | 42 => ⟨S50000, .i32⟩
  | 43 => ⟨S_, .i32⟩
  | 44 => ⟨S50000, .i32⟩
  | 45 => ⟨S50000, .i32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S1, .i32⟩
  | 55 => ⟨S_, .i32⟩
  | 56 => ⟨S50000x1, .i32⟩
  | 57 => ⟨S50000x1, .i1⟩
  | 58 => ⟨S1x1, .i32⟩
  | 59 => ⟨S50000x1, .i32⟩
  | 60 => ⟨S50000x1, .i1⟩
  | 61 => ⟨S50000x1, .i1⟩
  | 62 => ⟨S_, .i1⟩
  | 63 => ⟨S50000, .i1⟩
  | 64 => ⟨S50000, .i32⟩
  | 65 => ⟨S_, .i32⟩
  | 66 => ⟨S50000, .i32⟩
  | 67 => ⟨S50000, .i32⟩
  | 68 => ⟨S100, .f32⟩
  | 69 => ⟨S_, .f32⟩
  | 70 => ⟨S100, .f32⟩
  | 71 => ⟨S100, .f32⟩
  | 72 => ⟨S_, .f32⟩
  | 73 => ⟨S50000, .f32⟩
  | 74 => ⟨S_, .f32⟩
  | 75 => ⟨S100, .f32⟩
  | 76 => ⟨S50000x1, .i32⟩
  | 77 => ⟨S100, .f32⟩
  | 78 => ⟨S100, .f32⟩
  | 79 => ⟨S50000x128, .f32⟩
  | 80 => ⟨S_, .f32⟩
  | 81 => ⟨S50000, .f32⟩
  | 82 => ⟨S_, .f32⟩
  | 83 => ⟨S100, .f32⟩
  | 84 => ⟨S50000x1, .i32⟩
  | 85 => ⟨S100, .f32⟩
  | 86 => ⟨S100, .f32⟩
  | 87 => ⟨S100, .f32⟩
  | 88 => ⟨S100, .f32⟩
  | 89 => ⟨S_, .i32⟩
  | 90 => ⟨S50000, .i32⟩
  | 91 => ⟨S50000, .i1⟩
  | 92 => ⟨S_, .i32⟩
  | 93 => ⟨S50000, .i32⟩
  | 94 => ⟨S50000, .i32⟩
  | 95 => ⟨S50000, .i32⟩
  | 96 => ⟨S50000x1, .i32⟩
  | 97 => ⟨S50000, .f32⟩
  | 98 => ⟨S50000x1, .f32⟩
  | 99 => ⟨S50000x128, .f32⟩
  | 100 => ⟨S50000x128, .f32⟩
  | 101 => ⟨S_, .i32⟩
  | 102 => ⟨S50000, .i32⟩
  | 103 => ⟨S50000, .i1⟩
  | 104 => ⟨S_, .i32⟩
  | 105 => ⟨S50000, .i32⟩
  | 106 => ⟨S50000, .i32⟩
  | 107 => ⟨S50000, .i32⟩
  | 108 => ⟨S50000x1, .i32⟩
  | 109 => ⟨S50000, .f32⟩
  | 110 => ⟨S50000x1, .f32⟩
  | 111 => ⟨S_, .f32⟩
  | 112 => ⟨S50000x1, .f32⟩
  | 113 => ⟨S50000x1, .f32⟩
  | 114 => ⟨S50000x1, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S128x384, .f32⟩
  | 124 => ⟨S400000x384, .f32⟩
  | 125 => ⟨S1x384, .f32⟩
  | 126 => ⟨S400000x384, .f32⟩
  | 127 => ⟨S400000x384, .f32⟩
  | _ => ⟨S50000x128, .f32⟩

abbrev hbmTy0_1 (i : Nat) : BufTy := match i % 128 with
  | 0 => ⟨S128x128, .f32⟩
  | 1 => ⟨S50000x128, .f32⟩
  | 2 => ⟨S1x128, .f32⟩
  | 3 => ⟨S50000x128, .f32⟩
  | 4 => ⟨S50000x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S128x384, .f32⟩
  | 15 => ⟨S50000x384, .f32⟩
  | 16 => ⟨S1x384, .f32⟩
  | 17 => ⟨S50000x384, .f32⟩
  | 18 => ⟨S50000x384, .f32⟩
  | 19 => ⟨S400000x1, .i32⟩
  | 20 => ⟨S400000, .i32⟩
  | 21 => ⟨S400000x1, .i32⟩
  | 22 => ⟨S400000, .i32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x384, .f32⟩
  | 32 => ⟨S400000x384, .f32⟩
  | 33 => ⟨S400000x128, .f32⟩
  | 34 => ⟨S400000x128, .f32⟩
  | 35 => ⟨S400000x128, .f32⟩
  | 36 => ⟨S128x1, .f32⟩
  | 37 => ⟨S400000x1, .f32⟩
  | 38 => ⟨S1x1, .f32⟩
  | 39 => ⟨S400000x1, .f32⟩
  | 40 => ⟨S400000x1, .f32⟩
  | 41 => ⟨S400000x1, .f32⟩
  | 42 => ⟨S400000x1, .f32⟩
  | 43 => ⟨S_, .f32⟩
  | 44 => ⟨S400000x1, .f32⟩
  | 45 => ⟨S400000x1, .f32⟩
  | 46 => ⟨S_, .f32⟩
  | 47 => ⟨S400000x1, .f32⟩
  | 48 => ⟨S400000x1, .f32⟩
  | 49 => ⟨S400000x128, .f32⟩
  | 50 => ⟨S400000x128, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x3x128, .f32⟩
  | 60 => ⟨S400000x1x128, .f32⟩
  | 61 => ⟨S400000x3x128, .f32⟩
  | 62 => ⟨S400000x3x128, .f32⟩
  | 63 => ⟨S400000x1x128, .f32⟩
  | 64 => ⟨S400000x3x1, .f32⟩
  | 65 => ⟨S400000x3x128, .f32⟩
  | 66 => ⟨S400000x3x128, .f32⟩
  | 67 => ⟨S400000x3x128, .f32⟩
  | 68 => ⟨S400000x3x128, .f32⟩
  | 69 => ⟨S400000x1x1, .f32⟩
  | 70 => ⟨S400000x3x128, .f32⟩
  | 71 => ⟨S400000x3x128, .f32⟩
  | 72 => ⟨S_, .f32⟩
  | 73 => ⟨S50000x128, .f32⟩
  | 74 => ⟨S400000x1, .i32⟩
  | 75 => ⟨S50000x128, .f32⟩
  | 76 => ⟨S_, .f32⟩
  | 77 => ⟨S50000x3x128, .f32⟩
  | 78 => ⟨S400000x1, .i32⟩
  | 79 => ⟨S50000x3x128, .f32⟩
  | 80 => ⟨S50000x128, .f32⟩
  | 81 => ⟨S50000x3x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_v0 : Ref sig .tc := ⟨.hbm, 17, rfl⟩
abbrev main_call0_v1 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_call1_call0_c : Ref sig .tc := ⟨.hbm, 24, rfl⟩
abbrev main_call1_call0_v0 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_c_2 : Ref sig .tc := ⟨.hbm, 29, rfl⟩
abbrev main_v6 : Ref sig .tc := ⟨.hbm, 30, rfl⟩
abbrev main_v7 : Ref sig .tc := ⟨.hbm, 31, rfl⟩
abbrev main_c_3 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_4 : Ref sig .tc := ⟨.hbm, 37, rfl⟩
abbrev main_v12 : Ref sig .tc := ⟨.hbm, 38, rfl⟩
abbrev main_v13 : Ref sig .tc := ⟨.hbm, 39, rfl⟩
abbrev main_call2_call0_c : Ref sig .tc := ⟨.hbm, 40, rfl⟩
abbrev main_call2_call0_v0 : Ref sig .tc := ⟨.hbm, 41, rfl⟩
abbrev main_v14 : Ref sig .tc := ⟨.hbm, 42, rfl⟩
abbrev main_c_5 : Ref sig .tc := ⟨.hbm, 43, rfl⟩
abbrev main_v15 : Ref sig .tc := ⟨.hbm, 44, rfl⟩
abbrev main_v16 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_c_4 : Ref sig .tc := ⟨.hbm, 65, rfl⟩
abbrev main_call3_v14 : Ref sig .tc := ⟨.hbm, 66, rfl⟩
abbrev main_v17 : Ref sig .tc := ⟨.hbm, 67, rfl⟩
abbrev main_v18 : Ref sig .tc := ⟨.hbm, 68, rfl⟩
abbrev main_cst : Ref sig .tc := ⟨.hbm, 69, rfl⟩
abbrev main_v19 : Ref sig .tc := ⟨.hbm, 70, rfl⟩
abbrev main_v20 : Ref sig .tc := ⟨.hbm, 71, rfl⟩
abbrev main_cst_6 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_cst_8 : Ref sig .tc := ⟨.hbm, 80, rfl⟩
abbrev main_v27 : Ref sig .tc := ⟨.hbm, 81, rfl⟩
abbrev main_cst_9 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_c_10 : Ref sig .tc := ⟨.hbm, 89, rfl⟩
abbrev main_v34 : Ref sig .tc := ⟨.hbm, 90, rfl⟩
abbrev main_v35 : Ref sig .tc := ⟨.hbm, 91, rfl⟩
abbrev main_c_11 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_c_12 : Ref sig .tc := ⟨.hbm, 101, rfl⟩
abbrev main_v44 : Ref sig .tc := ⟨.hbm, 102, rfl⟩
abbrev main_v45 : Ref sig .tc := ⟨.hbm, 103, rfl⟩
abbrev main_c_13 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_14 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_call4_v5 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_c_15 : Ref sig .tc := ⟨.hbm, 151, rfl⟩
abbrev main_v83 : Ref sig .tc := ⟨.hbm, 152, rfl⟩
abbrev main_v84 : Ref sig .tc := ⟨.hbm, 153, rfl⟩
abbrev main_c_16 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_17 : Ref sig .tc := ⟨.hbm, 171, rfl⟩
abbrev main_v101 : Ref sig .tc := ⟨.hbm, 172, rfl⟩
abbrev main_v102 : Ref sig .tc := ⟨.hbm, 173, rfl⟩
abbrev main_cst_18 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_c_19 : Ref sig .tc := ⟨.hbm, 179, rfl⟩
abbrev main_v107 : Ref sig .tc := ⟨.hbm, 180, rfl⟩
abbrev main_v108 : Ref sig .tc := ⟨.hbm, 181, rfl⟩
abbrev main_c_20 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_cst_21 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_cst_22 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩

abbrev nD : Nat := 1
abbrev τ : Topo := Topo.v7x

variable {F : FTy → Type} [FloatOps F]

class Facts₀ : Prop where
  slices_S100_S1_99 : S100.Slices ![99] S1
  slices_S100_S99_0 : S100.Slices ![0] S99
  concatenates_S1_S99_S100_d0 : Shape.Concatenates [S1, S99] S100 0
  bcast_S_S1 : S_.BroadcastsInDim S1 (![] : Fin 0 → Fin S1.rank)
  bcast_S_S_ : S_.BroadcastsInDim S_ (![] : Fin 0 → Fin S_.rank)
  reduceWindows_S100_S100_w100s1p99_0 : S100.ReduceWindows (![100] : Fin 1 → Nat) ![1] ![99] ![0] S100
  h_S_ : 0 < S_.numel
  bcast_S_S50000 : S_.BroadcastsInDim S50000 (![] : Fin 0 → Fin S50000.rank)
  bcast_S_S100 : S_.BroadcastsInDim S100 (![] : Fin 0 → Fin S100.rank)
  bcast_S100_S100x1_0 : S100.BroadcastsInDim S100x1 (![0] : Fin 1 → Fin S100x1.rank)
  reduceWindows_S50000_S50000_w50000s1p49999_0 : S50000.ReduceWindows (![50000] : Fin 1 → Nat) ![1] ![49999] ![0] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  reducesTo_S50000x128_S50000_d1 : S50000x128.ReducesTo [1] S50000
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S384x128_S128x384_1_0 : S384x128.Transposes [1, 0] S128x384
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  transposes_S128x128_S128x128_1_0 : S128x128.Transposes [1, 0] S128x128
  bcast_S_S50000x128 : S_.BroadcastsInDim S50000x128 (![] : Fin 0 → Fin S50000x128.rank)
  bcast_S1x384_S50000x384_0_1 : S1x384.BroadcastsInDim S50000x384 (![0, 1] : Fin 2 → Fin S50000x384.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  transposes_S1x128_S128x1_1_0 : S1x128.Transposes [1, 0] S128x1
  bcast_S1x1_S400000x1_0_1 : S1x1.BroadcastsInDim S400000x1 (![0, 1] : Fin 2 → Fin S400000x1.rank)
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S400000x128_S400000x1x128_0_2 : S400000x128.BroadcastsInDim S400000x1x128 (![0, 2] : Fin 2 → Fin S400000x1x128.rank)
  bcast_S400000x1x128_S400000x3x128_0_1_2 : S400000x1x128.BroadcastsInDim S400000x3x128 (![0, 1, 2] : Fin 3 → Fin S400000x3x128.rank)
  bcast_S400000x3_S400000x3x1_0_1 : S400000x3.BroadcastsInDim S400000x3x1 (![0, 1] : Fin 2 → Fin S400000x3x1.rank)
  bcast_S400000x3x1_S400000x3x128_0_1_2 : S400000x3x1.BroadcastsInDim S400000x3x128 (![0, 1, 2] : Fin 3 → Fin S400000x3x128.rank)
  bcast_S400000x1_S400000x1x1_0_1 : S400000x1.BroadcastsInDim S400000x1x1 (![0, 1] : Fin 2 → Fin S400000x1x1.rank)
  bcast_S400000x1x1_S400000x3x128_0_1_2 : S400000x1x1.BroadcastsInDim S400000x3x128 (![0, 1, 2] : Fin 3 → Fin S400000x3x128.rank)
  bcast_S_S50000x3x128 : S_.BroadcastsInDim S50000x3x128 (![] : Fin 0 → Fin S50000x3x128.rank)
  scatter_S100_S1_S__n_0_0_0_wf : ScatterDims.WF S100 S1 S_ [] [0] [0] 0
  scatter_S50000_S100x1_S100_n_0_0_1_wf : ScatterDims.WF S50000 S100x1 S100 [] [0] [0] 1
  gather_S100_S50000x1_S50000_n_0_n_n_0_1_1_wf : GatherDims.WF S100 S50000x1 S50000 [] [0] [] [0] [] 1 ![1]
  scatter_S100_S50000x1_S50000_n_0_0_1_wf : ScatterDims.WF S100 S50000x1 S50000 [] [0] [0] 1
  dot_S400000x128_S128x384_S400000x384_1_0_0_1_n_n_wf : DotDims.WF S400000x128 S128x384 S400000x384 [1] [0] [0] [1] [] []
  dot_S50000x128_S128x128_S50000x128_1_0_0_1_n_n_wf : DotDims.WF S50000x128 S128x128 S50000x128 [1] [0] [0] [1] [] []
  dot_S50000x128_S128x384_S50000x384_1_0_0_1_n_n_wf : DotDims.WF S50000x128 S128x384 S50000x384 [1] [0] [0] [1] [] []
  gather_S50000x384_S400000x1_S400000x384_1_0_n_n_0_1_1384_wf : GatherDims.WF S50000x384 S400000x1 S400000x384 [1] [0] [] [0] [] 1 ![1, 384]
  dot_S400000x128_S128x1_S400000x1_1_0_0_1_n_n_wf : DotDims.WF S400000x128 S128x1 S400000x1 [1] [0] [0] [1] [] []
  gather_S50000x3x128_S400000x1_S400000x3x128_12_0_n_n_0_1_13128_wf : GatherDims.WF S50000x3x128 S400000x1 S400000x3x128 [1, 2] [0] [] [0] [] 1 ![1, 3, 128]
  scatter_S50000x128_S400000x1_S400000x128_1_0_0_1_wf : ScatterDims.WF S50000x128 S400000x1 S400000x128 [1] [0] [0] 1
  scatter_S50000x3x128_S400000x1_S400000x3x128_12_0_0_1_wf : ScatterDims.WF S50000x3x128 S400000x1 S400000x3x128 [1, 2] [0] [0] 1

variable [Facts₀]

def scatter_S100_S1_S__n_0_0_0 : ScatterDims S100 S1 S_ where
  updateWindowDims := []
  insertedWindowDims := [0]
  scatterDimsToOperandDims := [0]
  indexVectorDim := 0
  wf := scatter_S100_S1_S__n_0_0_0_wf
def scatter_S50000_S100x1_S100_n_0_0_1 : ScatterDims S50000 S100x1 S100 where
  updateWindowDims := []
  insertedWindowDims := [0]
  scatterDimsToOperandDims := [0]
  indexVectorDim := 1
  wf := scatter_S50000_S100x1_S100_n_0_0_1_wf
def gather_S100_S50000x1_S50000_n_0_n_n_0_1_1 : GatherDims S100 S50000x1 S50000 where
  offsetDims := []
  collapsedSliceDims := [0]
  operandBatchingDims := []
  startIndicesBatchingDims := []
  startIndexMap := [0]
  indexVectorDim := 1
  sliceSizes := ![1]
  wf := gather_S100_S50000x1_S50000_n_0_n_n_0_1_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def gather_S50000x384_S400000x1_S400000x384_1_0_n_n_0_1_1384 : GatherDims S50000x384 S400000x1 S400000x384 where
  offsetDims := [1]
  collapsedSliceDims := [0]
  operandBatchingDims := []
  startIndicesBatchingDims := []
  startIndexMap := [0]
  indexVectorDim := 1
  sliceSizes := ![1, 384]
  wf := gather_S50000x384_S400000x1_S400000x384_1_0_n_n_0_1_1384_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf
def gather_S50000x3x128_S400000x1_S400000x3x128_12_0_n_n_0_1_13128 : GatherDims S50000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S50000x3x128_S400000x1_S400000x3x128_12_0_n_n_0_1_13128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x3x128_S400000x1_S400000x3x128_12_0_0_1 : ScatterDims S50000x3x128 S400000x1 S400000x3x128 where
  updateWindowDims := [1, 2]
  insertedWindowDims := [0]
  scatterDimsToOperandDims := [0]
  indexVectorDim := 1
  wf := scatter_S50000x3x128_S400000x1_S400000x3x128_12_0_0_1_wf

class Facts : Prop extends Facts₀ where

variable [Facts]
-- ==== Proof.KernelRun.lean ====
/-
  The idealized kernel program's run with its two RESULT arrays named.

  The program is thirteen segments: nine stretches of host operations (the per-graph layer norm and the weights'
  transposes and reshapes), the node network's launch over ten blocks of 5000 rows, one stretch (the row gathers by
  the edges' source node, the column blocks of the edge weights), the edge network's launch over two hundred blocks of
  2000 rows, and a last stretch (the two sums over edges by destination node, added to the node states). Every weakly
  fair execution terminates without a fault, and at the end every unscoped buffer holds the contents of the last
  boundary: so each result buffer holds the last stretch's operations applied to what the edge launch leaves, and each
  argument array what it held at launch.
-/
import proofs.«148059_j40003325395258_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the two results at the last boundary's contents and the arguments as
    launched. -/
theorem run_values : θ_run defs (onTc (τ := τ) (main (F := F))) ⟨m, fun _ => 0, ρ⟩ (fun r => ∀ c : Dev nD,
      r.2.mem ((c.tc : Thread nD τ).loc main_v118) = W13 m ρ c (Proc.devRef .tc main_v118)
      ∧ r.2.mem ((c.tc : Thread nD τ).loc main_v119) = W13 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v118 (by decide)),
       h c _ (mem_uc main_v119 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

end Cert.KernelIdeal.KRun

end
-- ==== Proof.RefRun.lean ====
/- The reference program's @main as one straight line of host operations, and its run read back.

   @main runs three consecutive windows of statements and calls five outlined functions (a static roll, two
   cumulative sums each through an inner function, an index lookup that itself calls a select, and a
   sigmoid-weighted unit). A call executes the callee's body on the operands, so the straight line lists the
   callee's operations at the call site, over the buffers that call names: 87 + 68 + 39 = 194 operations.
   Every weakly fair execution terminates with each buffer at the fold of the operations' results over the
   launch contents; no operation writes an argument buffer, so the arguments keep their launch contents. -/
import proofs.«148059_j40003325395258_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's operations (statements 1 … 60): the roll, the first cumulative sum, the second cumulative
    sum and the index lookup each listed at its call over that call's buffers. -/
abbrev ops0 : List (HloOp τ sig (Elt F)) :=
  [ nullary main_v0 (iotaInDim S100 32 0),
    TRef.unary (.of main_arg5 : TRef sig ⟨S100, .i32⟩) main_call0.v0 (extractStridedSlice S1 ![99] · slices_S100_S1_99),
    TRef.unary (.of main_arg5 : TRef sig ⟨S100, .i32⟩) main_call0.v1 (extractStridedSlice S99 ![0] · slices_S100_S99_0),
    TRef.binary main_call0.v0 main_call0.v1 main_call0.v2 (fun a b => concatenate S100 0 [⟨S1, a⟩, ⟨S99, b⟩] concatenates_S1_S99_S100_d0),
    nullary main_c (constantI S_ 32 0#32),
    unary main_c main_v2 (broadcastInDim S1 ![] bcast_S_S1 : (⟨S_, .i32⟩ : BufTy).Contents (Elt F) → (⟨S1, .i32⟩ : BufTy).Contents (Elt F)),
    nullary main_c_0 (constantI S_ 32 0#32),
    ternary main_v1 main_v2 main_c_0 main_v3 ((fun x i u => Host.scatter scatter_S100_S1_S__n_0_0_0 (fun _ b => b) x i u) : (⟨S100, .i32⟩ : BufTy).Contents (Elt F) → (⟨S1, .i32⟩ : BufTy).Contents (Elt F) → (⟨S_, .i32⟩ : BufTy).Contents (Elt F) → (⟨S100, .i32⟩ : BufTy).Contents (Elt F)),
    TRef.nullary main_call1.call0.c (constantI S_ 32 0#32),
    TRef.unary main_call1.call0.c main_call1.call0.v0 (broadcastInDim S_ ![] bcast_S_S_),
    TRef.binary (.of main_v3 : TRef sig ⟨S100, .i32⟩) main_call1.call0.v0 main_call1.call0.v1 (fun x v => Host.reduceWindow IntOp.addi ![100] ![1] ![99] ![0] x v reduceWindows_S100_S100_w100s1p99_0 h_S_),
    nullary main_c_1 (constantI S_ 32 0#32),
    unary main_c_1 main_v5 (broadcastInDim S50000 ![] bcast_S_S50000 : (⟨S_, .i32⟩ : BufTy).Contents (Elt F) → (⟨S50000, .i32⟩ : BufTy).Contents (Elt F)),
    nullary main_c_2 (constantI S_ 32 0#32),
    unary main_c_2 main_v6 (broadcastInDim S100 ![] bcast_S_S100 : (⟨S_, .i32⟩ : BufTy).Contents (Elt F) → (⟨S100, .i32⟩ : BufTy).Contents (Elt F)),
    binary main_v4 main_v6 main_v7 (cmpi .slt : (⟨S100, .i32⟩ : BufTy).Contents (Elt F) → (⟨S100, .i32⟩ : BufTy).Contents (Elt F) → (⟨S100, .i1⟩ : BufTy).Contents (Elt F)),
    nullary main_c_3 (constantI S_ 32 50000#32),
    unary main_c_3 main_v8 (broadcastInDim S100 ![] bcast_S_S100 : (⟨S_, .i32⟩ : BufTy).Contents (Elt F) → (⟨S100, .i32⟩ : BufTy).Contents (Elt F)),
    binary main_v4 main_v8 main_v9 (addi : (⟨S100, .i32⟩ : BufTy).Contents (Elt F) → (⟨S100, .i32⟩ : BufTy).Contents (Elt F) → (⟨S100, .i32⟩ : BufTy).Contents (Elt F)),
    ternary main_v7 main_v9 main_v4 main_v10 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v10 main_v11 (broadcastInDim S100x1 ![0] bcast_S100_S100x1_0 : (⟨S100, .i32⟩ : BufTy).Contents (Elt F) → (⟨S100x1, .i32⟩ : BufTy).Contents (Elt F)),
    nullary main_c_4 (constantI S_ 32 1#32),
    unary main_c_4 main_v12 (broadcastInDim S100 ![] bcast_S_S100 : (⟨S_, .i32⟩ : BufTy).Contents (Elt F) → (⟨S100, .i32⟩ : BufTy).Contents (Elt F)),
    ternary main_v5 main_v11 main_v12 main_v13 ((fun x i u => Host.scatter scatter_S50000_S100x1_S100_n_0_0_1 IntOp.addi x i u) : (⟨S50000, .i32⟩ : BufTy).Contents (Elt F) → (⟨S100x1, .i32⟩ : BufTy).Contents (Elt F) → (⟨S100, .i32⟩ : BufTy).Contents (Elt F) → (⟨S50000, .i32⟩ : BufTy).Contents (Elt F)),
    TRef.nullary main_call2.call0.c (constantI S_ 32 0#32),
    TRef.unary main_call2.call0.c main_call2.call0.v0 (broadcastInDim S_ ![] bcast_S_S_),
    TRef.binary (.of main_v13 : TRef sig ⟨S50000, .i32⟩) main_call2.call0.v0 main_call2.call0.v1 (fun x v => Host.reduceWindow IntOp.addi ![50000] ![1] ![49999] ![0] x v reduceWindows_S50000_S50000_w50000s1p49999_0 h_S_),
    nullary main_c_5 (constantI S_ 32 1#32),
    unary main_c_5 main_v15 (broadcastInDim S50000 ![] bcast_S_S50000 : (⟨S_, .i32⟩ : BufTy).Contents (Elt F) → (⟨S50000, .i32⟩ : BufTy).Contents (Elt F)),
    binary main_v14 main_v15 main_v16 (subi : (⟨S50000, .i32⟩ : BufTy).Contents (Elt F) → (⟨S50000, .i32⟩ : BufTy).Contents (Elt F) → (⟨S50000, .i32⟩ : BufTy).Contents (Elt F)),
    TRef.nullary main_call3.c (constantI S_ 32 0#32),
    TRef.unary main_call3.c main_call3.v0 (broadcastInDim S50000 ![] bcast_S_S50000),
    TRef.binary (.of main_v16 : TRef sig ⟨S50000, .i32⟩) main_call3.v0 main_call3.v1 (cmpi .slt),
    TRef.nullary main_call3.c_0 (constantI S_ 32 100#32),
    TRef.unary main_call3.c_0 main_call3.v2 (broadcastInDim S50000 ![] bcast_S_S50000),
    TRef.binary (.of main_v16 : TRef sig ⟨S50000, .i32⟩) main_call3.v2 main_call3.v3 addi,
    TRef.ternary main_call3.v1 main_call3.v3 (.of main_v16 : TRef sig ⟨S50000, .i32⟩) main_call3.call0.v0 select,
    TRef.unary main_call3.call0.v0 main_call3.v5 (broadcastInDim S50000x1 ![0] bcast_S50000_S50000x1_0),
    TRef.nullary main_call3.c_1 (constantI S1 32 99#32),
    TRef.nullary main_call3.c_2 (constantI S_ 32 0#32),
    TRef.unary main_call3.c_2 main_call3.v6 (broadcastInDim S50000x1 ![] bcast_S_S50000x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S50000x1 ![0, 1] bcast_S1x1_S50000x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S50000x1_S50000_d1 h_S_),
    TRef.binary (.of main_v0 : TRef sig ⟨S100, .i32⟩) main_call3.v5 main_call3.v13 (fun x i => Host.gather gather_S100_S50000x1_S50000_n_0_n_n_0_1_1 x i),
    TRef.nullary main_call3.c_4 (constantI S_ 32 2147483648#32),
    TRef.unary main_call3.c_4 main_call3.v14 (broadcastInDim S50000 ![] bcast_S_S50000),
    TRef.ternary main_call3.v12 main_call3.v13 main_call3.v14 main_call3.v15 select,
    unary main_arg5 main_v18 (sitofp .f32 : (⟨S100, .i32⟩ : BufTy).Contents (Elt F) → (⟨S100, .f32⟩ : BufTy).Contents (Elt F)),
    nullary main_cst (constant S_ .f32 0x43000000#32),
    unary main_cst main_v19 (broadcastInDim S100 ![] bcast_S_S100 : (⟨S_, .f32⟩ : BufTy).Contents (Elt F) → (⟨S100, .f32⟩ : BufTy).Contents (Elt F)),
    binary main_v18 main_v19 main_v20 (mulf : (⟨S100, .f32⟩ : BufTy).Contents (Elt F) → (⟨S100, .f32⟩ : BufTy).Contents (Elt F) → (⟨S100, .f32⟩ : BufTy).Contents (Elt F)),
    nullary main_cst_6 (constant S_ .f32 0x00000000#32),
    binary main_arg0 main_cst_6 main_v21 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_cst_7 (constant S_ .f32 0x00000000#32),
    unary main_cst_7 main_v22 (broadcastInDim S100 ![] bcast_S_S100 : (⟨S_, .f32⟩ : BufTy).Contents (Elt F) → (⟨S100, .f32⟩ : BufTy).Contents (Elt F)),
    unary main_v17 main_v23 (broadcastInDim S50000x1 ![0] bcast_S50000_S50000x1_0 : (⟨S50000, .i32⟩ : BufTy).Contents (Elt F) → (⟨S50000x1, .i32⟩ : BufTy).Contents (Elt F)),
    ternary main_v22 main_v23 main_v21 main_v24 ((fun x i u => Host.scatterAdd scatter_S100_S50000x1_S50000_n_0_0_1 x i u) : (⟨S100, .f32⟩ : BufTy).Contents (Elt F) → (⟨S50000x1, .i32⟩ : BufTy).Contents (Elt F) → (⟨S50000, .f32⟩ : BufTy).Contents (Elt F) → (⟨S100, .f32⟩ : BufTy).Contents (Elt F)),
    binary main_v24 main_v20 main_v25 (Host.divf : (⟨S100, .f32⟩ : BufTy).Contents (Elt F) → (⟨S100, .f32⟩ : BufTy).Contents (Elt F) → (⟨S100, .f32⟩ : BufTy).Contents (Elt F)),
    binary main_arg0 main_arg0 main_v26 (mulf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x00000000#32),
    binary main_v26 main_cst_8 main_v27 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_cst_9 (constant S_ .f32 0x00000000#32),
    unary main_cst_9 main_v28 (broadcastInDim S100 ![] bcast_S_S100 : (⟨S_, .f32⟩ : BufTy).Contents (Elt F) → (⟨S100, .f32⟩ : BufTy).Contents (Elt F)),
    unary main_v17 main_v29 (broadcastInDim S50000x1 ![0] bcast_S50000_S50000x1_0 : (⟨S50000, .i32⟩ : BufTy).Contents (Elt F) → (⟨S50000x1, .i32⟩ : BufTy).Contents (Elt F)),
    ternary main_v28 main_v29 main_v27 main_v30 ((fun x i u => Host.scatterAdd scatter_S100_S50000x1_S50000_n_0_0_1 x i u) : (⟨S100, .f32⟩ : BufTy).Contents (Elt F) → (⟨S50000x1, .i32⟩ : BufTy).Contents (Elt F) → (⟨S50000, .f32⟩ : BufTy).Contents (Elt F) → (⟨S100, .f32⟩ : BufTy).Contents (Elt F)),
    binary main_v30 main_v20 main_v31 (Host.divf : (⟨S100, .f32⟩ : BufTy).Contents (Elt F) → (⟨S100, .f32⟩ : BufTy).Contents (Elt F) → (⟨S100, .f32⟩ : BufTy).Contents (Elt F)),
    binary main_v25 main_v25 main_v32 (mulf : (⟨S100, .f32⟩ : BufTy).Contents (Elt F) → (⟨S100, .f32⟩ : BufTy).Contents (Elt F) → (⟨S100, .f32⟩ : BufTy).Contents (Elt F)),
    binary main_v31 main_v32 main_v33 (subf : (⟨S100, .f32⟩ : BufTy).Contents (Elt F) → (⟨S100, .f32⟩ : BufTy).Contents (Elt F) → (⟨S100, .f32⟩ : BufTy).Contents (Elt F)),
    nullary main_c_10 (constantI S_ 32 0#32),
    unary main_c_10 main_v34 (broadcastInDim S50000 ![] bcast_S_S50000 : (⟨S_, .i32⟩ : BufTy).Contents (Elt F) → (⟨S50000, .i32⟩ : BufTy).Contents (Elt F)),
    binary main_v17 main_v34 main_v35 (cmpi .slt : (⟨S50000, .i32⟩ : BufTy).Contents (Elt F) → (⟨S50000, .i32⟩ : BufTy).Contents (Elt F) → (⟨S50000, .i1⟩ : BufTy).Contents (Elt F)),
    nullary main_c_11 (constantI S_ 32 100#32),
    unary main_c_11 main_v36 (broadcastInDim S50000 ![] bcast_S_S50000 : (⟨S_, .i32⟩ : BufTy).Contents (Elt F) → (⟨S50000, .i32⟩ : BufTy).Contents (Elt F)),
    binary main_v17 main_v36 main_v37 (addi : (⟨S50000, .i32⟩ : BufTy).Contents (Elt F) → (⟨S50000, .i32⟩ : BufTy).Contents (Elt F) → (⟨S50000, .i32⟩ : BufTy).Contents (Elt F)),
    ternary main_v35 main_v37 main_v17 main_v38 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v38 main_v39 (broadcastInDim S50000x1 ![0] bcast_S50000_S50000x1_0 : (⟨S50000, .i32⟩ : BufTy).Contents (Elt F) → (⟨S50000x1, .i32⟩ : BufTy).Contents (Elt F)),
    binary main_v25 main_v39 main_v40 ((fun x i => Host.gather gather_S100_S50000x1_S50000_n_0_n_n_0_1_1 x i) : (⟨S100, .f32⟩ : BufTy).Contents (Elt F) → (⟨S50000x1, .i32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_arg0 main_v42 main_v43 (subf : (⟨S50000x128, .f32⟩ : BufTy).Contents (Elt F) → (⟨S50000x128, .f32⟩ : BufTy).Contents (Elt F) → (⟨S50000x128, .f32⟩ : BufTy).Contents (Elt F)),
    nullary main_c_12 (constantI S_ 32 0#32),
    unary main_c_12 main_v44 (broadcastInDim S50000 ![] bcast_S_S50000 : (⟨S_, .i32⟩ : BufTy).Contents (Elt F) → (⟨S50000, .i32⟩ : BufTy).Contents (Elt F)) ]

/-- The second window's operations (statements 61 … 120): the sigmoid-weighted unit listed at its call. -/
abbrev ops1 : List (HloOp τ sig (Elt F)) :=
  [ binary main_v17 main_v44 main_v45 (cmpi .slt : (⟨S50000, .i32⟩ : BufTy).Contents (Elt F) → (⟨S50000, .i32⟩ : BufTy).Contents (Elt F) → (⟨S50000, .i1⟩ : BufTy).Contents (Elt F)),
    nullary main_c_13 (constantI S_ 32 100#32),
    unary main_c_13 main_v46 (broadcastInDim S50000 ![] bcast_S_S50000 : (⟨S_, .i32⟩ : BufTy).Contents (Elt F) → (⟨S50000, .i32⟩ : BufTy).Contents (Elt F)),
    binary main_v17 main_v46 main_v47 (addi : (⟨S50000, .i32⟩ : BufTy).Contents (Elt F) → (⟨S50000, .i32⟩ : BufTy).Contents (Elt F) → (⟨S50000, .i32⟩ : BufTy).Contents (Elt F)),
    ternary main_v45 main_v47 main_v17 main_v48 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v48 main_v49 (broadcastInDim S50000x1 ![0] bcast_S50000_S50000x1_0 : (⟨S50000, .i32⟩ : BufTy).Contents (Elt F) → (⟨S50000x1, .i32⟩ : BufTy).Contents (Elt F)),
    binary main_v33 main_v49 main_v50 ((fun x i => Host.gather gather_S100_S50000x1_S50000_n_0_n_n_0_1_1 x i) : (⟨S100, .f32⟩ : BufTy).Contents (Elt F) → (⟨S50000x1, .i32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    nullary main_cst_14 (constant S_ .f32 0x3727C5AC#32),
    unary main_cst_14 main_v52 (broadcastInDim S50000x1 ![] bcast_S_S50000x1 : (⟨S_, .f32⟩ : BufTy).Contents (Elt F) → (⟨S50000x1, .f32⟩ : BufTy).Contents (Elt F)),
    binary main_v51 main_v52 main_v53 (addf : (⟨S50000x1, .f32⟩ : BufTy).Contents (Elt F) → (⟨S50000x1, .f32⟩ : BufTy).Contents (Elt F) → (⟨S50000x1, .f32⟩ : BufTy).Contents (Elt F)),
    unary main_v53 main_v54 (Host.rsqrt : (⟨S50000x1, .f32⟩ : BufTy).Contents (Elt F) → (⟨S50000x1, .f32⟩ : BufTy).Contents (Elt F)),
    unary main_v54 main_v55 (broadcastInDim S50000x128 ![0, 1] bcast_S50000x1_S50000x128_0_1 : (⟨S50000x1, .f32⟩ : BufTy).Contents (Elt F) → (⟨S50000x128, .f32⟩ : BufTy).Contents (Elt F)),
    binary main_v43 main_v55 main_v56 (mulf : (⟨S50000x128, .f32⟩ : BufTy).Contents (Elt F) → (⟨S50000x128, .f32⟩ : BufTy).Contents (Elt F) → (⟨S50000x128, .f32⟩ : BufTy).Contents (Elt F)),
    unary main_arg14 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v56 main_v58 main_v59 (mulf : (⟨S50000x128, .f32⟩ : BufTy).Contents (Elt F) → (⟨S50000x128, .f32⟩ : BufTy).Contents (Elt F) → (⟨S50000x128, .f32⟩ : BufTy).Contents (Elt F)),
    unary main_arg15 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (addf : (⟨S50000x128, .f32⟩ : BufTy).Contents (Elt F) → (⟨S50000x128, .f32⟩ : BufTy).Contents (Elt F) → (⟨S50000x128, .f32⟩ : BufTy).Contents (Elt F)),
    unary main_arg6 main_v63 ((transpose S128x384 [1, 0] · transposes_S384x128_S128x384_1_0) : (⟨S384x128, .f32⟩ : BufTy).Contents (Elt F) → (⟨S128x384, .f32⟩ : BufTy).Contents (Elt F)),
    binary main_arg2 main_v63 main_v64 ((fun l r => Host.dotGeneral dot_S400000x128_S128x384_S400000x384_1_0_0_1_n_n none l r) : (⟨S400000x128, .f32⟩ : BufTy).Contents (Elt F) → (⟨S128x384, .f32⟩ : BufTy).Contents (Elt F) → (⟨S400000x384, .f32⟩ : BufTy).Contents (Elt F)),
    unary main_arg7 main_v65 (broadcastInDim S1x384 ![1] bcast_S384_S1x384_1 : (⟨S384, .f32⟩ : BufTy).Contents (Elt F) → (⟨S1x384, .f32⟩ : BufTy).Contents (Elt F)),
    unary main_v65 main_v66 (broadcastInDim S400000x384 ![0, 1] bcast_S1x384_S400000x384_0_1 : (⟨S1x384, .f32⟩ : BufTy).Contents (Elt F) → (⟨S400000x384, .f32⟩ : BufTy).Contents (Elt F)),
    binary main_v64 main_v66 main_v67 (addf : (⟨S400000x384, .f32⟩ : BufTy).Contents (Elt F) → (⟨S400000x384, .f32⟩ : BufTy).Contents (Elt F) → (⟨S400000x384, .f32⟩ : BufTy).Contents (Elt F)),
    unary main_arg8 main_v68 ((transpose S128x128 [1, 0] · transposes_S128x128_S128x128_1_0) : (⟨S128x128, .f32⟩ : BufTy).Contents (Elt F) → (⟨S128x128, .f32⟩ : BufTy).Contents (Elt F)),
    binary main_v62 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    TRef.unary (.of main_v72 : TRef sig ⟨S50000x128, .f32⟩) main_call4.v0 Host.negf,
    TRef.unary main_call4.v0 main_call4.v1 Host.exp,
    TRef.nullary main_call4.cst (constant S_ .f32 0x3F800000#32),
    TRef.unary main_call4.cst main_call4.v2 (broadcastInDim S50000x128 ![] bcast_S_S50000x128),
    TRef.binary main_call4.v2 main_call4.v1 main_call4.v3 addf,
    TRef.nullary main_call4.cst_0 (constant S_ .f32 0x3F800000#32),
    TRef.unary main_call4.cst_0 main_call4.v4 (broadcastInDim S50000x128 ![] bcast_S_S50000x128),
    TRef.binary main_call4.v4 main_call4.v3 main_call4.v5 Host.divf,
    TRef.binary (.of main_v72 : TRef sig ⟨S50000x128, .f32⟩) main_call4.v5 main_call4.v6 mulf,
    unary main_arg10 main_v74 ((transpose S128x384 [1, 0] · transposes_S384x128_S128x384_1_0) : (⟨S384x128, .f32⟩ : BufTy).Contents (Elt F) → (⟨S128x384, .f32⟩ : BufTy).Contents (Elt F)),
    binary main_v73 main_v74 main_v75 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg11 main_v76 (broadcastInDim S1x384 ![1] bcast_S384_S1x384_1 : (⟨S384, .f32⟩ : BufTy).Contents (Elt F) → (⟨S1x384, .f32⟩ : BufTy).Contents (Elt F)),
    unary main_v76 main_v77 (broadcastInDim S50000x384 ![0, 1] bcast_S1x384_S50000x384_0_1 : (⟨S1x384, .f32⟩ : BufTy).Contents (Elt F) → (⟨S50000x384, .f32⟩ : BufTy).Contents (Elt F)),
    binary main_v75 main_v77 main_v78 (addf : (⟨S50000x384, .f32⟩ : BufTy).Contents (Elt F) → (⟨S50000x384, .f32⟩ : BufTy).Contents (Elt F) → (⟨S50000x384, .f32⟩ : BufTy).Contents (Elt F)),
    unary main_arg4 main_v79 ((extractStridedSlice S400000x1 ![0, 0] · slices_S400000x2_S400000x1_0_0) : (⟨S400000x2, .i32⟩ : BufTy).Contents (Elt F) → (⟨S400000x1, .i32⟩ : BufTy).Contents (Elt F)),
    reshape main_v79 main_v80 rfl shapeCasts_S400000x1_S400000,
    unary main_arg4 main_v81 ((extractStridedSlice S400000x1 ![0, 1] · slices_S400000x2_S400000x1_0_1) : (⟨S400000x2, .i32⟩ : BufTy).Contents (Elt F) → (⟨S400000x1, .i32⟩ : BufTy).Contents (Elt F)),
    reshape main_v81 main_v82 rfl shapeCasts_S400000x1_S400000,
    nullary main_c_15 (constantI S_ 32 0#32),
    unary main_c_15 main_v83 (broadcastInDim S400000 ![] bcast_S_S400000 : (⟨S_, .i32⟩ : BufTy).Contents (Elt F) → (⟨S400000, .i32⟩ : BufTy).Contents (Elt F)),
    binary main_v80 main_v83 main_v84 (cmpi .slt : (⟨S400000, .i32⟩ : BufTy).Contents (Elt F) → (⟨S400000, .i32⟩ : BufTy).Contents (Elt F) → (⟨S400000, .i1⟩ : BufTy).Contents (Elt F)),
    nullary main_c_16 (constantI S_ 32 50000#32),
    unary main_c_16 main_v85 (broadcastInDim S400000 ![] bcast_S_S400000 : (⟨S_, .i32⟩ : BufTy).Contents (Elt F) → (⟨S400000, .i32⟩ : BufTy).Contents (Elt F)),
    binary main_v80 main_v85 main_v86 (addi : (⟨S400000, .i32⟩ : BufTy).Contents (Elt F) → (⟨S400000, .i32⟩ : BufTy).Contents (Elt F) → (⟨S400000, .i32⟩ : BufTy).Contents (Elt F)),
    ternary main_v84 main_v86 main_v80 main_v87 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v87 main_v88 (broadcastInDim S400000x1 ![0] bcast_S400000_S400000x1_0 : (⟨S400000, .i32⟩ : BufTy).Contents (Elt F) → (⟨S400000x1, .i32⟩ : BufTy).Contents (Elt F)),
    binary main_v78 main_v88 main_v89 ((fun x i => Host.gather gather_S50000x384_S400000x1_S400000x384_1_0_n_n_0_1_1384 x i) : (⟨S50000x384, .f32⟩ : BufTy).Contents (Elt F) → (⟨S400000x1, .i32⟩ : BufTy).Contents (Elt F) → (⟨S400000x384, .f32⟩ : BufTy).Contents (Elt F)),
    binary main_v67 main_v89 main_v90 (mulf : (⟨S400000x384, .f32⟩ : BufTy).Contents (Elt F) → (⟨S400000x384, .f32⟩ : BufTy).Contents (Elt F) → (⟨S400000x384, .f32⟩ : BufTy).Contents (Elt F)),
    unary main_v90 main_v91 ((extractStridedSlice S400000x128 ![0, 0] · slices_S400000x384_S400000x128_0_0) : (⟨S400000x384, .f32⟩ : BufTy).Contents (Elt F) → (⟨S400000x128, .f32⟩ : BufTy).Contents (Elt F)),
    unary main_v90 main_v92 ((extractStridedSlice S400000x128 ![0, 128] · slices_S400000x384_S400000x128_0_128) : (⟨S400000x384, .f32⟩ : BufTy).Contents (Elt F) → (⟨S400000x128, .f32⟩ : BufTy).Contents (Elt F)),
    unary main_v90 main_v93 ((extractStridedSlice S400000x128 ![0, 256] · slices_S400000x384_S400000x128_0_256) : (⟨S400000x384, .f32⟩ : BufTy).Contents (Elt F) → (⟨S400000x128, .f32⟩ : BufTy).Contents (Elt F)),
    unary main_arg12 main_v94 ((transpose S128x1 [1, 0] · transposes_S1x128_S128x1_1_0) : (⟨S1x128, .f32⟩ : BufTy).Contents (Elt F) → (⟨S128x1, .f32⟩ : BufTy).Contents (Elt F)),
    binary main_v91 main_v94 main_v95 ((fun l r => Host.dotGeneral dot_S400000x128_S128x1_S400000x1_1_0_0_1_n_n none l r) : (⟨S400000x128, .f32⟩ : BufTy).Contents (Elt F) → (⟨S128x1, .f32⟩ : BufTy).Contents (Elt F) → (⟨S400000x1, .f32⟩ : BufTy).Contents (Elt F)),
    unary main_arg13 main_v96 (broadcastInDim S1x1 ![1] bcast_S1_S1x1_1 : (⟨S1, .f32⟩ : BufTy).Contents (Elt F) → (⟨S1x1, .f32⟩ : BufTy).Contents (Elt F)),
    unary main_v96 main_v97 (broadcastInDim S400000x1 ![0, 1] bcast_S1x1_S400000x1_0_1 : (⟨S1x1, .f32⟩ : BufTy).Contents (Elt F) → (⟨S400000x1, .f32⟩ : BufTy).Contents (Elt F)),
    binary main_v95 main_v97 main_v98 (addf : (⟨S400000x1, .f32⟩ : BufTy).Contents (Elt F) → (⟨S400000x1, .f32⟩ : BufTy).Contents (Elt F) → (⟨S400000x1, .f32⟩ : BufTy).Contents (Elt F)),
    unary main_v98 main_v99 (Host.negf : (⟨S400000x1, .f32⟩ : BufTy).Contents (Elt F) → (⟨S400000x1, .f32⟩ : BufTy).Contents (Elt F)),
    unary main_v99 main_v100 (Host.exp : (⟨S400000x1, .f32⟩ : BufTy).Contents (Elt F) → (⟨S400000x1, .f32⟩ : BufTy).Contents (Elt F)) ]

/-- The third window's operations (statements 121 … 160; the last statement is the return). -/
abbrev ops2 : List (HloOp τ sig (Elt F)) :=
  [ nullary main_cst_17 (constant S_ .f32 0x3F800000#32),
    unary main_cst_17 main_v101 (broadcastInDim S400000x1 ![] bcast_S_S400000x1 : (⟨S_, .f32⟩ : BufTy).Contents (Elt F) → (⟨S400000x1, .f32⟩ : BufTy).Contents (Elt F)),
    binary main_v101 main_v100 main_v102 (addf : (⟨S400000x1, .f32⟩ : BufTy).Contents (Elt F) → (⟨S400000x1, .f32⟩ : BufTy).Contents (Elt F) → (⟨S400000x1, .f32⟩ : BufTy).Contents (Elt F)),
    nullary main_cst_18 (constant S_ .f32 0x3F800000#32),
    unary main_cst_18 main_v103 (broadcastInDim S400000x1 ![] bcast_S_S400000x1 : (⟨S_, .f32⟩ : BufTy).Contents (Elt F) → (⟨S400000x1, .f32⟩ : BufTy).Contents (Elt F)),
    binary main_v103 main_v102 main_v104 (Host.divf : (⟨S400000x1, .f32⟩ : BufTy).Contents (Elt F) → (⟨S400000x1, .f32⟩ : BufTy).Contents (Elt F) → (⟨S400000x1, .f32⟩ : BufTy).Contents (Elt F)),
    unary main_v104 main_v105 (broadcastInDim S400000x128 ![0, 1] bcast_S400000x1_S400000x128_0_1 : (⟨S400000x1, .f32⟩ : BufTy).Contents (Elt F) → (⟨S400000x128, .f32⟩ : BufTy).Contents (Elt F)),
    binary main_v91 main_v105 main_v106 (mulf : (⟨S400000x128, .f32⟩ : BufTy).Contents (Elt F) → (⟨S400000x128, .f32⟩ : BufTy).Contents (Elt F) → (⟨S400000x128, .f32⟩ : BufTy).Contents (Elt F)),
    nullary main_c_19 (constantI S_ 32 0#32),
    unary main_c_19 main_v107 (broadcastInDim S400000 ![] bcast_S_S400000 : (⟨S_, .i32⟩ : BufTy).Contents (Elt F) → (⟨S400000, .i32⟩ : BufTy).Contents (Elt F)),
    binary main_v80 main_v107 main_v108 (cmpi .slt : (⟨S400000, .i32⟩ : BufTy).Contents (Elt F) → (⟨S400000, .i32⟩ : BufTy).Contents (Elt F) → (⟨S400000, .i1⟩ : BufTy).Contents (Elt F)),
    nullary main_c_20 (constantI S_ 32 50000#32),
    unary main_c_20 main_v109 (broadcastInDim S400000 ![] bcast_S_S400000 : (⟨S_, .i32⟩ : BufTy).Contents (Elt F) → (⟨S400000, .i32⟩ : BufTy).Contents (Elt F)),
    binary main_v80 main_v109 main_v110 (addi : (⟨S400000, .i32⟩ : BufTy).Contents (Elt F) → (⟨S400000, .i32⟩ : BufTy).Contents (Elt F) → (⟨S400000, .i32⟩ : BufTy).Contents (Elt F)),
    ternary main_v108 main_v110 main_v80 main_v111 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v111 main_v112 (broadcastInDim S400000x1 ![0] bcast_S400000_S400000x1_0 : (⟨S400000, .i32⟩ : BufTy).Contents (Elt F) → (⟨S400000x1, .i32⟩ : BufTy).Contents (Elt F)),
    binary main_arg1 main_v112 main_v113 ((fun x i => Host.gather gather_S50000x3x128_S400000x1_S400000x3x128_12_0_n_n_0_1_13128 x i) : (⟨S50000x3x128, .f32⟩ : BufTy).Contents (Elt F) → (⟨S400000x1, .i32⟩ : BufTy).Contents (Elt F) → (⟨S400000x3x128, .f32⟩ : BufTy).Contents (Elt F)),
    unary main_v92 main_v114 (broadcastInDim S400000x1x128 ![0, 2] bcast_S400000x128_S400000x1x128_0_2 : (⟨S400000x128, .f32⟩ : BufTy).Contents (Elt F) → (⟨S400000x1x128, .f32⟩ : BufTy).Contents (Elt F)),
    unary main_v114 main_v115 (broadcastInDim S400000x3x128 ![0, 1, 2] bcast_S400000x1x128_S400000x3x128_0_1_2 : (⟨S400000x1x128, .f32⟩ : BufTy).Contents (Elt F) → (⟨S400000x3x128, .f32⟩ : BufTy).Contents (Elt F)),
    binary main_v113 main_v115 main_v116 (mulf : (⟨S400000x3x128, .f32⟩ : BufTy).Contents (Elt F) → (⟨S400000x3x128, .f32⟩ : BufTy).Contents (Elt F) → (⟨S400000x3x128, .f32⟩ : BufTy).Contents (Elt F)),
    unary main_v93 main_v117 (broadcastInDim S400000x1x128 ![0, 2] bcast_S400000x128_S400000x1x128_0_2 : (⟨S400000x128, .f32⟩ : BufTy).Contents (Elt F) → (⟨S400000x1x128, .f32⟩ : BufTy).Contents (Elt F)),
    unary main_arg3 main_v118 (broadcastInDim S400000x3x1 ![0, 1] bcast_S400000x3_S400000x3x1_0_1 : (⟨S400000x3, .f32⟩ : BufTy).Contents (Elt F) → (⟨S400000x3x1, .f32⟩ : BufTy).Contents (Elt F)),
    unary main_v117 main_v119 (broadcastInDim S400000x3x128 ![0, 1, 2] bcast_S400000x1x128_S400000x3x128_0_1_2 : (⟨S400000x1x128, .f32⟩ : BufTy).Contents (Elt F) → (⟨S400000x3x128, .f32⟩ : BufTy).Contents (Elt F)),
    unary main_v118 main_v120 (broadcastInDim S400000x3x128 ![0, 1, 2] bcast_S400000x3x1_S400000x3x128_0_1_2 : (⟨S400000x3x1, .f32⟩ : BufTy).Contents (Elt F) → (⟨S400000x3x128, .f32⟩ : BufTy).Contents (Elt F)),
    binary main_v119 main_v120 main_v121 (mulf : (⟨S400000x3x128, .f32⟩ : BufTy).Contents (Elt F) → (⟨S400000x3x128, .f32⟩ : BufTy).Contents (Elt F) → (⟨S400000x3x128, .f32⟩ : BufTy).Contents (Elt F)),
    binary main_v116 main_v121 main_v122 (addf : (⟨S400000x3x128, .f32⟩ : BufTy).Contents (Elt F) → (⟨S400000x3x128, .f32⟩ : BufTy).Contents (Elt F) → (⟨S400000x3x128, .f32⟩ : BufTy).Contents (Elt F)),
    unary main_v104 main_v123 (broadcastInDim S400000x1x1 ![0, 1] bcast_S400000x1_S400000x1x1_0_1 : (⟨S400000x1, .f32⟩ : BufTy).Contents (Elt F) → (⟨S400000x1x1, .f32⟩ : BufTy).Contents (Elt F)),
    unary main_v123 main_v124 (broadcastInDim S400000x3x128 ![0, 1, 2] bcast_S400000x1x1_S400000x3x128_0_1_2 : (⟨S400000x1x1, .f32⟩ : BufTy).Contents (Elt F) → (⟨S400000x3x128, .f32⟩ : BufTy).Contents (Elt F)),
    binary main_v122 main_v124 main_v125 (mulf : (⟨S400000x3x128, .f32⟩ : BufTy).Contents (Elt F) → (⟨S400000x3x128, .f32⟩ : BufTy).Contents (Elt F) → (⟨S400000x3x128, .f32⟩ : BufTy).Contents (Elt F)),
    nullary main_cst_21 (constant S_ .f32 0x00000000#32),
    unary main_cst_21 main_v126 (broadcastInDim S50000x128 ![] bcast_S_S50000x128 : (⟨S_, .f32⟩ : BufTy).Contents (Elt F) → (⟨S50000x128, .f32⟩ : BufTy).Contents (Elt F)),
    unary main_v82 main_v127 (broadcastInDim S400000x1 ![0] bcast_S400000_S400000x1_0 : (⟨S400000, .i32⟩ : BufTy).Contents (Elt F) → (⟨S400000x1, .i32⟩ : BufTy).Contents (Elt F)),
    ternary main_v126 main_v127 main_v106 main_v128 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_22 (constant S_ .f32 0x00000000#32),
    unary main_cst_22 main_v129 (broadcastInDim S50000x3x128 ![] bcast_S_S50000x3x128 : (⟨S_, .f32⟩ : BufTy).Contents (Elt F) → (⟨S50000x3x128, .f32⟩ : BufTy).Contents (Elt F)),
    unary main_v82 main_v130 (broadcastInDim S400000x1 ![0] bcast_S400000_S400000x1_0 : (⟨S400000, .i32⟩ : BufTy).Contents (Elt F) → (⟨S400000x1, .i32⟩ : BufTy).Contents (Elt F)),
    ternary main_v129 main_v130 main_v125 main_v131 ((fun x i u => Host.scatterAdd scatter_S50000x3x128_S400000x1_S400000x3x128_12_0_0_1 x i u) : (⟨S50000x3x128, .f32⟩ : BufTy).Contents (Elt F) → (⟨S400000x1, .i32⟩ : BufTy).Contents (Elt F) → (⟨S400000x3x128, .f32⟩ : BufTy).Contents (Elt F) → (⟨S50000x3x128, .f32⟩ : BufTy).Contents (Elt F)),
    binary main_v62 main_v128 main_v132 (addf : (⟨S50000x128, .f32⟩ : BufTy).Contents (Elt F) → (⟨S50000x128, .f32⟩ : BufTy).Contents (Elt F) → (⟨S50000x128, .f32⟩ : BufTy).Contents (Elt F)),
    binary main_arg1 main_v131 main_v133 (addf : (⟨S50000x3x128, .f32⟩ : BufTy).Contents (Elt F) → (⟨S50000x3x128, .f32⟩ : BufTy).Contents (Elt F) → (⟨S50000x3x128, .f32⟩ : BufTy).Contents (Elt F)) ]

/-- @main's operations in program order: the three windows one after the other. -/
abbrev ops : List (HloOp τ sig (Elt F)) := ops0 ++ ops1 ++ ops2

set_option maxRecDepth 8192 in
set_option maxHeartbeats 2000000 in
/-- The first window is its straight line: the called functions' definitions unfolded at their calls and the
    records at their fields, both sides are one chain of steps once sequencing is reassociated. -/
theorem main_part0_eq (c : Dev nD) : main_part0 (F := F) c = seq ops0 := by
  simp only [main_part0, fn_roll_static.body, fn_cumsum.body, fn_cumsum_0.body, fn_cumsum_1.body, fn_cumsum_2.body,
    fn_take.body, fn_where.body, seq, bind_assoc, pure_bind]
  rfl

set_option maxRecDepth 8192 in
set_option maxHeartbeats 2000000 in
/-- The second window is its straight line, the one call unfolded. -/
theorem main_part1_eq (c : Dev nD) : main_part1 (F := F) c = seq ops1 := by
  simp only [main_part1, fn_silu.body, seq, bind_assoc, pure_bind]
  rfl

set_option maxRecDepth 8192 in
/-- The third window makes no call: it is its straight line as it stands. -/
theorem main_part2_eq (c : Dev nD) : main_part2 (F := F) c = seq ops2 := rfl

/-- @main runs the three windows in order, and two lines run one after the other are their concatenation run as one. -/
theorem main_eq (c : Dev nD) : main (F := F) c = seq ops := by
  simp only [ops, List.append_assoc, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., unary_bufs_sub .., binary_bufs_sub .., nullary_bufs_sub .., unary_bufs_sub ..,
    nullary_bufs_sub .., ternary_bufs_sub .., nullary_bufs_sub .., unary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., unary_bufs_sub .., nullary_bufs_sub ..,
    unary_bufs_sub .., binary_bufs_sub .., nullary_bufs_sub .., binary_bufs_sub .., nullary_bufs_sub .., unary_bufs_sub ..,
    unary_bufs_sub .., ternary_bufs_sub .., binary_bufs_sub .., binary_bufs_sub .., nullary_bufs_sub .., binary_bufs_sub ..,
    nullary_bufs_sub .., unary_bufs_sub .., unary_bufs_sub .., ternary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub ..⟩

theorem ops1_sub : (ops1 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., unary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., unary_bufs_sub .., binary_bufs_sub .., unary_bufs_sub ..,
    unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    unary_bufs_sub .., unary_bufs_sub .., binary_bufs_sub .., unary_bufs_sub .., unary_bufs_sub .., binary_bufs_sub ..,
    unary_bufs_sub .., unary_bufs_sub ..⟩

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., unary_bufs_sub .., unary_bufs_sub .., unary_bufs_sub .., unary_bufs_sub ..,
    binary_bufs_sub .., binary_bufs_sub .., unary_bufs_sub .., unary_bufs_sub .., binary_bufs_sub .., nullary_bufs_sub ..,
    unary_bufs_sub .., unary_bufs_sub .., ternary_bufs_sub .., nullary_bufs_sub .., unary_bufs_sub .., unary_bufs_sub ..,
    ternary_bufs_sub .., binary_bufs_sub .., binary_bufs_sub ..⟩

/-- Every operation touches TensorCore buffers only: each window's do, and a member of the concatenation is a
    member of one of the windows. -/
theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp ops0_sub op h, List.forall_iff_forall_mem.mp ops1_sub op h,
      List.forall_iff_forall_mem.mp ops2_sub op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation of the line writes an argument buffer: each operation's result at an argument is what was there. -/

theorem arg_eq0 (V : Valuation τ sig (Elt F)) :
    after ops V (main_arg0 : DevRef τ sig) = V (main_arg0 : DevRef τ sig) := by
  simp only [ops, after_append]
  after_results_simp

theorem arg_eq1 (V : Valuation τ sig (Elt F)) :
    after ops V (main_arg1 : DevRef τ sig) = V (main_arg1 : DevRef τ sig) := by
  simp only [ops, after_append]
  after_results_simp

theorem arg_eq2 (V : Valuation τ sig (Elt F)) :
    after ops V (main_arg2 : DevRef τ sig) = V (main_arg2 : DevRef τ sig) := by
  simp only [ops, after_append]
  after_results_simp

theorem arg_eq3 (V : Valuation τ sig (Elt F)) :
    after ops V (main_arg3 : DevRef τ sig) = V (main_arg3 : DevRef τ sig) := by
  simp only [ops, after_append]
  after_results_simp

theorem arg_eq4 (V : Valuation τ sig (Elt F)) :
    after ops V (main_arg4 : DevRef τ sig) = V (main_arg4 : DevRef τ sig) := by
  simp only [ops, after_append]
  after_results_simp

theorem arg_eq5 (V : Valuation τ sig (Elt F)) :
    after ops V (main_arg5 : DevRef τ sig) = V (main_arg5 : DevRef τ sig) := by
  simp only [ops, after_append]
  after_results_simp

theorem arg_eq6 (V : Valuation τ sig (Elt F)) :
    after ops V (main_arg6 : DevRef τ sig) = V (main_arg6 : DevRef τ sig) := by
  simp only [ops, after_append]
  after_results_simp

theorem arg_eq7 (V : Valuation τ sig (Elt F)) :
    after ops V (main_arg7 : DevRef τ sig) = V (main_arg7 : DevRef τ sig) := by
  simp only [ops, after_append]
  after_results_simp

theorem arg_eq8 (V : Valuation τ sig (Elt F)) :
    after ops V (main_arg8 : DevRef τ sig) = V (main_arg8 : DevRef τ sig) := by
  simp only [ops, after_append]
  after_results_simp

theorem arg_eq9 (V : Valuation τ sig (Elt F)) :
    after ops V (main_arg9 : DevRef τ sig) = V (main_arg9 : DevRef τ sig) := by
  simp only [ops, after_append]
  after_results_simp

theorem arg_eq10 (V : Valuation τ sig (Elt F)) :
    after ops V (main_arg10 : DevRef τ sig) = V (main_arg10 : DevRef τ sig) := by
  simp only [ops, after_append]
  after_results_simp

theorem arg_eq11 (V : Valuation τ sig (Elt F)) :
    after ops V (main_arg11 : DevRef τ sig) = V (main_arg11 : DevRef τ sig) := by
  simp only [ops, after_append]
  after_results_simp

theorem arg_eq12 (V : Valuation τ sig (Elt F)) :
    after ops V (main_arg12 : DevRef τ sig) = V (main_arg12 : DevRef τ sig) := by
  simp only [ops, after_append]
  after_results_simp

theorem arg_eq13 (V : Valuation τ sig (Elt F)) :
    after ops V (main_arg13 : DevRef τ sig) = V (main_arg13 : DevRef τ sig) := by
  simp only [ops, after_append]
  after_results_simp

theorem arg_eq14 (V : Valuation τ sig (Elt F)) :
    after ops V (main_arg14 : DevRef τ sig) = V (main_arg14 : DevRef τ sig) := by
  simp only [ops, after_append]
  after_results_simp

theorem arg_eq15 (V : Valuation τ sig (Elt F)) :
    after ops V (main_arg15 : DevRef τ sig) = V (main_arg15 : DevRef τ sig) := by
  simp only [ops, after_append]
  after_results_simp

end Cert.ReferenceIdeal.RefRun

end
-- ==== Proof.Spec.lean ====
/-
  What the two programs compute, index by index, on the extended reals.

  A node's scalar state goes through a two-layer network with the activation x · σ(x), σ(x) = 1 / (1 + e^(-x)):
      phi[n, j] = Σ_k act(Σ_q S[n, q] · W1[k, q] + b1[k]) · W2[j, k] + b2[j]            (j < 384).
  An edge e carries a row G[e, ·] of phi (the row of its source node) and a 3 × 128 block VG[e, ·, ·] of vector states.
  With the edge's linear map  lin[e, j] = Σ_q ES[e, q] · WW[j, q] + WB[j]  and  wphi[e, j] = lin[e, j] · G[e, j],
  the first 128 columns of wphi are the scalar message before gating, the next 128 scale the vector states, the last
  128 scale the edge's unit vector; the gate is  g[e] = σ(Σ_q wphi[e, q] · EW[0, q] + EB[0]), and
      msgS[e, j]    = wphi[e, j] · g[e]
      msgV[e, c, j] = (VG[e, c, j] · wphi[e, 128 + j] + wphi[e, 256 + j] · UV[e, c]) · g[e].
  Only sums, products and σ of extended reals occur, each in the order written: nothing here needs an entry to be finite.
-/
import Idealize.ShloMosaic.PureOps.Ideal
import Idealize.ShloMosaic.Lib.ValueIdx

noncomputable section

namespace Cert.Spec

open Idealize.ShloMosaic Idealize.ShloMosaic.ValueIdx

abbrev A1 (a : ℕ) := FVec Ideal ⟨1, ![a]⟩ .f32
abbrev A2 (a b : ℕ) := FVec Ideal ⟨2, ![a, b]⟩ .f32
abbrev A3 (a b c : ℕ) := FVec Ideal ⟨3, ![a, b, c]⟩ .f32

/-- The activation x · σ(x). -/
def act (x : EReal) : EReal := x * Ideal.logistic x

/-- The hidden layer of the node network at node `n`, unit `k`. -/
def hid (S : A2 50000 128) (W1 : A2 128 128) (b1 : A1 128) (n : Fin 50000) (k : Fin 128) : EReal :=
  act ((∑ q : Fin 128, S (ix2 n q) * W1 (ix2 k q)) + b1 (ix1 k))

/-- The node network's output at node `n`, column `j`. -/
def phi (S : A2 50000 128) (W1 : A2 128 128) (b1 : A1 128) (W2 : A2 384 128) (b2 : A1 384)
    (n : Fin 50000) (j : Fin 384) : EReal :=
  (∑ k : Fin 128, hid S W1 b1 n k * W2 (ix2 j k)) + b2 (ix1 j)

/-- The same as one array. -/
def phiArr (S : A2 50000 128) (W1 : A2 128 128) (b1 : A1 128) (W2 : A2 384 128) (b2 : A1 384) : A2 50000 384 :=
  fun i => phi S W1 b1 W2 b2 (i 0) (i 1)

/-- Column `o + j` of the 384, for a column `j` of one of the three blocks of 128 starting at `o`. -/
def col (o : ℕ) (h : o + 128 ≤ 384) (j : Fin 128) : Fin 384 := ⟨o + j.val, by have := j.isLt; omega⟩

/-- The edge's linear map times the gathered node row. -/
def wphi (ES : A2 400000 128) (WW : A2 384 128) (WB : A1 384) (G : A2 400000 384) (e : Fin 400000) (j : Fin 384) : EReal :=
  ((∑ q : Fin 128, ES (ix2 e q) * WW (ix2 j q)) + WB (ix1 j)) * G (ix2 e j)

/-- The edge's gate. -/
def gate (ES : A2 400000 128) (WW : A2 384 128) (WB : A1 384) (G : A2 400000 384) (EW : A2 1 128) (EB : A1 1)
    (e : Fin 400000) : EReal :=
  Ideal.logistic ((∑ q : Fin 128, wphi ES WW WB G e (col 0 (by norm_num) q) * EW (ix2 0 q)) + EB (ix1 0))

/-- The scalar message of edge `e`, column `j`. -/
def msgS (ES : A2 400000 128) (WW : A2 384 128) (WB : A1 384) (G : A2 400000 384) (EW : A2 1 128) (EB : A1 1)
    (e : Fin 400000) (j : Fin 128) : EReal :=
  wphi ES WW WB G e (col 0 (by norm_num) j) * gate ES WW WB G EW EB e

/-- The vector message of edge `e`, component `c`, column `j`. -/
def msgV (ES : A2 400000 128) (WW : A2 384 128) (WB : A1 384) (G : A2 400000 384) (EW : A2 1 128) (EB : A1 1)
    (VG : A3 400000 3 128) (UV : A2 400000 3) (e : Fin 400000) (c : Fin 3) (j : Fin 128) : EReal :=
  (VG (ix3 e c j) * wphi ES WW WB G e (col 128 (by norm_num) j)
      + wphi ES WW WB G e (col 256 (by norm_num) j) * UV (ix2 e c)) * gate ES WW WB G EW EB e

/-- The scalar messages as one array. -/
def msgSArr (ES : A2 400000 128) (WW : A2 384 128) (WB : A1 384) (G : A2 400000 384) (EW : A2 1 128) (EB : A1 1) :
    A2 400000 128 :=
  fun i => msgS ES WW WB G EW EB (i 0) (i 1)

/-- The vector messages as one array of shape [edges, 3, 128]. -/
def msgVArr (ES : A2 400000 128) (WW : A2 384 128) (WB : A1 384) (G : A2 400000 384) (EW : A2 1 128) (EB : A1 1)
    (VG : A3 400000 3 128) (UV : A2 400000 3) : A3 400000 3 128 :=
  fun i => msgV ES WW WB G EW EB VG UV (i 0) (i 1) (i 2)

end Cert.Spec

end
-- ==== Proof.LibPlainDot.lean ====
/-
  A matrix product of an m × k block by a k × n block, read at one entry, on the extended reals.

  A kernel's product into a zero accumulator is the host's product over the same dimension record, and for the plain
  record (rows by the contracted axis, times the contracted axis by columns) that is the sum over the contracted
  coordinate of the products of the entries. With a one-row bias laid along every row this is the affine map of a
  linear layer; and a value x · σ(x), cast to a narrower float format (the identity on the extended reals), is the
  activation of x.
-/
import Idealize.ShloMosaic.Lib.StackMember
import Idealize.ShloMosaic.Lib.ValueLayout
import proofs.«148059_j40003325395258_1_alg».proof.Proof.Spec

noncomputable section

namespace Cert.Lib

open Idealize.ShloMosaic Idealize.ShloMosaic.ValueIdx Idealize.ShloMosaic.StackMember

/-- A kernel's product over a plain dimension record into the zero accumulator, at `(a, b)`, is `Σ_c A[a, c] · B[c, b]`. -/
theorem matmul_plain {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (a : Fin m) (b : Fin n) :
    matmul d none A B (constant ⟨2, ![m, n]⟩ .f32 0x00000000#32) (ix2 a b) = ∑ c : Fin k, A (ix2 a c) * B (ix2 c b) := by
  subst hd
  rw [matmul_zero_eq_dotGeneral]
  exact dotGeneral_plain_apply none A B a b

/-- The host's product over a plain dimension record, at `(a, b)`. -/
theorem dotGeneral_plain {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (a : Fin m) (b : Fin n) :
    Host.dotGeneral d none A B (ix2 a b) = ∑ c : Fin k, A (ix2 a c) * B (ix2 c b) := by
  subst hd
  exact dotGeneral_plain_apply none A B a b

/-- The affine map of a linear layer inside a kernel: the product plus a one-row bias laid along every row. -/
theorem lin_apply {m k n : ℕ} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (bias : FVec Ideal ⟨2, ![1, n]⟩ .f32)
    (hb : (⟨2, ![1, n]⟩ : Shape).Broadcasts ⟨2, ![m, n]⟩) (a : Fin m) (b : Fin n) :
    addf (matmul d none A B (constant ⟨2, ![m, n]⟩ .f32 0x00000000#32)) (broadcastTo ⟨2, ![m, n]⟩ bias hb) (ix2 a b)
      = (∑ c : Fin k, A (ix2 a c) * B (ix2 c b)) + bias (ix2 0 b) := by
  rw [addf_apply, matmul_plain d hd, broadcastTo_1b_ab_apply]

/-- `x · σ(x)`, then a cast to the narrower format, at an index: the activation of the entry. -/
theorem act_apply {s : Shape} (X : FVec Ideal s .f32) (h : FTy.bf16.bits < FTy.f32.bits) (i : s.Idx) :
    (truncf .bf16 (mulf X (logistic X)) h : FVec Ideal s .bf16) i = Cert.Spec.act (X i) := rfl

end Cert.Lib

end
-- ==== Proof.NodeValue.lean ====
/-
  The node network's launch: what its result array holds.

  The launch runs over ten points; point t loads rows 5000 t … 5000 t + 4999 of the normalized node states S (a
  5000 × 128 block) and the whole of the four weight arrays, and writes back rows 5000 t … 5000 t + 4999 of the result.
  The body is two linear layers with the activation x · σ(x) between them, so the entry it leaves at row p of its block,
  column j, is
      Σ_k act(Σ_q S[5000 t + p, q] · W1T[q, k] + B1[0, k]) · W2T[k, j] + B2[0, j],
  which depends on the row 5000 t + p of the whole array only: every point writes the block of ONE function of the
  arrays, the ten blocks tile the 50000 rows, and the result array ends holding that function.
-/
import proofs.«148059_j40003325395258_1_alg».proof.Proof.Gen.KernelIdeal.Frame
import proofs.«148059_j40003325395258_1_alg».proof.Proof.Spec
import proofs.«148059_j40003325395258_1_alg».proof.Proof.LibPlainDot
import Idealize.ShloMosaic.Lib.Pipeline.Value

set_option maxRecDepth 16384

noncomputable section

namespace Cert.KernelIdeal.NodeValue

open Cert.KernelIdeal Cert.KernelIdeal.Gen Cert.Spec Cert.Lib
open Idealize.ShloMosaic Idealize.ShloMosaic.TcCoe Idealize.ShloMosaic.ValueIdx Idealize.SL.Sem
open Idealize.ShloMosaic.Pipeline (Dat Cfg Window)

/-- The body's one store, at row `p` of the block and column `j`: two linear layers around the activation. -/
theorem pay_apply (x0 : Vec Ideal S5000x128 .f32) (x1 : Vec Ideal S128x128 .f32) (x2 : Vec Ideal S1x128 .f32)
    (x3 : Vec Ideal S128x384 .f32) (x4 : Vec Ideal S1x384 .f32) (p : Fin 5000) (j : Fin 384) :
    k0_pay1 x0 x1 x2 x3 x4 (ix2 p j)
      = (∑ k : Fin 128, act ((∑ q : Fin 128, x0 (ix2 p q) * x1 (ix2 q k)) + x2 (ix2 0 k)) * x3 (ix2 k j)) + x4 (ix2 0 j) := by
  unfold k0_pay1
  simp only [shapeCast_self]
  rw [lin_apply dot_S5000x128_S128x384_S5000x384_1_0_0_1_n_n rfl]
  congr 1
  refine Finset.sum_congr rfl fun k _ => ?_
  congr 1
  rw [act_apply]
  congr 1
  rw [lin_apply dot_S5000x128_S128x128_S5000x128_1_0_0_1_n_n rfl]
  rfl

/-- The result array as ONE function of the arrays the launch finds: the normalized states, the two transposed weight
    matrices and the two one-row biases. -/
def phiK (S : A2 50000 128) (W1T : A2 128 128) (B1 : A2 1 128) (W2T : A2 128 384) (B2 : A2 1 384) : A2 50000 384 :=
  fun i => (∑ k : Fin 128, act ((∑ q : Fin 128, S (ix2 (i 0) q) * W1T (ix2 q k)) + B1 (ix2 0 k)) * W2T (ix2 k (i 1)))
    + B2 (ix2 0 (i 1))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the state block and the result block move with the point along the rows, the
    weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Row `p` of point `t`'s block is row `5000 t + p` of the array. -/
def row (t : Fin cfg0.N) (p : Fin 5000) : Fin 50000 :=
  ⟨t.val * 5000 + p.val, by have := (idx_facts t).2.2.2.2.2.2.2.2.2.2.2.2; have := p.isLt; omega⟩

theorem blk0 (c : Dev nD) (t : Fin cfg0.N) (p : Fin 5000) (q : Fin 128) :
    iblk0 V c 0 t (ix2 p q) = (V c main_v62 : A2 50000 128) (ix2 (row t p) q) := by
  obtain ⟨e0, e1, -⟩ := idx_facts t
  show V c main_v62 (((cfg0.win 0).blk t).view.emb (ix2 p q)) = V c main_v62 _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * q.val = q.val; omega

theorem blk1 (c : Dev nD) (t : Fin cfg0.N) (q k : Fin 128) :
    iblk0 V c 1 t (ix2 q k) = (V c main_v63 : A2 128 128) (ix2 q k) := by
  obtain ⟨-, -, e0, e1, -⟩ := idx_facts t
  show V c main_v63 (((cfg0.win 1).blk t).view.emb (ix2 q k)) = V c main_v63 _
  refine congrArg _ (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

theorem blk2 (c : Dev nD) (t : Fin cfg0.N) (z : Fin 1) (k : Fin 128) :
    iblk0 V c 2 t (ix2 z k) = (V c main_v64 : A2 1 128) (ix2 z k) := by
  obtain ⟨-, -, -, -, e0, e1, -⟩ := idx_facts t
  show V c main_v64 (((cfg0.win 2).blk t).view.emb (ix2 z k)) = V c main_v64 _
  refine congrArg _ (funext fun a => Fin.ext ?_)
  match a with
  | ⟨0, _⟩ => show win0_2.index t (0 : Fin 2) * 1 + 1 * z.val = z.val; omega
  | ⟨1, _⟩ => show win0_2.index t (1 : Fin 2) * 128 + 1 * k.val = k.val; omega

theorem blk3 (c : Dev nD) (t : Fin cfg0.N) (k : Fin 128) (j : Fin 384) :
    iblk0 V c 3 t (ix2 k j) = (V c main_v65 : A2 128 384) (ix2 k j) := by
  obtain ⟨-, -, -, -, -, -, e0, e1, -⟩ := idx_facts t
  show V c main_v65 (((cfg0.win 3).blk t).view.emb (ix2 k j)) = V c main_v65 _
  refine congrArg _ (funext fun a => Fin.ext ?_)
  match a with
  | ⟨0, _⟩ => show win0_3.index t (0 : Fin 2) * 128 + 1 * k.val = k.val; omega
  | ⟨1, _⟩ => show win0_3.index t (1 : Fin 2) * 384 + 1 * j.val = j.val; omega

theorem blk4 (c : Dev nD) (t : Fin cfg0.N) (z : Fin 1) (j : Fin 384) :
    iblk0 V c 4 t (ix2 z j) = (V c main_v66 : A2 1 384) (ix2 z j) := by
  obtain ⟨-, -, -, -, -, -, -, -, e0, e1, -⟩ := idx_facts t
  show V c main_v66 (((cfg0.win 4).blk t).view.emb (ix2 z j)) = V c main_v66 _
  refine congrArg _ (funext fun a => Fin.ext ?_)
  match a with
  | ⟨0, _⟩ => show win0_4.index t (0 : Fin 2) * 1 + 1 * z.val = z.val; omega
  | ⟨1, _⟩ => show win0_4.index t (1 : Fin 2) * 384 + 1 * j.val = j.val; omega

theorem emb5 (t : Fin cfg0.N) (p : Fin 5000) (j : Fin 384) :
    ((cfg0.win 5).blk t).view.emb (ix2 p j) = (ix2 (row t p) j : S50000x384.Idx) := by
  obtain ⟨-, -, -, -, -, -, -, -, -, -, e0, e1, -⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 384 + 1 * j.val = j.val; omega

/-- WHAT POINT `t` WRITES BACK is block `t` of the one function of the arrays. -/
theorem flushed_eq (c : Dev nD) (t : Fin cfg0.N) :
    (dat0 V c).flushed 5 t = ((cfg0.win 5).blk t).view.read (Elt Ideal)
      (phiK (V c main_v62) (V c main_v63) (V c main_v64) (V c main_v65) (V c main_v66)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz,
    View.ld_unit_zero (S := S128x384) hz, View.ld_unit_zero (S := S1x384) hz]
  funext y
  obtain ⟨p, j, rfl⟩ : ∃ (p : Fin 5000) (j : Fin 384), y = ix2 p j := ⟨y 0, y 1, eq_ix2 y⟩
  refine (pay_apply (iblk0 V c 0 t) (iblk0 V c 1 t) (iblk0 V c 2 t) (iblk0 V c 3 t) (iblk0 V c 4 t) p j).trans ?_
  show _ = phiK (V c main_v62) (V c main_v63) (V c main_v64) (V c main_v65) (V c main_v66) (((cfg0.win 5).blk t).view.emb (ix2 p j))
  rw [emb5 t p j]
  simp only [blk0 V c t, blk1 V c t, blk2 V c t, blk3 V c t, blk4 V c t]
  rfl

/-- An index of the array is in point `t`'s block iff each coordinate is in the block's range on its axis. -/
theorem mem_blk (t : Fin cfg0.N) (i : S50000x384.Idx) :
    i ∈ ((cfg0.win 5).blk t).view.set ↔ ∀ a : Fin 2, win0_5.index t a * S5000x384.size a ≤ (i a).val
      ∧ (i a).val < win0_5.index t a * S5000x384.size a + S5000x384.size a := by
  show i ∈ ((View.whole main_v67).slice (win0_5.rect t)).set ↔ _
  rw [View.set_slice_whole, Rect.mem_set_unit]
  exact Iff.rfl

/-- Every row is in the block of the point `row / 5000`. -/
theorem cover (i : S50000x384.Idx) : ∃ t : Fin cfg0.N, (cfg0.win 5).flush t = true ∧ i ∈ ((cfg0.win 5).blk t).view.set := by
  have hi0 : (i 0).val < 50000 := (i 0).isLt
  have hi1 : (i 1).val < 384 := (i 1).isLt
  let t : Fin cfg0.N := ⟨(i 0).val / 5000, by show _ < 10; omega⟩
  obtain ⟨-, -, -, -, -, -, -, -, -, -, e0, e1, -⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 384 ≤ (i 1).val ∧ (i 1).val < win0_5.index t (1 : Fin 2) * 384 + 384; omega

/-- THE RESULT ARRAY after the launch. -/
theorem final (c : Dev nD) : (dat0 V c).arrAt 5 cfg0.N
    = phiK (V c main_v62) (V c main_v63) (V c main_v64) (V c main_v65) (V c main_v66) :=
  (dat0 V c).arrAt_eq_of_cover 5 _ (fun t _ => flushed_eq V c t) cover

end Cert.KernelIdeal.NodeValue

end
-- ==== Proof.LibKeepdims.lean ====
/-
  Two layout operations read at an index, for sums kept as a column (a per-row quantity of shape [a] carried as [a, 1] and
  then spread over the row): the cast that adds the trailing unit axis, and the broadcast of the column over b columns.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(p, u)`, the operand at `p`, whatever the unit coordinate `u`:
    both indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one entry of row `p`: the unit axis
    reads coordinate 0, the other axis keeps its coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.EdgePay.lean ====
/-
  The edge network's body, read at one entry of a block of R edges.

  Three linear layers of the same shape act on the edge states ES: for weights W, a one-row bias B and a per-edge factor
  G (a column block of the source node's row),
      lin3 ES W B G [e, j] = (Σ_q ES[e, q] · W[q, j] + B[0, j]) · G[e, j].
  The first gives the scalar message before gating; the gate of an edge is σ of its product with a 128 × 1 column plus
  a 1 × 1 bias, one number per edge laid along the row. The scalar message is the first layer times the gate; the three
  vector messages are (VS_c · second layer + third layer · U_c) times the gate, U_c a per-edge column.
  The vector messages are stored side by side in a 384-wide row: columns 0…127, 128…255, 256…383.
-/
import proofs.«148059_j40003325395258_1_alg».proof.Proof.Gen.KernelIdeal.Skeleton
import proofs.«148059_j40003325395258_1_alg».proof.Proof.Spec
import proofs.«148059_j40003325395258_1_alg».proof.Proof.LibPlainDot
import proofs.«148059_j40003325395258_1_alg».proof.Proof.LibKeepdims
import Idealize.ShloMosaic.Lib.Pipeline.Value

noncomputable section

namespace Cert.KernelIdeal.EdgePay

open Cert.KernelIdeal Cert.KernelIdeal.Gen Cert.Spec Cert.Lib
open Idealize.ShloMosaic Idealize.ShloMosaic.ValueIdx

/-! ## The functions, for any number of rows -/

/-- A linear layer on the edge states times a per-edge factor. -/
def lin3 {R : ℕ} (ES : A2 R 128) (W : A2 128 128) (B : A2 1 128) (G : A2 R 128) (e : Fin R) (j : Fin 128) : EReal :=
  ((∑ q : Fin 128, ES (ix2 e q) * W (ix2 q j)) + B (ix2 0 j)) * G (ix2 e j)

/-- The gate of edge `e`. -/
def gateK {R : ℕ} (ES : A2 R 128) (WS : A2 128 128) (BS : A2 1 128) (G1 : A2 R 128) (EWT : A2 128 1) (EBr : A2 1 1)
    (e : Fin R) : EReal :=
  Ideal.logistic ((∑ q : Fin 128, lin3 ES WS BS G1 e q * EWT (ix2 q 0)) + EBr (ix2 0 0))

/-- The scalar message. -/
def msgSK {R : ℕ} (ES : A2 R 128) (WS : A2 128 128) (BS : A2 1 128) (G1 : A2 R 128) (EWT : A2 128 1) (EBr : A2 1 1)
    (e : Fin R) (j : Fin 128) : EReal :=
  lin3 ES WS BS G1 e j * gateK ES WS BS G1 EWT EBr e

/-- One component of the vector message: `VS` the component's vector states, `U` the component's unit-vector column. -/
def msgVK {R : ℕ} (ES : A2 R 128) (WS : A2 128 128) (BS : A2 1 128) (G1 : A2 R 128) (EWT : A2 128 1) (EBr : A2 1 1)
    (WVV : A2 128 128) (BVV : A2 1 128) (G2 : A2 R 128) (WVS : A2 128 128) (BVS : A2 1 128) (G3 : A2 R 128)
    (VS : A2 R 128) (U : A2 R 1) (e : Fin R) (j : Fin 128) : EReal :=
  (VS (ix2 e j) * lin3 ES WVV BVV G2 e j + lin3 ES WVS BVS G3 e j * U (ix2 e 0)) * gateK ES WS BS G1 EWT EBr e

/-- Three R × 128 arrays side by side as one R × 384 array. -/
def flat {R : ℕ} (m0 m1 m2 : Fin R → Fin 128 → EReal) : A2 R 384 := fun i =>
  if h0 : (i 1).val < 128 then m0 (i 0) ⟨(i 1).val, h0⟩
  else if h1 : (i 1).val < 256 then m1 (i 0) ⟨(i 1).val - 128, by omega⟩
  else m2 (i 0) ⟨(i 1).val - 256, by have h : (i 1).val < 384 := (i 1).isLt; omega⟩

theorem flat_at0 {R : ℕ} (m0 m1 m2 : Fin R → Fin 128 → EReal) (e : Fin R) (j : Fin 128) (J : Fin 384) (hJ : J.val = j.val) :
    flat m0 m1 m2 (ix2 e J) = m0 e j := by
  have h0 : J.val < 128 := by have := j.isLt; omega
  show (if h0 : J.val < 128 then m0 e ⟨J.val, h0⟩ else _) = _
  rw [dif_pos h0]; congr 1; exact Fin.ext hJ

theorem flat_at1 {R : ℕ} (m0 m1 m2 : Fin R → Fin 128 → EReal) (e : Fin R) (j : Fin 128) (J : Fin 384) (hJ : J.val = 128 + j.val) :
    flat m0 m1 m2 (ix2 e J) = m1 e j := by
  have h0 : ¬ J.val < 128 := by omega
  have h1 : J.val < 256 := by have := j.isLt; omega
  show (if h0 : J.val < 128 then _ else if h1 : J.val < 256 then m1 e ⟨J.val - 128, _⟩ else _) = _
  rw [dif_neg h0, dif_pos h1]; congr 1; exact Fin.ext (by show J.val - 128 = j.val; omega)

theorem flat_at2 {R : ℕ} (m0 m1 m2 : Fin R → Fin 128 → EReal) (e : Fin R) (j : Fin 128) (J : Fin 384) (hJ : J.val = 256 + j.val) :
    flat m0 m1 m2 (ix2 e J) = m2 e j := by
  have h0 : ¬ J.val < 128 := by omega
  have h1 : ¬ J.val < 256 := by omega
  show (if h0 : J.val < 128 then _ else if h1 : J.val < 256 then _ else m2 e ⟨J.val - 256, _⟩) = _
  rw [dif_neg h0, dif_neg h1]; congr 1; exact Fin.ext (by show J.val - 256 = j.val; omega)

/-! ## The body's payloads at an entry of a 2000-row block -/

theorem pay3_apply (x0 : Vec Ideal S2000x128 .f32) (w : Vec Ideal S128x128 .f32) (b : Vec Ideal S1x128 .f32)
    (g : Vec Ideal S2000x128 .f32) (p : Fin 2000) (j : Fin 128) :
    k1_pay3 x0 w b g (ix2 p j) = lin3 x0 w b g p j := by
  unfold k1_pay3 k1_pay2 lin3
  simp only [shapeCast_self]
  rw [mulf_apply, lin_apply dot_S2000x128_S128x128_S2000x128_1_0_0_1_n_n rfl]
  rfl

theorem pay4_apply (x0 : Vec Ideal S2000x128 .f32) (w : Vec Ideal S128x128 .f32) (b : Vec Ideal S1x128 .f32)
    (g : Vec Ideal S2000x128 .f32) (p : Fin 2000) (j : Fin 128) :
    k1_pay4 x0 w b g (ix2 p j) = lin3 x0 w b g p j := by
  unfold k1_pay4 k1_pay2 lin3
  simp only [shapeCast_self]
  rw [mulf_apply, lin_apply dot_S2000x128_S128x128_S2000x128_1_0_0_1_n_n rfl]
  rfl

theorem pay5_apply (x0 : Vec Ideal S2000x128 .f32) (w : Vec Ideal S128x128 .f32) (b : Vec Ideal S1x128 .f32)
    (g : Vec Ideal S2000x128 .f32) (p : Fin 2000) (j : Fin 128) :
    k1_pay5 x0 w b g (ix2 p j) = lin3 x0 w b g p j := by
  unfold k1_pay5 k1_pay2 lin3
  simp only [shapeCast_self]
  rw [mulf_apply, lin_apply dot_S2000x128_S128x128_S2000x128_1_0_0_1_n_n rfl]
  rfl

/-- The gate column: σ of the first layer's row times the 128 × 1 column, plus the 1 × 1 bias. -/
theorem pay7_apply (x0 : Vec Ideal S2000x128 .f32) (w : Vec Ideal S128x128 .f32) (b : Vec Ideal S1x128 .f32)
    (g : Vec Ideal S2000x128 .f32) (ew : Vec Ideal S128x1 .f32) (eb : Vec Ideal S1x1 .f32) (p : Fin 2000) (z : Fin 1) :
    k1_pay7 (k1_pay6 x0 w b g) ew eb (ix2 p z) = gateK x0 w b g ew eb p := by
  obtain rfl : z = 0 := Subsingleton.elim _ _
  unfold k1_pay7 k1_pay6 gateK
  simp only [shapeCast_self]
  show FloatOps.logistic (addf _ _ (ix2 p 0)) = _
  rw [lin_apply dot_S2000x128_S128x1_S2000x1_1_0_0_1_n_n rfl]
  show Ideal.logistic _ = Ideal.logistic _
  congr 2
  refine Finset.sum_congr rfl fun q _ => ?_
  congr 1
  exact pay3_apply x0 w b g p q

theorem out18_apply (x0 : Vec Ideal S2000x128 .f32) (w : Vec Ideal S128x128 .f32) (b : Vec Ideal S1x128 .f32)
    (g : Vec Ideal S2000x128 .f32) (ew : Vec Ideal S128x1 .f32) (eb : Vec Ideal S1x1 .f32) (p : Fin 2000) (j : Fin 128) :
    k1_pay8 (k1_pay3 x0 w b g) (k1_pay6 x0 w b g) ew eb (ix2 p j) = msgSK x0 w b g ew eb p j := by
  unfold k1_pay8 msgSK
  rw [mulf_apply, broadcastTo_a1_ab_apply, pay7_apply, pay3_apply]

/-- One stored piece of the vector messages (the first two components). -/
theorem pay9_apply (x0 : Vec Ideal S2000x128 .f32) (w : Vec Ideal S128x128 .f32) (b : Vec Ideal S1x128 .f32)
    (g : Vec Ideal S2000x128 .f32) (ew : Vec Ideal S128x1 .f32) (eb : Vec Ideal S1x1 .f32)
    (wvv : Vec Ideal S128x128 .f32) (bvv : Vec Ideal S1x128 .f32) (g2 : Vec Ideal S2000x128 .f32)
    (wvs : Vec Ideal S128x128 .f32) (bvs : Vec Ideal S1x128 .f32) (g3 : Vec Ideal S2000x128 .f32)
    (vs : Vec Ideal S2000x128 .f32) (u : Vec Ideal S2000x1 .f32) (p : Fin 2000) (j : Fin 128) :
    k1_pay9 (k1_pay4 x0 wvv bvv g2) (k1_pay5 x0 wvs bvs g3) (k1_pay6 x0 w b g) ew eb vs u (ix2 p j)
      = msgVK x0 w b g ew eb wvv bvv g2 wvs bvs g3 vs u p j := by
  unfold k1_pay9 msgVK
  simp only [shapeCast_self]
  rw [mulf_apply, broadcastTo_a1_ab_apply, pay7_apply, addf_apply, mulf_apply, mulf_apply, broadcastTo_a1_ab_apply,
    pay4_apply, pay5_apply]

theorem pay10_apply (x0 : Vec Ideal S2000x128 .f32) (w : Vec Ideal S128x128 .f32) (b : Vec Ideal S1x128 .f32)
    (g : Vec Ideal S2000x128 .f32) (ew : Vec Ideal S128x1 .f32) (eb : Vec Ideal S1x1 .f32)
    (wvv : Vec Ideal S128x128 .f32) (bvv : Vec Ideal S1x128 .f32) (g2 : Vec Ideal S2000x128 .f32)
    (wvs : Vec Ideal S128x128 .f32) (bvs : Vec Ideal S1x128 .f32) (g3 : Vec Ideal S2000x128 .f32)
    (vs : Vec Ideal S2000x128 .f32) (u : Vec Ideal S2000x1 .f32) (p : Fin 2000) (j : Fin 128) :
    k1_pay10 (k1_pay4 x0 wvv bvv g2) (k1_pay5 x0 wvs bvs g3) (k1_pay6 x0 w b g) ew eb vs u (ix2 p j)
      = msgVK x0 w b g ew eb wvv bvv g2 wvs bvs g3 vs u p j := by
  unfold k1_pay10 msgVK
  simp only [shapeCast_self]
  rw [mulf_apply, broadcastTo_a1_ab_apply, pay7_apply, addf_apply, mulf_apply, mulf_apply, broadcastTo_a1_ab_apply,
    pay4_apply, pay5_apply]

/-- The third component is stored as the ungated sum times the gate column. -/
theorem pay1_11_apply (x0 : Vec Ideal S2000x128 .f32) (w : Vec Ideal S128x128 .f32) (b : Vec Ideal S1x128 .f32)
    (g : Vec Ideal S2000x128 .f32) (ew : Vec Ideal S128x1 .f32) (eb : Vec Ideal S1x1 .f32)
    (wvv : Vec Ideal S128x128 .f32) (bvv : Vec Ideal S1x128 .f32) (g2 : Vec Ideal S2000x128 .f32)
    (wvs : Vec Ideal S128x128 .f32) (bvs : Vec Ideal S1x128 .f32) (g3 : Vec Ideal S2000x128 .f32)
    (vs : Vec Ideal S2000x128 .f32) (u : Vec Ideal S2000x1 .f32) (p : Fin 2000) (j : Fin 128) :
    k1_pay1 (k1_pay7 (k1_pay6 x0 w b g) ew eb) (k1_pay11 (k1_pay4 x0 wvv bvv g2) (k1_pay5 x0 wvs bvs g3) vs u) (ix2 p j)
      = msgVK x0 w b g ew eb wvv bvv g2 wvs bvs g3 vs u p j := by
  unfold k1_pay1 k1_pay11 msgVK
  simp only [shapeCast_self]
  rw [mulf_apply, broadcastTo_a1_ab_apply, pay7_apply, addf_apply, mulf_apply, mulf_apply, broadcastTo_a1_ab_apply,
    pay4_apply, pay5_apply]

end Cert.KernelIdeal.EdgePay

end
-- ==== Proof.KernelSpec.lean ====
/-
  The kernel's arrangement of the weights against the reference's.

  The launches are handed the weight matrices transposed, the biases as one-row matrices, the 384 edge-weight columns
  and the gathered node row cut into three blocks of 128, the gathered vector states cut into their three components,
  and the unit vectors cut into three columns. Read at an entry, each of these is the original array at the evident
  index: a transpose swaps the two coordinates, a column block starting at o reads column o + j, a one-row cast reads
  the entry of the same position. So the launches' functions of what they are handed are the specification's functions
  of the original arrays, entry by entry; and the 384-wide vector messages recast as [edges, 3, 128] put column
  128 c + j at component c, column j.
-/
import proofs.«148059_j40003325395258_1_alg».proof.Proof.NodeValue
import proofs.«148059_j40003325395258_1_alg».proof.Proof.EdgePay
import Idealize.ShloMosaic.Lib.ValueLayout
import Idealize.ShloMosaic.Lib.Pipeline.Value

noncomputable section

namespace Cert.KernelIdeal.KSpec

open Cert.Spec Cert.Lib Cert.KernelIdeal.EdgePay Cert.KernelIdeal.NodeValue
open Idealize.ShloMosaic Idealize.ShloMosaic.ValueIdx

/-- The node network over transposed weights and one-row biases is the specification's. -/
theorem phiK_eq (S : A2 50000 128) (W1 : A2 128 128) (b1 : A1 128) (W2 : A2 384 128) (b2 : A1 384)
    (h1 : (⟨2, ![128, 128]⟩ : Shape).Transposes [1, 0] ⟨2, ![128, 128]⟩) (h2 : (⟨1, ![128]⟩ : Shape).ShapeCasts ⟨2, ![1, 128]⟩)
    (h3 : (⟨2, ![384, 128]⟩ : Shape).Transposes [1, 0] ⟨2, ![128, 384]⟩) (h4 : (⟨1, ![384]⟩ : Shape).ShapeCasts ⟨2, ![1, 384]⟩) :
    phiK S (transpose ⟨2, ![128, 128]⟩ [1, 0] W1 h1) (shapeCast ⟨2, ![1, 128]⟩ b1 h2)
        (transpose ⟨2, ![128, 384]⟩ [1, 0] W2 h3) (shapeCast ⟨2, ![1, 384]⟩ b2 h4)
      = phiArr S W1 b1 W2 b2 := by
  funext i
  obtain ⟨n, j, rfl⟩ : ∃ (n : Fin 50000) (j : Fin 384), i = ix2 n j := ⟨i 0, i 1, eq_ix2 i⟩
  show (∑ k : Fin 128, act ((∑ q : Fin 128, S (ix2 n q) * transpose ⟨2, ![128, 128]⟩ [1, 0] W1 h1 (ix2 q k))
        + shapeCast ⟨2, ![1, 128]⟩ b1 h2 (ix2 0 k)) * transpose ⟨2, ![128, 384]⟩ [1, 0] W2 h3 (ix2 k j))
      + shapeCast ⟨2, ![1, 384]⟩ b2 h4 (ix2 0 j) = phi S W1 b1 W2 b2 n j
  have t1 : ∀ q k : Fin 128, transpose ⟨2, ![128, 128]⟩ [1, 0] W1 h1 (ix2 q k) = W1 (ix2 k q) :=
    fun q k => transpose_ix2_apply W1 h1 q k
  have t2 : ∀ (k : Fin 128) (j : Fin 384), transpose ⟨2, ![128, 384]⟩ [1, 0] W2 h3 (ix2 k j) = W2 (ix2 j k) :=
    fun k j => transpose_ix2_apply W2 h3 k j
  simp only [t1, t2, shapeCast_a_1a_apply]
  rfl

/-- One of the three edge layers, over column block `o` of the transposed weights, of the bias and of the gathered
    row, is the specification's `wphi` at column `o + j`. -/
theorem lin3_eq_wphi (o : ℕ) (ho : o + 128 ≤ 384) (ES : A2 400000 128) (WW : A2 384 128) (WB : A1 384) (G : A2 400000 384)
    (hT : (⟨2, ![384, 128]⟩ : Shape).Transposes [1, 0] ⟨2, ![128, 384]⟩)
    (hW : (⟨2, ![128, 384]⟩ : Shape).Slices ![0, o] ⟨2, ![128, 128]⟩)
    (hb : (⟨1, ![384]⟩ : Shape).Slices ![o] ⟨1, ![128]⟩) (hc : (⟨1, ![128]⟩ : Shape).ShapeCasts ⟨2, ![1, 128]⟩)
    (hG : (⟨2, ![400000, 384]⟩ : Shape).Slices ![0, o] ⟨2, ![400000, 128]⟩) (e : Fin 400000) (j : Fin 128) :
    lin3 ES (extractStridedSlice ⟨2, ![128, 128]⟩ ![0, o] (transpose ⟨2, ![128, 384]⟩ [1, 0] WW hT) hW)
        (shapeCast ⟨2, ![1, 128]⟩ (extractStridedSlice ⟨1, ![128]⟩ ![o] WB hb) hc)
        (extractStridedSlice ⟨2, ![400000, 128]⟩ ![0, o] G hG) e j
      = wphi ES WW WB G e (col o ho j) := by
  have e1 : ∀ q : Fin 128, extractStridedSlice ⟨2, ![128, 128]⟩ ![0, o] (transpose ⟨2, ![128, 384]⟩ [1, 0] WW hT) hW (ix2 q j)
      = WW (ix2 (col o ho j) q) := fun q => by
    rw [slice2_axis1_apply o _ hW q j (col o ho j) rfl, transpose_ix2_apply]
  have e2 : shapeCast ⟨2, ![1, 128]⟩ (extractStridedSlice ⟨1, ![128]⟩ ![o] WB hb) hc (ix2 0 j) = WB (ix1 (col o ho j)) := by
    rw [shapeCast_a_1a_apply]
    exact extractStridedSlice_apply _ _ _ _ _ (fun a => by match a with | ⟨0, _⟩ => rfl)
  have e3 : extractStridedSlice ⟨2, ![400000, 128]⟩ ![0, o] G hG (ix2 e j) = G (ix2 e (col o ho j)) :=
    slice2_axis1_apply o _ hG e j (col o ho j) rfl
  unfold lin3 wphi
  simp only [e1, e2, e3]

/-- The gate over what the launch is handed is the specification's gate. -/
theorem gateK_eq (ES : A2 400000 128) (WW : A2 384 128) (WB : A1 384) (G : A2 400000 384) (EW : A2 1 128) (EB : A1 1)
    (hT : (⟨2, ![384, 128]⟩ : Shape).Transposes [1, 0] ⟨2, ![128, 384]⟩)
    (hW0 : (⟨2, ![128, 384]⟩ : Shape).Slices ![0, 0] ⟨2, ![128, 128]⟩)
    (hb0 : (⟨1, ![384]⟩ : Shape).Slices ![0] ⟨1, ![128]⟩) (hc : (⟨1, ![128]⟩ : Shape).ShapeCasts ⟨2, ![1, 128]⟩)
    (hG0 : (⟨2, ![400000, 384]⟩ : Shape).Slices ![0, 0] ⟨2, ![400000, 128]⟩)
    (hE : (⟨2, ![1, 128]⟩ : Shape).Transposes [1, 0] ⟨2, ![128, 1]⟩) (hB : (⟨1, ![1]⟩ : Shape).ShapeCasts ⟨2, ![1, 1]⟩) (e : Fin 400000) :
    gateK ES (extractStridedSlice ⟨2, ![128, 128]⟩ ![0, 0] (transpose ⟨2, ![128, 384]⟩ [1, 0] WW hT) hW0) (shapeCast ⟨2, ![1, 128]⟩ (extractStridedSlice ⟨1, ![128]⟩ ![0] WB hb0) hc) (extractStridedSlice ⟨2, ![400000, 128]⟩ ![0, 0] G hG0) (transpose ⟨2, ![128, 1]⟩ [1, 0] EW hE) (shapeCast ⟨2, ![1, 1]⟩ EB hB) e = gate ES WW WB G EW EB e := by
  have t : ∀ q : Fin 128, transpose ⟨2, ![128, 1]⟩ [1, 0] EW hE (ix2 q 0) = EW (ix2 0 q) :=
    fun q => transpose_ix2_apply EW hE q 0
  have s : shapeCast ⟨2, ![1, 1]⟩ EB hB (ix2 0 0) = EB (ix1 0) := shapeCast_a_1a_apply EB hB 0 0
  unfold gateK gate
  simp only [lin3_eq_wphi 0 (by norm_num) ES WW WB G hT hW0 hb0 hc hG0, t, s]

/-- The scalar messages over what the launch is handed are the specification's. -/
theorem msgSK_eq (ES : A2 400000 128) (WW : A2 384 128) (WB : A1 384) (G : A2 400000 384) (EW : A2 1 128) (EB : A1 1)
    (hT : (⟨2, ![384, 128]⟩ : Shape).Transposes [1, 0] ⟨2, ![128, 384]⟩)
    (hW0 : (⟨2, ![128, 384]⟩ : Shape).Slices ![0, 0] ⟨2, ![128, 128]⟩)
    (hb0 : (⟨1, ![384]⟩ : Shape).Slices ![0] ⟨1, ![128]⟩) (hc : (⟨1, ![128]⟩ : Shape).ShapeCasts ⟨2, ![1, 128]⟩)
    (hG0 : (⟨2, ![400000, 384]⟩ : Shape).Slices ![0, 0] ⟨2, ![400000, 128]⟩)
    (hE : (⟨2, ![1, 128]⟩ : Shape).Transposes [1, 0] ⟨2, ![128, 1]⟩) (hB : (⟨1, ![1]⟩ : Shape).ShapeCasts ⟨2, ![1, 1]⟩) :
    (fun i => msgSK ES (extractStridedSlice ⟨2, ![128, 128]⟩ ![0, 0] (transpose ⟨2, ![128, 384]⟩ [1, 0] WW hT) hW0) (shapeCast ⟨2, ![1, 128]⟩ (extractStridedSlice ⟨1, ![128]⟩ ![0] WB hb0) hc) (extractStridedSlice ⟨2, ![400000, 128]⟩ ![0, 0] G hG0) (transpose ⟨2, ![128, 1]⟩ [1, 0] EW hE) (shapeCast ⟨2, ![1, 1]⟩ EB hB) (i 0) (i 1) : A2 400000 128) = msgSArr ES WW WB G EW EB := by
  funext i
  obtain ⟨e, j, rfl⟩ : ∃ (e : Fin 400000) (j : Fin 128), i = ix2 e j := ⟨i 0, i 1, eq_ix2 i⟩
  show msgSK ES (extractStridedSlice ⟨2, ![128, 128]⟩ ![0, 0] (transpose ⟨2, ![128, 384]⟩ [1, 0] WW hT) hW0) (shapeCast ⟨2, ![1, 128]⟩ (extractStridedSlice ⟨1, ![128]⟩ ![0] WB hb0) hc) (extractStridedSlice ⟨2, ![400000, 128]⟩ ![0, 0] G hG0) (transpose ⟨2, ![128, 1]⟩ [1, 0] EW hE) (shapeCast ⟨2, ![1, 1]⟩ EB hB) e j = msgS ES WW WB G EW EB e j
  unfold msgSK msgS
  rw [lin3_eq_wphi 0 (by norm_num) ES WW WB G hT hW0 hb0 hc hG0, gateK_eq ES WW WB G EW EB hT hW0 hb0 hc hG0 hE hB]

/-- Component `c` of the gathered vector states, as a matrix, at `(e, j)`. -/
theorem vs_apply (o : ℕ) (c : Fin 3) (hoc : c.val = o) (VG : A3 400000 3 128)
    (hs : (⟨3, ![400000, 3, 128]⟩ : Shape).Slices ![0, o, 0] ⟨3, ![400000, 1, 128]⟩)
    (hr : (⟨3, ![400000, 1, 128]⟩ : Shape).ShapeCasts ⟨2, ![400000, 128]⟩) (e : Fin 400000) (j : Fin 128) :
    (shapeCast ⟨2, ![400000, 128]⟩ (extractStridedSlice ⟨3, ![400000, 1, 128]⟩ ![0, o, 0] VG hs) hr) (ix2 e j) = VG (ix3 e c j) := by
  rw [shapeCast_apply _ hr (ix2 e j) (ix3 e (0 : Fin 1) j) (by
    rw [Shape.rowMajor_val_three, Shape.rowMajor_val_two]
    show (e.val * 1 + 0) * 128 + j.val = e.val * 128 + j.val
    omega)]
  exact slice3_axis1_apply o VG hs e 0 j c (by show c.val = o + 0; omega)

/-- Column `c` of the unit vectors at edge `e`. -/
theorem u_apply (o : ℕ) (c : Fin 3) (hoc : c.val = o) (UV : A2 400000 3)
    (hu : (⟨2, ![400000, 3]⟩ : Shape).Slices ![0, o] ⟨2, ![400000, 1]⟩) (e : Fin 400000) :
    (extractStridedSlice ⟨2, ![400000, 1]⟩ ![0, o] UV hu) (ix2 e 0) = UV (ix2 e c) :=
  slice2_axis1_apply o UV hu e 0 c (by show c.val = o + 0; omega)

/-- A component of the vector messages over what the launch is handed is the specification's. -/
theorem msgVK_eq (ES : A2 400000 128) (WW : A2 384 128) (WB : A1 384) (G : A2 400000 384) (EW : A2 1 128) (EB : A1 1)
    (VG : A3 400000 3 128) (UV : A2 400000 3)
    (hT : (⟨2, ![384, 128]⟩ : Shape).Transposes [1, 0] ⟨2, ![128, 384]⟩)
    (hW0 : (⟨2, ![128, 384]⟩ : Shape).Slices ![0, 0] ⟨2, ![128, 128]⟩)
    (hb0 : (⟨1, ![384]⟩ : Shape).Slices ![0] ⟨1, ![128]⟩) (hc : (⟨1, ![128]⟩ : Shape).ShapeCasts ⟨2, ![1, 128]⟩)
    (hG0 : (⟨2, ![400000, 384]⟩ : Shape).Slices ![0, 0] ⟨2, ![400000, 128]⟩)
    (hE : (⟨2, ![1, 128]⟩ : Shape).Transposes [1, 0] ⟨2, ![128, 1]⟩) (hB : (⟨1, ![1]⟩ : Shape).ShapeCasts ⟨2, ![1, 1]⟩)
    (hW128 : (⟨2, ![128, 384]⟩ : Shape).Slices ![0, 128] ⟨2, ![128, 128]⟩)
    (hb128 : (⟨1, ![384]⟩ : Shape).Slices ![128] ⟨1, ![128]⟩)
    (hG128 : (⟨2, ![400000, 384]⟩ : Shape).Slices ![0, 128] ⟨2, ![400000, 128]⟩)
    (hW256 : (⟨2, ![128, 384]⟩ : Shape).Slices ![0, 256] ⟨2, ![128, 128]⟩)
    (hb256 : (⟨1, ![384]⟩ : Shape).Slices ![256] ⟨1, ![128]⟩)
    (hG256 : (⟨2, ![400000, 384]⟩ : Shape).Slices ![0, 256] ⟨2, ![400000, 128]⟩)
    (o : ℕ) (c : Fin 3) (hoc : c.val = o)
    (hs : (⟨3, ![400000, 3, 128]⟩ : Shape).Slices ![0, o, 0] ⟨3, ![400000, 1, 128]⟩)
    (hr : (⟨3, ![400000, 1, 128]⟩ : Shape).ShapeCasts ⟨2, ![400000, 128]⟩)
    (hu : (⟨2, ![400000, 3]⟩ : Shape).Slices ![0, o] ⟨2, ![400000, 1]⟩) (e : Fin 400000) (j : Fin 128) :
    msgVK ES (extractStridedSlice ⟨2, ![128, 128]⟩ ![0, 0] (transpose ⟨2, ![128, 384]⟩ [1, 0] WW hT) hW0) (shapeCast ⟨2, ![1, 128]⟩ (extractStridedSlice ⟨1, ![128]⟩ ![0] WB hb0) hc) (extractStridedSlice ⟨2, ![400000, 128]⟩ ![0, 0] G hG0) (transpose ⟨2, ![128, 1]⟩ [1, 0] EW hE) (shapeCast ⟨2, ![1, 1]⟩ EB hB) (extractStridedSlice ⟨2, ![128, 128]⟩ ![0, 128] (transpose ⟨2, ![128, 384]⟩ [1, 0] WW hT) hW128) (shapeCast ⟨2, ![1, 128]⟩ (extractStridedSlice ⟨1, ![128]⟩ ![128] WB hb128) hc) (extractStridedSlice ⟨2, ![400000, 128]⟩ ![0, 128] G hG128) (extractStridedSlice ⟨2, ![128, 128]⟩ ![0, 256] (transpose ⟨2, ![128, 384]⟩ [1, 0] WW hT) hW256) (shapeCast ⟨2, ![1, 128]⟩ (extractStridedSlice ⟨1, ![128]⟩ ![256] WB hb256) hc) (extractStridedSlice ⟨2, ![400000, 128]⟩ ![0, 256] G hG256) (shapeCast ⟨2, ![400000, 128]⟩ (extractStridedSlice ⟨3, ![400000, 1, 128]⟩ ![0, o, 0] VG hs) hr) (extractStridedSlice ⟨2, ![400000, 1]⟩ ![0, o] UV hu) e j
      = msgV ES WW WB G EW EB VG UV e c j := by
  unfold msgVK msgV
  rw [lin3_eq_wphi 128 (by norm_num) ES WW WB G hT hW128 hb128 hc hG128, lin3_eq_wphi 256 (by norm_num) ES WW WB G hT hW256 hb256 hc hG256,
    gateK_eq ES WW WB G EW EB hT hW0 hb0 hc hG0 hE hB, vs_apply o c hoc VG hs hr, u_apply o c hoc UV hu]

/-- Three matrices side by side, recast as [edges, 3, 128]: component `c`, column `j` is column `128 c + j`. -/
theorem recast_flat (m0 m1 m2 : Fin 400000 → Fin 128 → EReal) (M : Fin 400000 → Fin 3 → Fin 128 → EReal)
    (h0 : ∀ e j, m0 e j = M e 0 j) (h1 : ∀ e j, m1 e j = M e 1 j) (h2 : ∀ e j, m2 e j = M e 2 j)
    (h : (⟨2, ![400000, 384]⟩ : Shape).ShapeCasts ⟨3, ![400000, 3, 128]⟩) :
    (shapeCast ⟨3, ![400000, 3, 128]⟩ (flat m0 m1 m2) h : A3 400000 3 128) = fun i => M (i 0) (i 1) (i 2) := by
  funext i
  obtain ⟨e, c, j, rfl⟩ : ∃ (e : Fin 400000) (c : Fin 3) (j : Fin 128), i = ix3 e c j := ⟨i 0, i 1, i 2, eq_ix3 i⟩
  have hj := j.isLt
  have hcl := c.isLt
  rw [shapeCast_apply _ h (ix3 e c j) (ix2 e (⟨c.val * 128 + j.val, by omega⟩ : Fin 384)) (by
    rw [Shape.rowMajor_val_three, Shape.rowMajor_val_two]
    show e.val * 384 + (c.val * 128 + j.val) = (e.val * 3 + c.val) * 128 + j.val
    omega)]
  show flat m0 m1 m2 (ix2 e (⟨c.val * 128 + j.val, _⟩ : Fin 384)) = M e c j
  match c, hcl with
  | ⟨0, _⟩, _ =>
    refine (flat_at0 m0 m1 m2 e j _ ?_).trans (h0 e j)
    show 0 * 128 + j.val = j.val; omega
  | ⟨1, _⟩, _ =>
    refine (flat_at1 m0 m1 m2 e j _ ?_).trans (h1 e j)
    show 1 * 128 + j.val = 128 + j.val; omega
  | ⟨2, _⟩, _ =>
    refine (flat_at2 m0 m1 m2 e j _ ?_).trans (h2 e j)
    show 2 * 128 + j.val = 256 + j.val; omega

end Cert.KernelIdeal.KSpec

end
-- ==== Proof.KernelRead1.lean ====
/-
  The kernel program's buffers, read back: up to the end of the node launch.

  The node launch is handed the normalized states and, computed by the host just before it, the two weight matrices
  transposed and the two biases as one-row matrices; so its result is the specification's node network of the
  normalized states and the four weight ARGUMENTS. No host operation and neither launch writes an argument, and the
  normalized states are only read by the node launch.
-/
import proofs.«148059_j40003325395258_1_alg».proof.Proof.Gen.KernelIdeal.Frame
import proofs.«148059_j40003325395258_1_alg».proof.Proof.NodeValue
import proofs.«148059_j40003325395258_1_alg».proof.Proof.KernelSpec
import Idealize.ShloMosaic.PureOps.Ideal

set_option maxRecDepth 16384
set_option maxHeartbeats 2000000

noncomputable section

namespace Cert.KernelIdeal.KRead

open Cert.KernelIdeal Cert.KernelIdeal.Gen Cert.Spec Cert.KernelIdeal.EdgePay Cert.KernelIdeal.KSpec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The normalized node states, as the program's first nine stretches of host operations leave them. -/
def sK : A2 50000 128 := W9 m ρ c (Proc.devRef .tc main_v62)

/-! ## What the node launch is handed -/

theorem w9_v63 : W9 m ρ c (Proc.devRef .tc main_v63)
    = transpose S128x128 [1, 0] (m ((c : Thread nD τ).loc main_arg8)) transposes_S128x128_S128x128_1_0 := by
  show StableHlo.after hostOps0_8 (W8 m ρ c) (Proc.devRef .tc main_v63) = _
  after_results_simp
  try rfl

theorem w9_v64 : W9 m ρ c (Proc.devRef .tc main_v64) = shapeCast S1x128 (m ((c : Thread nD τ).loc main_arg9)) shapeCasts_S128_S1x128 := by
  show StableHlo.after hostOps0_8 (W8 m ρ c) (Proc.devRef .tc main_v64) = _
  after_results_simp
  try rfl

theorem w9_v65 : W9 m ρ c (Proc.devRef .tc main_v65)
    = transpose S128x384 [1, 0] (m ((c : Thread nD τ).loc main_arg10)) transposes_S384x128_S128x384_1_0 := by
  show StableHlo.after hostOps0_8 (W8 m ρ c) (Proc.devRef .tc main_v65) = _
  after_results_simp
  try rfl

theorem w9_v66 : W9 m ρ c (Proc.devRef .tc main_v66) = shapeCast S1x384 (m ((c : Thread nD τ).loc main_arg11)) shapeCasts_S384_S1x384 := by
  show StableHlo.after hostOps0_8 (W8 m ρ c) (Proc.devRef .tc main_v66) = _
  after_results_simp
  try rfl

/-- THE NODE LAUNCH'S RESULT: the specification's node network of the normalized states and the four weight arrays. -/
theorem w10_v67 : W10 m ρ c (Proc.devRef .tc main_v67)
    = phiArr (sK m ρ c) (m ((c : Thread nD τ).loc main_arg8)) (m ((c : Thread nD τ).loc main_arg9)) (m ((c : Thread nD τ).loc main_arg10)) (m ((c : Thread nD τ).loc main_arg11)) := by
  have h := W10_arr m ρ c 5
  rw [NodeValue.final (V9 m ρ) c] at h
  refine h.trans ?_
  show NodeValue.phiK (W9 m ρ c (Proc.devRef .tc main_v62)) (W9 m ρ c (Proc.devRef .tc main_v63)) (W9 m ρ c (Proc.devRef .tc main_v64))
      (W9 m ρ c (Proc.devRef .tc main_v65)) (W9 m ρ c (Proc.devRef .tc main_v66)) = _
  rw [w9_v63, w9_v64, w9_v65, w9_v66]
  exact phiK_eq _ _ _ _ _ _ _ _ _

/-! ## The arguments and the normalized states are as they were when the node launch ends -/

theorem w10_arg1 : W10 m ρ c (Proc.devRef .tc main_arg1) = (m ((c : Thread nD τ).loc main_arg1)) := by
  rw [W10_of_ne m ρ c main_arg1 (by decide)]
  show StableHlo.after hostOps0_8 (W8 m ρ c) (Proc.devRef .tc main_arg1) = _
  after_results_simp
  try rfl

theorem w10_arg2 : W10 m ρ c (Proc.devRef .tc main_arg2) = (m ((c : Thread nD τ).loc main_arg2)) := by
  rw [W10_of_ne m ρ c main_arg2 (by decide)]
  show StableHlo.after hostOps0_8 (W8 m ρ c) (Proc.devRef .tc main_arg2) = _
  after_results_simp
  try rfl

theorem w10_arg3 : W10 m ρ c (Proc.devRef .tc main_arg3) = (m ((c : Thread nD τ).loc main_arg3)) := by
  rw [W10_of_ne m ρ c main_arg3 (by decide)]
  show StableHlo.after hostOps0_8 (W8 m ρ c) (Proc.devRef .tc main_arg3) = _
  after_results_simp
  try rfl

theorem w10_arg4 : W10 m ρ c (Proc.devRef .tc main_arg4) = (m ((c : Thread nD τ).loc main_arg4)) := by
  rw [W10_of_ne m ρ c main_arg4 (by decide)]
  show StableHlo.after hostOps0_8 (W8 m ρ c) (Proc.devRef .tc main_arg4) = _
  after_results_simp
  try rfl

theorem w10_arg6 : W10 m ρ c (Proc.devRef .tc main_arg6) = (m ((c : Thread nD τ).loc main_arg6)) := by
  rw [W10_of_ne m ρ c main_arg6 (by decide)]
  show StableHlo.after hostOps0_8 (W8 m ρ c) (Proc.devRef .tc main_arg6) = _
  after_results_simp
  try rfl

theorem w10_arg7 : W10 m ρ c (Proc.devRef .tc main_arg7) = (m ((c : Thread nD τ).loc main_arg7)) := by
  rw [W10_of_ne m ρ c main_arg7 (by decide)]
  show StableHlo.after hostOps0_8 (W8 m ρ c) (Proc.devRef .tc main_arg7) = _
  after_results_simp
  try rfl

theorem w10_arg12 : W10 m ρ c (Proc.devRef .tc main_arg12) = (m ((c : Thread nD τ).loc main_arg12)) := by
  rw [W10_of_ne m ρ c main_arg12 (by decide)]
  show StableHlo.after hostOps0_8 (W8 m ρ c) (Proc.devRef .tc main_arg12) = _
  after_results_simp
  try rfl

theorem w10_arg13 : W10 m ρ c (Proc.devRef .tc main_arg13) = (m ((c : Thread nD τ).loc main_arg13)) := by
  rw [W10_of_ne m ρ c main_arg13 (by decide)]
  show StableHlo.after hostOps0_8 (W8 m ρ c) (Proc.devRef .tc main_arg13) = _
  after_results_simp
  try rfl

/-- The normalized states are an INPUT of the node launch: its array ends as it was found. -/
theorem w10_v62 : W10 m ρ c (Proc.devRef .tc main_v62) = sK m ρ c :=
  (W10_arr m ρ c 0).trans (((dat0 (V9 m ρ) c).arrAt_in 0 rfl _).trans (A_eq0 (V9 m ρ) c 0))

end Cert.KernelIdeal.KRead

end
-- ==== Proof.BridgeNorm.lean ====
/-
  The two programs normalize the node states by the same host operations.

  The normalization has an integer part — the graph of each node, from the graphs' sizes: a shift, a running sum, a
  scatter of ones, another running sum, a clamped lookup — and a float part: per-graph mean and mean square by sums over
  the nodes of each graph, the variance, the reciprocal square root, scale and shift. In both programs these are the
  same operations in the same order on the same four arguments; the reference spells them in one list, the kernel
  program in nine stretches. Cutting the reference's list where the graph-of-node array is complete, the two integer
  parts are one term of the graphs' sizes, and the two float parts one term of five arrays.
-/
import proofs.«148059_j40003325395258_1_alg».proof.Proof.KernelRead1
import proofs.«148059_j40003325395258_1_alg».proof.Proof.RefRun

set_option maxRecDepth 16384
set_option maxHeartbeats 2000000

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

attribute [local irreducible] Host.gather Host.scatter Host.scatterAdd Host.reduce Host.reduceAdd Host.reduceWindow in
/-- The graph of each node: the same integer operations on the graphs' sizes. (The reference's launch contents are
    themselves updated, at the graphs' sizes, with the kernel program's array — which they already hold.) -/
theorem gid_bridge (a5 : launchContents m' c (Proc.devRef .tc Cert.ReferenceIdeal.main_arg5) = Cert.KernelIdeal.Gen.W0 m ρ c (Proc.devRef .tc Cert.KernelIdeal.main_arg5)) :
    after (Cert.ReferenceIdeal.RefRun.ops0.take 52) (launchContents m' c) (Proc.devRef .tc Cert.ReferenceIdeal.main_v17)
      = Cert.KernelIdeal.Gen.W8 m ρ c (Proc.devRef .tc Cert.KernelIdeal.main_v17) := by
  have hV : launchContents m' c = Function.update (launchContents m' c) (Proc.devRef .tc Cert.ReferenceIdeal.main_arg5)
      (Cert.KernelIdeal.Gen.W0 m ρ c (Proc.devRef .tc Cert.KernelIdeal.main_arg5)) := by
    rw [← a5, Function.update_eq_self]
  rw [hV]
  show _ = StableHlo.after Cert.KernelIdeal.Gen.hostOps0_7 (Cert.KernelIdeal.Gen.W7 m ρ c) (Proc.devRef .tc Cert.KernelIdeal.main_v17)
  simp only [Cert.ReferenceIdeal.RefRun.ops0, List.take_succ_cons, List.take_zero, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, StableHlo.TRef.unary, StableHlo.TRef.binary, StableHlo.TRef.ternary, StableHlo.TRef.nullary, StableHlo.TRef.of]
  after_results_simp
  rfl

attribute [local irreducible] Host.gather Host.scatter Host.scatterAdd Host.reduce Host.reduceAdd Host.reduceWindow in
/-- The float part over the five arrays it reads: the same operations. -/
theorem float_bridge (U : Valuation Cert.ReferenceIdeal.τ Cert.ReferenceIdeal.sig (Elt Ideal)) (W : Valuation Cert.KernelIdeal.τ Cert.KernelIdeal.sig (Elt Ideal))
    (e17 : U (Proc.devRef .tc Cert.ReferenceIdeal.main_v17) = W (Proc.devRef .tc Cert.KernelIdeal.main_v17))
    (e0 : U (Proc.devRef .tc Cert.ReferenceIdeal.main_arg0) = W (Proc.devRef .tc Cert.KernelIdeal.main_arg0))
    (e5 : U (Proc.devRef .tc Cert.ReferenceIdeal.main_arg5) = W (Proc.devRef .tc Cert.KernelIdeal.main_arg5))
    (e14 : U (Proc.devRef .tc Cert.ReferenceIdeal.main_arg14) = W (Proc.devRef .tc Cert.KernelIdeal.main_arg14))
    (e15 : U (Proc.devRef .tc Cert.ReferenceIdeal.main_arg15) = W (Proc.devRef .tc Cert.KernelIdeal.main_arg15)) :
    after Cert.ReferenceIdeal.RefRun.ops2 (after Cert.ReferenceIdeal.RefRun.ops1 (after (Cert.ReferenceIdeal.RefRun.ops0.drop 52) U)) (Proc.devRef .tc Cert.ReferenceIdeal.main_v62)
      = StableHlo.after Cert.KernelIdeal.Gen.hostOps0_8 W (Proc.devRef .tc Cert.KernelIdeal.main_v62) := by
  simp only [Cert.ReferenceIdeal.RefRun.ops0, Cert.ReferenceIdeal.RefRun.ops1, Cert.ReferenceIdeal.RefRun.ops2, List.drop_succ_cons, List.drop_zero]
  after_results_simp
  simp only [e17, e0, e5, e14, e15]
  rfl

/-- THE NORMALIZED STATES of the two programs are one array, the arguments agreeing. -/
theorem norm_bridge (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    after Cert.ReferenceIdeal.RefRun.ops (launchContents m' c) (Proc.devRef .tc Cert.ReferenceIdeal.main_v62) = Cert.KernelIdeal.KRead.sK m ρ c := by
  obtain ⟨h0, h1, h2, h3, h4, h5, h6, h7, h8, h9, h10, h11, h12, h13, h14, h15⟩ := hagree
  have a0 : launchContents m' c (Proc.devRef .tc Cert.ReferenceIdeal.main_arg0) = Cert.KernelIdeal.Gen.W0 m ρ c (Proc.devRef .tc Cert.KernelIdeal.main_arg0) := h0
  have a5 : launchContents m' c (Proc.devRef .tc Cert.ReferenceIdeal.main_arg5) = Cert.KernelIdeal.Gen.W0 m ρ c (Proc.devRef .tc Cert.KernelIdeal.main_arg5) := h5
  have a14 : launchContents m' c (Proc.devRef .tc Cert.ReferenceIdeal.main_arg14) = Cert.KernelIdeal.Gen.W0 m ρ c (Proc.devRef .tc Cert.KernelIdeal.main_arg14) := h14
  have a15 : launchContents m' c (Proc.devRef .tc Cert.ReferenceIdeal.main_arg15) = Cert.KernelIdeal.Gen.W0 m ρ c (Proc.devRef .tc Cert.KernelIdeal.main_arg15) := h15
  have hsplit : after Cert.ReferenceIdeal.RefRun.ops0 (launchContents m' c)
      = after (Cert.ReferenceIdeal.RefRun.ops0.drop 52) (after (Cert.ReferenceIdeal.RefRun.ops0.take 52) (launchContents m' c)) := by
    rw [← after_append, List.take_append_drop]
  unfold Cert.KernelIdeal.KRead.sK
  show after Cert.ReferenceIdeal.RefRun.ops (launchContents m' c) (Proc.devRef .tc Cert.ReferenceIdeal.main_v62)
    = StableHlo.after Cert.KernelIdeal.Gen.hostOps0_8 (Cert.KernelIdeal.Gen.W8 m ρ c) (Proc.devRef .tc Cert.KernelIdeal.main_v62)
  rw [show Cert.ReferenceIdeal.RefRun.ops = Cert.ReferenceIdeal.RefRun.ops0 ++ Cert.ReferenceIdeal.RefRun.ops1 ++ Cert.ReferenceIdeal.RefRun.ops2 from rfl, after_append, after_append, hsplit]
  refine float_bridge _ _ (gid_bridge m ρ m' c a5) ?_ ?_ ?_ ?_
  · show _ = StableHlo.after Cert.KernelIdeal.Gen.hostOps0_7 (Cert.KernelIdeal.Gen.W7 m ρ c) (Proc.devRef .tc Cert.KernelIdeal.main_arg0)
    simp only [Cert.ReferenceIdeal.RefRun.ops0, List.take_succ_cons, List.take_zero]
    after_results_simp
    exact a0
  · show _ = StableHlo.after Cert.KernelIdeal.Gen.hostOps0_7 (Cert.KernelIdeal.Gen.W7 m ρ c) (Proc.devRef .tc Cert.KernelIdeal.main_arg5)
    simp only [Cert.ReferenceIdeal.RefRun.ops0, List.take_succ_cons, List.take_zero]
    after_results_simp
    exact a5
  · show _ = StableHlo.after Cert.KernelIdeal.Gen.hostOps0_7 (Cert.KernelIdeal.Gen.W7 m ρ c) (Proc.devRef .tc Cert.KernelIdeal.main_arg14)
    simp only [Cert.ReferenceIdeal.RefRun.ops0, List.take_succ_cons, List.take_zero]
    after_results_simp
    exact a14
  · show _ = StableHlo.after Cert.KernelIdeal.Gen.hostOps0_7 (Cert.KernelIdeal.Gen.W7 m ρ c) (Proc.devRef .tc Cert.KernelIdeal.main_arg15)
    simp only [Cert.ReferenceIdeal.RefRun.ops0, List.take_succ_cons, List.take_zero]
    after_results_simp
    exact a15

end Cert.Bridge

end
-- ==== Proof.KernelRead2.lean ====
/-
  The kernel program's buffers, read back: what the edge launch is handed.

  Between the two launches the host gathers, for every edge, the node network's row and the vector states of the edge's
  source node, and cuts everything into the pieces the edge launch takes: three column blocks of the gathered row,
  the three components of the gathered vector states, the three unit-vector columns, three column blocks of the
  transposed edge weights and of their bias, the gate's weights as a column and its bias as a 1 × 1 matrix.
-/
import proofs.«148059_j40003325395258_1_alg».proof.Proof.KernelRead1

set_option maxRecDepth 16384
set_option maxHeartbeats 2000000

noncomputable section

namespace Cert.KernelIdeal.KRead

open Cert.KernelIdeal Cert.KernelIdeal.Gen Cert.Spec Cert.KernelIdeal.EdgePay Cert.KernelIdeal.KSpec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## What the edge launch is handed -/

/-- The edges' source rows, as the stretch between the launches computes them (kept folded). -/
def idxS := W11 m ρ c (Proc.devRef .tc main_v77)
/-- The same, recomputed for the vector states. -/
def idxS' := W11 m ρ c (Proc.devRef .tc main_v87)
/-- The edges' destination nodes. -/
def idxD := W11 m ρ c (Proc.devRef .tc main_v71)

/-- The node network's row of each edge's source. -/
def Gk : A2 400000 384 :=
  Host.gather gather_S50000x384_S400000x1_S400000x384_1_0_n_n_0_1_1384 (phiArr (sK m ρ c) (m ((c : Thread nD τ).loc main_arg8)) (m ((c : Thread nD τ).loc main_arg9)) (m ((c : Thread nD τ).loc main_arg10)) (m ((c : Thread nD τ).loc main_arg11))) (idxS m ρ c)
/-- The vector states of each edge's source. -/
def VGk : A3 400000 3 128 :=
  Host.gather gather_S50000x3x128_S400000x1_S400000x3x128_12_0_n_n_0_1_13128 (m ((c : Thread nD τ).loc main_arg1)) (idxS' m ρ c)

theorem w11_v78 : W11 m ρ c (Proc.devRef .tc main_v78) = Gk m ρ c := by
  unfold Gk idxS
  show StableHlo.after hostOps1 (W10 m ρ c) (Proc.devRef .tc main_v78) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v88 : W11 m ρ c (Proc.devRef .tc main_v88) = VGk m ρ c := by
  unfold VGk idxS'
  show StableHlo.after hostOps1 (W10 m ρ c) (Proc.devRef .tc main_v88) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_arg2 : W11 m ρ c (Proc.devRef .tc main_arg2) = (m ((c : Thread nD τ).loc main_arg2)) := by
  show StableHlo.after hostOps1 (W10 m ρ c) (Proc.devRef .tc main_arg2) = _
  after_results_simp
  exact w10_arg2 m ρ c

theorem w11_v79 : W11 m ρ c (Proc.devRef .tc main_v79) = extractStridedSlice S400000x128 ![0, 0] (Gk m ρ c) slices_S400000x384_S400000x128_0_0 := by
  rw [← w11_v78 m ρ c]
  show StableHlo.after hostOps1 (W10 m ρ c) (Proc.devRef .tc main_v79) = extractStridedSlice S400000x128 ![0, 0] (StableHlo.after hostOps1 (W10 m ρ c) (Proc.devRef .tc main_v78)) _
  after_results_simp
  try rfl

theorem w11_v80 : W11 m ρ c (Proc.devRef .tc main_v80) = extractStridedSlice S400000x128 ![0, 128] (Gk m ρ c) slices_S400000x384_S400000x128_0_128 := by
  rw [← w11_v78 m ρ c]
  show StableHlo.after hostOps1 (W10 m ρ c) (Proc.devRef .tc main_v80) = extractStridedSlice S400000x128 ![0, 128] (StableHlo.after hostOps1 (W10 m ρ c) (Proc.devRef .tc main_v78)) _
  after_results_simp
  try rfl

theorem w11_v81 : W11 m ρ c (Proc.devRef .tc main_v81) = extractStridedSlice S400000x128 ![0, 256] (Gk m ρ c) slices_S400000x384_S400000x128_0_256 := by
  rw [← w11_v78 m ρ c]
  show StableHlo.after hostOps1 (W10 m ρ c) (Proc.devRef .tc main_v81) = extractStridedSlice S400000x128 ![0, 256] (StableHlo.after hostOps1 (W10 m ρ c) (Proc.devRef .tc main_v78)) _
  after_results_simp
  try rfl

theorem w11_v90 : W11 m ρ c (Proc.devRef .tc main_v90) = shapeCast S400000x128 (extractStridedSlice S400000x1x128 ![0, 0, 0] (VGk m ρ c) slices_S400000x3x128_S400000x1x128_0_0_0) shapeCasts_S400000x1x128_S400000x128 := by
  rw [← w11_v88 m ρ c]
  show StableHlo.after hostOps1 (W10 m ρ c) (Proc.devRef .tc main_v90) = shapeCast S400000x128 (extractStridedSlice S400000x1x128 ![0, 0, 0] (StableHlo.after hostOps1 (W10 m ρ c) (Proc.devRef .tc main_v88)) _) _
  after_results_simp
  try rfl

theorem w11_v92 : W11 m ρ c (Proc.devRef .tc main_v92) = shapeCast S400000x128 (extractStridedSlice S400000x1x128 ![0, 1, 0] (VGk m ρ c) slices_S400000x3x128_S400000x1x128_0_1_0) shapeCasts_S400000x1x128_S400000x128 := by
  rw [← w11_v88 m ρ c]
  show StableHlo.after hostOps1 (W10 m ρ c) (Proc.devRef .tc main_v92) = shapeCast S400000x128 (extractStridedSlice S400000x1x128 ![0, 1, 0] (StableHlo.after hostOps1 (W10 m ρ c) (Proc.devRef .tc main_v88)) _) _
  after_results_simp
  try rfl

theorem w11_v94 : W11 m ρ c (Proc.devRef .tc main_v94) = shapeCast S400000x128 (extractStridedSlice S400000x1x128 ![0, 2, 0] (VGk m ρ c) slices_S400000x3x128_S400000x1x128_0_2_0) shapeCasts_S400000x1x128_S400000x128 := by
  rw [← w11_v88 m ρ c]
  show StableHlo.after hostOps1 (W10 m ρ c) (Proc.devRef .tc main_v94) = shapeCast S400000x128 (extractStridedSlice S400000x1x128 ![0, 2, 0] (StableHlo.after hostOps1 (W10 m ρ c) (Proc.devRef .tc main_v88)) _) _
  after_results_simp
  try rfl

theorem w11_v95 : W11 m ρ c (Proc.devRef .tc main_v95) = extractStridedSlice S400000x1 ![0, 0] (m ((c : Thread nD τ).loc main_arg3)) slices_S400000x3_S400000x1_0_0 := by
  show StableHlo.after hostOps1 (W10 m ρ c) (Proc.devRef .tc main_v95) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v96 : W11 m ρ c (Proc.devRef .tc main_v96) = extractStridedSlice S400000x1 ![0, 1] (m ((c : Thread nD τ).loc main_arg3)) slices_S400000x3_S400000x1_0_1 := by
  show StableHlo.after hostOps1 (W10 m ρ c) (Proc.devRef .tc main_v96) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v97 : W11 m ρ c (Proc.devRef .tc main_v97) = extractStridedSlice S400000x1 ![0, 2] (m ((c : Thread nD τ).loc main_arg3)) slices_S400000x3_S400000x1_0_2 := by
  show StableHlo.after hostOps1 (W10 m ρ c) (Proc.devRef .tc main_v97) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v99 : W11 m ρ c (Proc.devRef .tc main_v99) = extractStridedSlice S128x128 ![0, 0] (transpose S128x384 [1, 0] (m ((c : Thread nD τ).loc main_arg6)) transposes_S384x128_S128x384_1_0) slices_S128x384_S128x128_0_0 := by
  show StableHlo.after hostOps1 (W10 m ρ c) (Proc.devRef .tc main_v99) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v100 : W11 m ρ c (Proc.devRef .tc main_v100) = extractStridedSlice S128x128 ![0, 128] (transpose S128x384 [1, 0] (m ((c : Thread nD τ).loc main_arg6)) transposes_S384x128_S128x384_1_0) slices_S128x384_S128x128_0_128 := by
  show StableHlo.after hostOps1 (W10 m ρ c) (Proc.devRef .tc main_v100) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v101 : W11 m ρ c (Proc.devRef .tc main_v101) = extractStridedSlice S128x128 ![0, 256] (transpose S128x384 [1, 0] (m ((c : Thread nD τ).loc main_arg6)) transposes_S384x128_S128x384_1_0) slices_S128x384_S128x128_0_256 := by
  show StableHlo.after hostOps1 (W10 m ρ c) (Proc.devRef .tc main_v101) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v103 : W11 m ρ c (Proc.devRef .tc main_v103) = shapeCast S1x128 (extractStridedSlice S128 ![0] (m ((c : Thread nD τ).loc main_arg7)) slices_S384_S128_0) shapeCasts_S128_S1x128 := by
  show StableHlo.after hostOps1 (W10 m ρ c) (Proc.devRef .tc main_v103) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v105 : W11 m ρ c (Proc.devRef .tc main_v105) = shapeCast S1x128 (extractStridedSlice S128 ![128] (m ((c : Thread nD τ).loc main_arg7)) slices_S384_S128_128) shapeCasts_S128_S1x128 := by
  show StableHlo.after hostOps1 (W10 m ρ c) (Proc.devRef .tc main_v105) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v107 : W11 m ρ c (Proc.devRef .tc main_v107) = shapeCast S1x128 (extractStridedSlice S128 ![256] (m ((c : Thread nD τ).loc main_arg7)) slices_S384_S128_256) shapeCasts_S128_S1x128 := by
  show StableHlo.after hostOps1 (W10 m ρ c) (Proc.devRef .tc main_v107) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v108 : W11 m ρ c (Proc.devRef .tc main_v108) = transpose S128x1 [1, 0] (m ((c : Thread nD τ).loc main_arg12)) transposes_S1x128_S128x1_1_0 := by
  show StableHlo.after hostOps1 (W10 m ρ c) (Proc.devRef .tc main_v108) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

theorem w11_v109 : W11 m ρ c (Proc.devRef .tc main_v109) = shapeCast S1x1 (m ((c : Thread nD τ).loc main_arg13)) shapeCasts_S1_S1x1 := by
  show StableHlo.after hostOps1 (W10 m ρ c) (Proc.devRef .tc main_v109) = _
  after_results_simp
  simp only [w10_v67 m ρ c, w10_v62 m ρ c, w10_arg1 m ρ c, w10_arg2 m ρ c, w10_arg3 m ρ c, w10_arg4 m ρ c, w10_arg6 m ρ c, w10_arg7 m ρ c, w10_arg12 m ρ c, w10_arg13 m ρ c]
  try rfl

end Cert.KernelIdeal.KRead

end
-- ==== Proof.EdgeValue.lean ====
/-
  The edge network's launch: what its two result arrays hold.

  The launch runs over two hundred points; point t loads rows 2000 t … 2000 t + 4999 of the ten per-edge arrays (the
  edge states, three column blocks of the source node's row, three components of its vector states, three unit-vector
  columns) and the whole of the eight weight arrays, and writes back rows 2000 t … of the scalar messages and of the
  384-wide vector messages. Every entry the body leaves depends on its own row of the per-edge arrays only, so each
  point writes the block of ONE function of the arrays; the two hundred blocks tile the 400000 rows.
-/
import proofs.«148059_j40003325395258_1_alg».proof.Proof.Gen.KernelIdeal.Frame
import proofs.«148059_j40003325395258_1_alg».proof.Proof.EdgePay
import Idealize.ShloMosaic.Lib.Pipeline.Value

set_option maxRecDepth 16384

noncomputable section

namespace Cert.KernelIdeal.EdgeValue

open Cert.KernelIdeal Cert.KernelIdeal.Gen Cert.Spec Cert.Lib Cert.KernelIdeal.EdgePay
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The printed index maps over the grid: the per-edge blocks move with the point along the rows, the weights stay -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_18 : ∀ t : Fin cfg1.N, win1_18.index t (0 : Fin 2) = t.val ∧ win1_18.index t (1 : Fin 2) = 0 :=
  (by decide +kernel : ∀ t : Fin grid1.N, _)
theorem idx1_19 : ∀ t : Fin cfg1.N, win1_19.index t (0 : Fin 2) = t.val ∧ win1_19.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)
theorem idx1_15 : ∀ t : Fin cfg1.N, win1_15.index t (0 : Fin 2) = 0 ∧ win1_15.index t (1 : Fin 2) = 0 :=
  (by decide +kernel : ∀ t : Fin grid1.N, _)
theorem idx1_16 : ∀ t : Fin cfg1.N, win1_16.index t (0 : Fin 2) = 0 ∧ win1_16.index t (1 : Fin 2) = 0 :=
  (by decide +kernel : ∀ t : Fin grid1.N, _)
theorem idx1_17 : ∀ t : Fin cfg1.N, win1_17.index t (0 : Fin 2) = 0 ∧ win1_17.index t (1 : Fin 2) = 0 :=
  (by decide +kernel : ∀ t : Fin grid1.N, _)

theorem N_lt : ∀ t : Fin cfg1.N, t.val < 200 := (by decide +kernel : ∀ t : Fin grid1.N, _)

/-- Row `p` of point `t`'s block is row `2000 t + p` of the array. -/
def row (t : Fin cfg1.N) (p : Fin 2000) : Fin 400000 :=
  ⟨t.val * 2000 + p.val, by have := N_lt t; have := p.isLt; omega⟩

variable (V : (c : Dev nD) → (b : Ref sig .tc) → Buf (Elt Ideal) ((c : Thread nD τ).loc b))

/-! ## Each input window's block read at an entry -/

theorem blk0 (c : Dev nD) (t : Fin cfg1.N) (p : Fin 2000) (q : Fin 128) :
    iblk1 V c 0 t (ix2 p q) = (V c main_arg2 : A2 400000 128) (ix2 (row t p) q) := by
  obtain ⟨e0, e1⟩ := idx1_0 t
  show V c main_arg2 (((cfg1.win 0).blk t).view.emb (ix2 p q)) = V c main_arg2 _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * q.val = q.val; omega

theorem blk1 (c : Dev nD) (t : Fin cfg1.N) (p : Fin 2000) (q : Fin 128) :
    iblk1 V c 1 t (ix2 p q) = (V c main_v79 : A2 400000 128) (ix2 (row t p) q) := by
  obtain ⟨e0, e1⟩ := idx1_1 t
  show V c main_v79 (((cfg1.win 1).blk t).view.emb (ix2 p q)) = V c main_v79 _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * q.val = q.val; omega

theorem blk2 (c : Dev nD) (t : Fin cfg1.N) (p : Fin 2000) (q : Fin 128) :
    iblk1 V c 2 t (ix2 p q) = (V c main_v80 : A2 400000 128) (ix2 (row t p) q) := by
  obtain ⟨e0, e1⟩ := idx1_2 t
  show V c main_v80 (((cfg1.win 2).blk t).view.emb (ix2 p q)) = V c main_v80 _
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 128 + 1 * q.val = q.val; omega

theorem blk3 (c : Dev nD) (t : Fin cfg1.N) (p : Fin 2000) (q : Fin 128) :
    iblk1 V c 3 t (ix2 p q) = (V c main_v81 : A2 400000 128) (ix2 (row t p) q) := by
  obtain ⟨e0, e1⟩ := idx1_3 t
  show V c main_v81 (((cfg1.win 3).blk t).view.emb (ix2 p q)) = V c main_v81 _
  refine congrArg _ (funext fun a => Fin.ext ?_)
  match a with
  | ⟨0, _⟩ => show win1_3.index t (0 : Fin 2) * 2000 + 1 * p.val = t.val * 2000 + p.val; omega
  | ⟨1, _⟩ => show win1_3.index t (1 : Fin 2) * 128 + 1 * q.val = q.val; omega

theorem blk4 (c : Dev nD) (t : Fin cfg1.N) (p : Fin 2000) (q : Fin 128) :
    iblk1 V c 4 t (ix2 p q) = (V c main_v90 : A2 400000 128) (ix2 (row t p) q) := by
  obtain ⟨e0, e1⟩ := idx1_4 t
  show V c main_v90 (((cfg1.win 4).blk t).view.emb (ix2 p q)) = V c main_v90 _
  refine congrArg _ (funext fun a => Fin.ext ?_)
  match a with
  | ⟨0, _⟩ => show win1_4.index t (0 : Fin 2) * 2000 + 1 * p.val = t.val * 2000 + p.val; omega
  | ⟨1, _⟩ => show win1_4.index t (1 : Fin 2) * 128 + 1 * q.val = q.val; omega

theorem blk5 (c : Dev nD) (t : Fin cfg1.N) (p : Fin 2000) (q : Fin 128) :
    iblk1 V c 5 t (ix2 p q) = (V c main_v92 : A2 400000 128) (ix2 (row t p) q) := by
  obtain ⟨e0, e1⟩ := idx1_5 t
  show V c main_v92 (((cfg1.win 5).blk t).view.emb (ix2 p q)) = V c main_v92 _
  refine congrArg _ (funext fun a => Fin.ext ?_)
  match a with
  | ⟨0, _⟩ => show win1_5.index t (0 : Fin 2) * 2000 + 1 * p.val = t.val * 2000 + p.val; omega
  | ⟨1, _⟩ => show win1_5.index t (1 : Fin 2) * 128 + 1 * q.val = q.val; omega

theorem blk6 (c : Dev nD) (t : Fin cfg1.N) (p : Fin 2000) (q : Fin 128) :
    iblk1 V c 6 t (ix2 p q) = (V c main_v94 : A2 400000 128) (ix2 (row t p) q) := by
  obtain ⟨e0, e1⟩ := idx1_6 t
  show V c main_v94 (((cfg1.win 6).blk t).view.emb (ix2 p q)) = V c main_v94 _
  refine congrArg _ (funext fun a => Fin.ext ?_)
  match a with
  | ⟨0, _⟩ => show win1_6.index t (0 : Fin 2) * 2000 + 1 * p.val = t.val * 2000 + p.val; omega
  | ⟨1, _⟩ => show win1_6.index t (1 : Fin 2) * 128 + 1 * q.val = q.val; omega

theorem blk7 (c : Dev nD) (t : Fin cfg1.N) (p : Fin 2000) (z : Fin 1) :
    iblk1 V c 7 t (ix2 p z) = (V c main_v95 : A2 400000 1) (ix2 (row t p) z) := by
  obtain ⟨e0, e1⟩ := idx1_7 t
  show V c main_v95 (((cfg1.win 7).blk t).view.emb (ix2 p z)) = V c main_v95 _
  refine congrArg _ (funext fun a => Fin.ext ?_)
  match a with
  | ⟨0, _⟩ => show win1_7.index t (0 : Fin 2) * 2000 + 1 * p.val = t.val * 2000 + p.val; omega
  | ⟨1, _⟩ => show win1_7.index t (1 : Fin 2) * 1 + 1 * z.val = z.val; omega

theorem blk8 (c : Dev nD) (t : Fin cfg1.N) (p : Fin 2000) (z : Fin 1) :
    iblk1 V c 8 t (ix2 p z) = (V c main_v96 : A2 400000 1) (ix2 (row t p) z) := by
  obtain ⟨e0, e1⟩ := idx1_8 t
  show V c main_v96 (((cfg1.win 8).blk t).view.emb (ix2 p z)) = V c main_v96 _
  refine congrArg _ (funext fun a => Fin.ext ?_)
  match a with
  | ⟨0, _⟩ => show win1_8.index t (0 : Fin 2) * 2000 + 1 * p.val = t.val * 2000 + p.val; omega
  | ⟨1, _⟩ => show win1_8.index t (1 : Fin 2) * 1 + 1 * z.val = z.val; omega

theorem blk9 (c : Dev nD) (t : Fin cfg1.N) (p : Fin 2000) (z : Fin 1) :
    iblk1 V c 9 t (ix2 p z) = (V c main_v97 : A2 400000 1) (ix2 (row t p) z) := by
  obtain ⟨e0, e1⟩ := idx1_9 t
  show V c main_v97 (((cfg1.win 9).blk t).view.emb (ix2 p z)) = V c main_v97 _
  refine congrArg _ (funext fun a => Fin.ext ?_)
  match a with
  | ⟨0, _⟩ => show win1_9.index t (0 : Fin 2) * 2000 + 1 * p.val = t.val * 2000 + p.val; omega
  | ⟨1, _⟩ => show win1_9.index t (1 : Fin 2) * 1 + 1 * z.val = z.val; omega

theorem blk10 (c : Dev nD) (t : Fin cfg1.N) (a : Fin 128) (b : Fin 128) :
    iblk1 V c 10 t (ix2 a b) = (V c main_v99 : A2 128 128) (ix2 a b) := by
  obtain ⟨e0, e1⟩ := idx1_10 t
  show V c main_v99 (((cfg1.win 10).blk t).view.emb (ix2 a b)) = V c main_v99 _
  refine congrArg _ (funext fun ax => Fin.ext ?_)
  match ax with
  | ⟨0, _⟩ => show win1_10.index t (0 : Fin 2) * 128 + 1 * a.val = a.val; omega
  | ⟨1, _⟩ => show win1_10.index t (1 : Fin 2) * 128 + 1 * b.val = b.val; omega

theorem blk11 (c : Dev nD) (t : Fin cfg1.N) (a : Fin 128) (b : Fin 128) :
    iblk1 V c 11 t (ix2 a b) = (V c main_v100 : A2 128 128) (ix2 a b) := by
  obtain ⟨e0, e1⟩ := idx1_11 t
  show V c main_v100 (((cfg1.win 11).blk t).view.emb (ix2 a b)) = V c main_v100 _
  refine congrArg _ (funext fun ax => Fin.ext ?_)
  match ax with
  | ⟨0, _⟩ => show win1_11.index t (0 : Fin 2) * 128 + 1 * a.val = a.val; omega
  | ⟨1, _⟩ => show win1_11.index t (1 : Fin 2) * 128 + 1 * b.val = b.val; omega

theorem blk12 (c : Dev nD) (t : Fin cfg1.N) (a : Fin 128) (b : Fin 128) :
    iblk1 V c 12 t (ix2 a b) = (V c main_v101 : A2 128 128) (ix2 a b) := by
  obtain ⟨e0, e1⟩ := idx1_12 t
  show V c main_v101 (((cfg1.win 12).blk t).view.emb (ix2 a b)) = V c main_v101 _
  refine congrArg _ (funext fun ax => Fin.ext ?_)
  match ax with
  | ⟨0, _⟩ => show win1_12.index t (0 : Fin 2) * 128 + 1 * a.val = a.val; omega
  | ⟨1, _⟩ => show win1_12.index t (1 : Fin 2) * 128 + 1 * b.val = b.val; omega

theorem blk13 (c : Dev nD) (t : Fin cfg1.N) (a : Fin 1) (b : Fin 128) :
    iblk1 V c 13 t (ix2 a b) = (V c main_v103 : A2 1 128) (ix2 a b) := by
  obtain ⟨e0, e1⟩ := idx1_13 t
  show V c main_v103 (((cfg1.win 13).blk t).view.emb (ix2 a b)) = V c main_v103 _
  refine congrArg _ (funext fun ax => Fin.ext ?_)
  match ax with
  | ⟨0, _⟩ => show win1_13.index t (0 : Fin 2) * 1 + 1 * a.val = a.val; omega
  | ⟨1, _⟩ => show win1_13.index t (1 : Fin 2) * 128 + 1 * b.val = b.val; omega

theorem blk14 (c : Dev nD) (t : Fin cfg1.N) (a : Fin 1) (b : Fin 128) :
    iblk1 V c 14 t (ix2 a b) = (V c main_v105 : A2 1 128) (ix2 a b) := by
  obtain ⟨e0, e1⟩ := idx1_14 t
  show V c main_v105 (((cfg1.win 14).blk t).view.emb (ix2 a b)) = V c main_v105 _
  refine congrArg _ (funext fun ax => Fin.ext ?_)
  match ax with
  | ⟨0, _⟩ => show win1_14.index t (0 : Fin 2) * 1 + 1 * a.val = a.val; omega
  | ⟨1, _⟩ => show win1_14.index t (1 : Fin 2) * 128 + 1 * b.val = b.val; omega

theorem blk15 (c : Dev nD) (t : Fin cfg1.N) (a : Fin 1) (b : Fin 128) :
    iblk1 V c 15 t (ix2 a b) = (V c main_v107 : A2 1 128) (ix2 a b) := by
  obtain ⟨e0, e1⟩ := idx1_15 t
  show V c main_v107 (((cfg1.win 15).blk t).view.emb (ix2 a b)) = V c main_v107 _
  refine congrArg _ (funext fun ax => Fin.ext ?_)
  match ax with
  | ⟨0, _⟩ => show win1_15.index t (0 : Fin 2) * 1 + 1 * a.val = a.val; omega
  | ⟨1, _⟩ => show win1_15.index t (1 : Fin 2) * 128 + 1 * b.val = b.val; omega

theorem blk16 (c : Dev nD) (t : Fin cfg1.N) (a : Fin 128) (b : Fin 1) :
    iblk1 V c 16 t (ix2 a b) = (V c main_v108 : A2 128 1) (ix2 a b) := by
  obtain ⟨e0, e1⟩ := idx1_16 t
  show V c main_v108 (((cfg1.win 16).blk t).view.emb (ix2 a b)) = V c main_v108 _
  refine congrArg _ (funext fun ax => Fin.ext ?_)
  match ax with
  | ⟨0, _⟩ => show win1_16.index t (0 : Fin 2) * 128 + 1 * a.val = a.val; omega
  | ⟨1, _⟩ => show win1_16.index t (1 : Fin 2) * 1 + 1 * b.val = b.val; omega

theorem blk17 (c : Dev nD) (t : Fin cfg1.N) (a : Fin 1) (b : Fin 1) :
    iblk1 V c 17 t (ix2 a b) = (V c main_v109 : A2 1 1) (ix2 a b) := by
  obtain ⟨e0, e1⟩ := idx1_17 t
  show V c main_v109 (((cfg1.win 17).blk t).view.emb (ix2 a b)) = V c main_v109 _
  refine congrArg _ (funext fun ax => Fin.ext ?_)
  match ax with
  | ⟨0, _⟩ => show win1_17.index t (0 : Fin 2) * 1 + 1 * a.val = a.val; omega
  | ⟨1, _⟩ => show win1_17.index t (1 : Fin 2) * 1 + 1 * b.val = b.val; omega

theorem emb18 (t : Fin cfg1.N) (p : Fin 2000) (j : Fin 128) :
    ((cfg1.win 18).blk t).view.emb (ix2 p j) = (ix2 (row t p) j : S400000x128.Idx) := by
  obtain ⟨e0, e1⟩ := idx1_18 t
  funext a; apply Fin.ext
  match a with
  | ⟨0, _⟩ => show win1_18.index t (0 : Fin 2) * 2000 + 1 * p.val = t.val * 2000 + p.val; omega
  | ⟨1, _⟩ => show win1_18.index t (1 : Fin 2) * 128 + 1 * j.val = j.val; omega

theorem emb19 (t : Fin cfg1.N) (p : Fin 2000) (J : Fin 384) :
    ((cfg1.win 19).blk t).view.emb (ix2 p J) = (ix2 (row t p) J : S400000x384.Idx) := by
  obtain ⟨e0, e1⟩ := idx1_19 t
  funext a; apply Fin.ext
  match a with
  | ⟨0, _⟩ => show win1_19.index t (0 : Fin 2) * 2000 + 1 * p.val = t.val * 2000 + p.val; omega
  | ⟨1, _⟩ => show win1_19.index t (1 : Fin 2) * 384 + 1 * J.val = J.val; omega

/-! ## The scalar messages -/

/-- The scalar-message array as ONE function of the arrays the launch finds. -/
def G18 (c : Dev nD) : A2 400000 128 := fun i => msgSK (V c main_arg2) (V c main_v99) (V c main_v103) (V c main_v79) (V c main_v108) (V c main_v109) (i 0) (i 1)

theorem flushed18_eq (c : Dev nD) (t : Fin cfg1.N) :
    (dat1 V c).flushed 18 t = ((cfg1.win 18).blk t).view.read (Elt Ideal) (G18 V c) := by
  show (cfg1.win 18).cut (grid1.coords t) ((dat1 V c).after 18 t) = _
  rw [after1_18]
  unfold out1_18
  rw [View.canon_unit_zero hz]
  simp only [View.ld_unit_zero (S := S2000x128) hz, View.ld_unit_zero (S := S128x128) hz, View.ld_unit_zero (S := S1x128) hz,
    View.ld_unit_zero (S := S128x1) hz, View.ld_unit_zero (S := S1x1) hz]
  funext y
  obtain ⟨p, j, rfl⟩ : ∃ (p : Fin 2000) (j : Fin 128), y = ix2 p j := ⟨y 0, y 1, eq_ix2 y⟩
  refine (out18_apply (iblk1 V c 0 t) (iblk1 V c 10 t) (iblk1 V c 13 t) (iblk1 V c 1 t) (iblk1 V c 16 t) (iblk1 V c 17 t) p j).trans ?_
  show _ = G18 V c (((cfg1.win 18).blk t).view.emb (ix2 p j))
  rw [emb18 t p j]
  simp only [G18, msgSK, gateK, lin3, blk0 V c t, blk1 V c t, blk2 V c t, blk3 V c t, blk4 V c t, blk5 V c t, blk6 V c t, blk7 V c t, blk8 V c t, blk9 V c t, blk10 V c t, blk11 V c t, blk12 V c t, blk13 V c t, blk14 V c t, blk15 V c t, blk16 V c t, blk17 V c t]

theorem mem_blk18 (t : Fin cfg1.N) (i : S400000x128.Idx) :
    i ∈ ((cfg1.win 18).blk t).view.set ↔ ∀ a : Fin 2, win1_18.index t a * S2000x128.size a ≤ (i a).val
      ∧ (i a).val < win1_18.index t a * S2000x128.size a + S2000x128.size a := by
  show i ∈ ((View.whole main_v110_0).slice (win1_18.rect t)).set ↔ _
  rw [View.set_slice_whole, Rect.mem_set_unit]
  exact Iff.rfl

theorem cover18 (i : S400000x128.Idx) : ∃ t : Fin cfg1.N, (cfg1.win 18).flush t = true ∧ i ∈ ((cfg1.win 18).blk t).view.set := by
  have hi0 : (i 0).val < 400000 := (i 0).isLt
  have hi1 : (i 1).val < 128 := (i 1).isLt
  let t : Fin cfg1.N := ⟨(i 0).val / 2000, by show _ < 200; omega⟩
  obtain ⟨e0, e1⟩ := idx1_18 t
  have ht : t.val = (i 0).val / 2000 := rfl
  refine ⟨t, flush1_18 t, ?_⟩
  rw [mem_blk18]
  intro a
  match a with
  | ⟨0, _⟩ => show win1_18.index t (0 : Fin 2) * 2000 ≤ (i 0).val ∧ (i 0).val < win1_18.index t (0 : Fin 2) * 2000 + 2000; omega
  | ⟨1, _⟩ => show win1_18.index t (1 : Fin 2) * 128 ≤ (i 1).val ∧ (i 1).val < win1_18.index t (1 : Fin 2) * 128 + 128; omega

/-- THE SCALAR-MESSAGE ARRAY after the launch. -/
theorem final18 (c : Dev nD) : (dat1 V c).arrAt 18 cfg1.N = G18 V c :=
  (dat1 V c).arrAt_eq_of_cover 18 _ (fun t _ => flushed18_eq V c t) cover18

/-! ## The vector messages -/

/-- A 2000-row block of the vector messages: the three components side by side. -/
def blk19 (x0 x1 x2 x3 x4 x5 x6 : Vec Ideal S2000x128 .f32) (x7 x8 x9 : Vec Ideal S2000x1 .f32) (x10 x11 x12 : Vec Ideal S128x128 .f32) (x13 x14 x15 : Vec Ideal S1x128 .f32) (x16 : Vec Ideal S128x1 .f32) (x17 : Vec Ideal S1x1 .f32) : A2 2000 384 :=
  flat (msgVK x0 x10 x13 x1 x16 x17 x11 x14 x2 x12 x15 x3 x4 x7) (msgVK x0 x10 x13 x1 x16 x17 x11 x14 x2 x12 x15 x3 x5 x8) (msgVK x0 x10 x13 x1 x16 x17 x11 x14 x2 x12 x15 x3 x6 x9)

/-- The body's three stores leave that block: each piece is its component at its column offset, and the pieces tile
    the 384 columns. -/
theorem out19_eq (x0 x1 x2 x3 x4 x5 x6 : Vec Ideal S2000x128 .f32) (x7 x8 x9 : Vec Ideal S2000x1 .f32) (x10 x11 x12 : Vec Ideal S128x128 .f32) (x13 x14 x15 : Vec Ideal S1x128 .f32) (x16 : Vec Ideal S128x1 .f32) (x17 : Vec Ideal S1x1 .f32) :
    out1_19 x0 x1 x2 x3 x4 x5 x6 x7 x8 x9 x10 x11 x12 x13 x14 x15 x16 x17 = blk19 x0 x1 x2 x3 x4 x5 x6 x7 x8 x9 x10 x11 x12 x13 x14 x15 x16 x17 := by
  funext y
  unfold out1_19
  simp only [View.ld_unit_zero (S := S2000x128) hz, View.ld_unit_zero (S := S128x128) hz, View.ld_unit_zero (S := S1x128) hz,
    View.ld_unit_zero (S := S128x1) hz, View.ld_unit_zero (S := S1x1) hz, View.ld_unit_zero (S := S2000x1) hz]
  refine View.canon_apply_of_pieces (Val := Elt Ideal) (e := .f32) (blk19 x0 x1 x2 x3 x4 x5 x6 x7 x8 x9 x10 x11 x12 x13 x14 x15 x16 x17 : S2000x384.Idx → Elt Ideal .f32) _ ?_ y (cover1_19 _ _ _ y)
  intro pc hpc x
  simp only [List.mem_cons, List.mem_singleton, List.not_mem_nil, or_false] at hpc
  rcases hpc with rfl | rfl | rfl
  · obtain ⟨p, j, rfl⟩ : ∃ (p : Fin 2000) (j : Fin 128), x = ix2 p j := ⟨x 0, x 1, eq_ix2 x⟩
    have he : r1_8.emb (ix2 p j) = (ix2 p (⟨256 + j.val, by have := j.isLt; omega⟩ : Fin 384) : S2000x384.Idx) := by
      funext a; apply Fin.ext
      match a with
      | ⟨0, _⟩ => show 0 + 1 * p.val = p.val; omega
      | ⟨1, _⟩ => show 256 + 1 * j.val = 256 + j.val; omega
    show k1_pay1 _ _ (ix2 p j) = blk19 x0 x1 x2 x3 x4 x5 x6 x7 x8 x9 x10 x11 x12 x13 x14 x15 x16 x17 (r1_8.emb (ix2 p j))
    rw [he, pay1_11_apply]
    exact (flat_at2 _ _ _ p j _ rfl).symm
  · obtain ⟨p, j, rfl⟩ : ∃ (p : Fin 2000) (j : Fin 128), x = ix2 p j := ⟨x 0, x 1, eq_ix2 x⟩
    have he : r1_7.emb (ix2 p j) = (ix2 p (⟨128 + j.val, by have := j.isLt; omega⟩ : Fin 384) : S2000x384.Idx) := by
      funext a; apply Fin.ext
      match a with
      | ⟨0, _⟩ => show 0 + 1 * p.val = p.val; omega
      | ⟨1, _⟩ => show 128 + 1 * j.val = 128 + j.val; omega
    show k1_pay10 _ _ _ _ _ _ _ (ix2 p j) = blk19 x0 x1 x2 x3 x4 x5 x6 x7 x8 x9 x10 x11 x12 x13 x14 x15 x16 x17 (r1_7.emb (ix2 p j))
    rw [he, pay10_apply]
    exact (flat_at1 _ _ _ p j _ rfl).symm
  · obtain ⟨p, j, rfl⟩ : ∃ (p : Fin 2000) (j : Fin 128), x = ix2 p j := ⟨x 0, x 1, eq_ix2 x⟩
    have he : r1_6.emb (ix2 p j) = (ix2 p (⟨j.val, by have := j.isLt; omega⟩ : Fin 384) : S2000x384.Idx) := by
      funext a; apply Fin.ext
      match a with
      | ⟨0, _⟩ => show 0 + 1 * p.val = p.val; omega
      | ⟨1, _⟩ => show 0 + 1 * j.val = j.val; omega
    show k1_pay9 _ _ _ _ _ _ _ (ix2 p j) = blk19 x0 x1 x2 x3 x4 x5 x6 x7 x8 x9 x10 x11 x12 x13 x14 x15 x16 x17 (r1_6.emb (ix2 p j))
    rw [he, pay9_apply]
    exact (flat_at0 _ _ _ p j _ rfl).symm

/-- The vector-message array (384 wide) as ONE function of the arrays the launch finds. -/
def G19 (c : Dev nD) : A2 400000 384 :=
  flat (msgVK (V c main_arg2) (V c main_v99) (V c main_v103) (V c main_v79) (V c main_v108) (V c main_v109) (V c main_v100) (V c main_v105) (V c main_v80) (V c main_v101) (V c main_v107) (V c main_v81) (V c main_v90) (V c main_v95)) (msgVK (V c main_arg2) (V c main_v99) (V c main_v103) (V c main_v79) (V c main_v108) (V c main_v109) (V c main_v100) (V c main_v105) (V c main_v80) (V c main_v101) (V c main_v107) (V c main_v81) (V c main_v92) (V c main_v96)) (msgVK (V c main_arg2) (V c main_v99) (V c main_v103) (V c main_v79) (V c main_v108) (V c main_v109) (V c main_v100) (V c main_v105) (V c main_v80) (V c main_v101) (V c main_v107) (V c main_v81) (V c main_v94) (V c main_v97))

/-- A component of a block, at row `p`, is the component of the array at row `2000 t + p`. -/
theorem comp_blk (c : Dev nD) (t : Fin cfg1.N) (p : Fin 2000) (j : Fin 128) :
    msgVK (iblk1 V c 0 t) (iblk1 V c 10 t) (iblk1 V c 13 t) (iblk1 V c 1 t) (iblk1 V c 16 t) (iblk1 V c 17 t) (iblk1 V c 11 t) (iblk1 V c 14 t) (iblk1 V c 2 t) (iblk1 V c 12 t) (iblk1 V c 15 t) (iblk1 V c 3 t) (iblk1 V c 4 t) (iblk1 V c 7 t) p j = msgVK (V c main_arg2) (V c main_v99) (V c main_v103) (V c main_v79) (V c main_v108) (V c main_v109) (V c main_v100) (V c main_v105) (V c main_v80) (V c main_v101) (V c main_v107) (V c main_v81) (V c main_v90) (V c main_v95) (row t p) j
    ∧ msgVK (iblk1 V c 0 t) (iblk1 V c 10 t) (iblk1 V c 13 t) (iblk1 V c 1 t) (iblk1 V c 16 t) (iblk1 V c 17 t) (iblk1 V c 11 t) (iblk1 V c 14 t) (iblk1 V c 2 t) (iblk1 V c 12 t) (iblk1 V c 15 t) (iblk1 V c 3 t) (iblk1 V c 5 t) (iblk1 V c 8 t) p j = msgVK (V c main_arg2) (V c main_v99) (V c main_v103) (V c main_v79) (V c main_v108) (V c main_v109) (V c main_v100) (V c main_v105) (V c main_v80) (V c main_v101) (V c main_v107) (V c main_v81) (V c main_v92) (V c main_v96) (row t p) j
    ∧ msgVK (iblk1 V c 0 t) (iblk1 V c 10 t) (iblk1 V c 13 t) (iblk1 V c 1 t) (iblk1 V c 16 t) (iblk1 V c 17 t) (iblk1 V c 11 t) (iblk1 V c 14 t) (iblk1 V c 2 t) (iblk1 V c 12 t) (iblk1 V c 15 t) (iblk1 V c 3 t) (iblk1 V c 6 t) (iblk1 V c 9 t) p j = msgVK (V c main_arg2) (V c main_v99) (V c main_v103) (V c main_v79) (V c main_v108) (V c main_v109) (V c main_v100) (V c main_v105) (V c main_v80) (V c main_v101) (V c main_v107) (V c main_v81) (V c main_v94) (V c main_v97) (row t p) j := by
  refine ⟨?_, ?_, ?_⟩ <;>
  · simp only [msgVK, gateK, lin3, blk0 V c t, blk1 V c t, blk2 V c t, blk3 V c t, blk4 V c t, blk5 V c t, blk6 V c t, blk7 V c t, blk8 V c t, blk9 V c t, blk10 V c t, blk11 V c t, blk12 V c t, blk13 V c t, blk14 V c t, blk15 V c t, blk16 V c t, blk17 V c t]

theorem flushed19_eq (c : Dev nD) (t : Fin cfg1.N) :
    (dat1 V c).flushed 19 t = ((cfg1.win 19).blk t).view.read (Elt Ideal) (G19 V c) := by
  show (cfg1.win 19).cut (grid1.coords t) ((dat1 V c).after 19 t) = _
  rw [after1_19, out19_eq]
  funext y
  obtain ⟨p, J, rfl⟩ : ∃ (p : Fin 2000) (J : Fin 384), y = ix2 p J := ⟨y 0, y 1, eq_ix2 y⟩
  show blk19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (ix2 p J) = G19 V c (((cfg1.win 19).blk t).view.emb (ix2 p J))
  rw [emb19 t p J]
  unfold blk19 G19
  by_cases hA : J.val < 128
  · rw [flat_at0 _ _ _ p ⟨J.val, hA⟩ J rfl, flat_at0 _ _ _ (row t p) ⟨J.val, hA⟩ J rfl]
    exact (comp_blk V c t p ⟨J.val, hA⟩).1
  · by_cases hB : J.val < 256
    · have hj : J.val - 128 < 128 := by omega
      have hJ : J.val = 128 + (⟨J.val - 128, hj⟩ : Fin 128).val := by show J.val = 128 + (J.val - 128); omega
      rw [flat_at1 _ _ _ p ⟨J.val - 128, hj⟩ J hJ, flat_at1 _ _ _ (row t p) ⟨J.val - 128, hj⟩ J hJ]
      exact (comp_blk V c t p ⟨J.val - 128, hj⟩).2.1
    · have hJ384 : J.val < 384 := J.isLt
      have hj : J.val - 256 < 128 := by omega
      have hJ : J.val = 256 + (⟨J.val - 256, hj⟩ : Fin 128).val := by show J.val = 256 + (J.val - 256); omega
      rw [flat_at2 _ _ _ p ⟨J.val - 256, hj⟩ J hJ, flat_at2 _ _ _ (row t p) ⟨J.val - 256, hj⟩ J hJ]
      exact (comp_blk V c t p ⟨J.val - 256, hj⟩).2.2

theorem mem_blk19 (t : Fin cfg1.N) (i : S400000x384.Idx) :
    i ∈ ((cfg1.win 19).blk t).view.set ↔ ∀ a : Fin 2, win1_19.index t a * S2000x384.size a ≤ (i a).val
      ∧ (i a).val < win1_19.index t a * S2000x384.size a + S2000x384.size a := by
  show i ∈ ((View.whole main_v110_1).slice (win1_19.rect t)).set ↔ _
  rw [View.set_slice_whole, Rect.mem_set_unit]
  exact Iff.rfl

theorem cover19 (i : S400000x384.Idx) : ∃ t : Fin cfg1.N, (cfg1.win 19).flush t = true ∧ i ∈ ((cfg1.win 19).blk t).view.set := by
  have hi0 : (i 0).val < 400000 := (i 0).isLt
  have hi1 : (i 1).val < 384 := (i 1).isLt
  let t : Fin cfg1.N := ⟨(i 0).val / 2000, by show _ < 200; omega⟩
  obtain ⟨e0, e1⟩ := idx1_19 t
  have ht : t.val = (i 0).val / 2000 := rfl
  refine ⟨t, flush1_19 t, ?_⟩
  rw [mem_blk19]
  intro a
  match a with
  | ⟨0, _⟩ => show win1_19.index t (0 : Fin 2) * 2000 ≤ (i 0).val ∧ (i 0).val < win1_19.index t (0 : Fin 2) * 2000 + 2000; omega
  | ⟨1, _⟩ => show win1_19.index t (1 : Fin 2) * 384 ≤ (i 1).val ∧ (i 1).val < win1_19.index t (1 : Fin 2) * 384 + 384; omega

/-- THE VECTOR-MESSAGE ARRAY after the launch. -/
theorem final19 (c : Dev nD) : (dat1 V c).arrAt 19 cfg1.N = G19 V c :=
  (dat1 V c).arrAt_eq_of_cover 19 _ (fun t _ => flushed19_eq V c t) cover19

end Cert.KernelIdeal.EdgeValue

end
-- ==== Proof.KernelRead3.lean ====
/-
  The kernel program's buffers, read back: what the edge launch leaves, and the two results.

  The edge launch's two arrays are the specification's scalar messages and, 384 wide, its three vector-message
  components side by side; the last stretch of host operations recasts the latter as [edges, 3, 128], sums both over
  the edges by destination node into zero arrays, and adds the sums to the normalized states and to the vector states.
-/
import proofs.«148059_j40003325395258_1_alg».proof.Proof.KernelRead2
import proofs.«148059_j40003325395258_1_alg».proof.Proof.EdgeValue

set_option maxRecDepth 16384
set_option maxHeartbeats 2000000

noncomputable section

namespace Cert.KernelIdeal.KRead

open Cert.KernelIdeal Cert.KernelIdeal.Gen Cert.Spec Cert.KernelIdeal.EdgePay Cert.KernelIdeal.KSpec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## What the edge launch leaves -/

/-- THE SCALAR MESSAGES: the specification's, of the edge states, the edge weights, the gathered node rows and the gate's weights. -/
theorem w12_v110_0 : W12 m ρ c (Proc.devRef .tc main_v110_0) = msgSArr (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) := by
  have h := W12_arr m ρ c 18
  rw [EdgeValue.final18 (V11 m ρ) c] at h
  refine h.trans ?_
  unfold EdgeValue.G18
  simp only [V11, w11_arg2 m ρ c, w11_v79 m ρ c, w11_v80 m ρ c, w11_v81 m ρ c, w11_v90 m ρ c, w11_v92 m ρ c, w11_v94 m ρ c, w11_v95 m ρ c, w11_v96 m ρ c, w11_v97 m ρ c, w11_v99 m ρ c, w11_v100 m ρ c, w11_v101 m ρ c, w11_v103 m ρ c, w11_v105 m ρ c, w11_v107 m ρ c, w11_v108 m ρ c, w11_v109 m ρ c]
  exact msgSK_eq _ _ _ _ _ _ transposes_S384x128_S128x384_1_0 slices_S128x384_S128x128_0_0 slices_S384_S128_0 shapeCasts_S128_S1x128 slices_S400000x384_S400000x128_0_0 transposes_S1x128_S128x1_1_0 shapeCasts_S1_S1x1

theorem w12_v62 : W12 m ρ c (Proc.devRef .tc main_v62) = sK m ρ c := by
  rw [W12_of_ne m ρ c main_v62 (by decide)]
  show StableHlo.after hostOps1 (W10 m ρ c) (Proc.devRef .tc main_v62) = _
  after_results_simp
  exact w10_v62 m ρ c

theorem w12_v71 : W12 m ρ c (Proc.devRef .tc main_v71) = idxD m ρ c := W12_of_ne m ρ c main_v71 (by decide)

theorem w12_arg1 : W12 m ρ c (Proc.devRef .tc main_arg1) = (m ((c : Thread nD τ).loc main_arg1)) := by
  rw [W12_of_ne m ρ c main_arg1 (by decide)]
  show StableHlo.after hostOps1 (W10 m ρ c) (Proc.devRef .tc main_arg1) = _
  after_results_simp
  exact w10_arg1 m ρ c

/-! ## The two results -/

/-- THE FIRST RESULT: the normalized states plus, node by node, the sum of the scalar messages of the edges that end there. -/
theorem k118 : W13 m ρ c (Proc.devRef .tc main_v118)
    = addf (sK m ρ c) (Host.scatterAdd scatter_S50000x128_S400000x1_S400000x128_1_0_0_1
        (broadcastInDim S50000x128 ![] bcast_S_S50000x128 (constant S_ .f32 0x00000000#32))
        (broadcastInDim S400000x1 ![0] bcast_S400000_S400000x1_0 (idxD m ρ c))
        (msgSArr (m ((c : Thread nD τ).loc main_arg2)) (m ((c : Thread nD τ).loc main_arg6)) (m ((c : Thread nD τ).loc main_arg7)) (Gk m ρ c) (m ((c : Thread nD τ).loc main_arg12)) (m ((c : Thread nD τ).loc main_arg13)))) := by
  show StableHlo.after hostOps2 (W12 m ρ c) (Proc.devRef .tc main_v118) = _
  after_results_simp
  simp only [w12_v62 m ρ c, w12_v71 m ρ c, w12_v110_0 m ρ c]
  try rfl

end Cert.KernelIdeal.KRead

end
-- ==== Proof.KernelRead4.lean ====
/-
  The kernel program's second result: the vector messages, recast and summed by destination node.
-/
import proofs.«148059_j40003325395258_1_alg».proof.Proof.KernelRead3

set_option maxRecDepth 16384
set_option maxHeartbeats 2000000

noncomputable section

namespace Cert.KernelIdeal.KRead

open Cert.KernelIdeal Cert.KernelIdeal.Gen Cert.Spec Cert.KernelIdeal.EdgePay Cert.KernelIdeal.KSpec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)
/-- THE VECTOR MESSAGES, 384 wide: the three components side by side. -/
theorem w12_v110_1 : W12 m ρ c (Proc.devRef .tc main_v110_1)
    = flat (fun e j => msgV (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) (VGk m ρ c) (m ((c : Thread nD τ).loc main_arg3)) e 0 j) (fun e j => msgV (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) (VGk m ρ c) (m ((c : Thread nD τ).loc main_arg3)) e 1 j)
        (fun e j => msgV (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) (VGk m ρ c) (m ((c : Thread nD τ).loc main_arg3)) e 2 j) := by
  have h := W12_arr m ρ c 19
  rw [EdgeValue.final19 (V11 m ρ) c] at h
  refine h.trans ?_
  unfold EdgeValue.G19
  simp only [V11, w11_arg2 m ρ c, w11_v79 m ρ c, w11_v80 m ρ c, w11_v81 m ρ c, w11_v90 m ρ c, w11_v92 m ρ c, w11_v94 m ρ c, w11_v95 m ρ c, w11_v96 m ρ c, w11_v97 m ρ c, w11_v99 m ρ c, w11_v100 m ρ c, w11_v101 m ρ c, w11_v103 m ρ c, w11_v105 m ρ c, w11_v107 m ρ c, w11_v108 m ρ c, w11_v109 m ρ c]
  refine congr (congr (congrArg flat ?_) ?_) ?_
  · funext e j
    exact msgVK_eq _ _ _ _ _ _ _ _ transposes_S384x128_S128x384_1_0 slices_S128x384_S128x128_0_0 slices_S384_S128_0 shapeCasts_S128_S1x128 slices_S400000x384_S400000x128_0_0 transposes_S1x128_S128x1_1_0 shapeCasts_S1_S1x1 slices_S128x384_S128x128_0_128 slices_S384_S128_128 slices_S400000x384_S400000x128_0_128 slices_S128x384_S128x128_0_256 slices_S384_S128_256 slices_S400000x384_S400000x128_0_256 0 0 rfl slices_S400000x3x128_S400000x1x128_0_0_0 shapeCasts_S400000x1x128_S400000x128 slices_S400000x3_S400000x1_0_0 e j
  · funext e j
    exact msgVK_eq _ _ _ _ _ _ _ _ transposes_S384x128_S128x384_1_0 slices_S128x384_S128x128_0_0 slices_S384_S128_0 shapeCasts_S128_S1x128 slices_S400000x384_S400000x128_0_0 transposes_S1x128_S128x1_1_0 shapeCasts_S1_S1x1 slices_S128x384_S128x128_0_128 slices_S384_S128_128 slices_S400000x384_S400000x128_0_128 slices_S128x384_S128x128_0_256 slices_S384_S128_256 slices_S400000x384_S400000x128_0_256 1 1 rfl slices_S400000x3x128_S400000x1x128_0_1_0 shapeCasts_S400000x1x128_S400000x128 slices_S400000x3_S400000x1_0_1 e j
  · funext e j
    exact msgVK_eq _ _ _ _ _ _ _ _ transposes_S384x128_S128x384_1_0 slices_S128x384_S128x128_0_0 slices_S384_S128_0 shapeCasts_S128_S1x128 slices_S400000x384_S400000x128_0_0 transposes_S1x128_S128x1_1_0 shapeCasts_S1_S1x1 slices_S128x384_S128x128_0_128 slices_S384_S128_128 slices_S400000x384_S400000x128_0_128 slices_S128x384_S128x128_0_256 slices_S384_S128_256 slices_S400000x384_S400000x128_0_256 2 2 rfl slices_S400000x3x128_S400000x1x128_0_2_0 shapeCasts_S400000x1x128_S400000x128 slices_S400000x3_S400000x1_0_2 e j

/-- THE SECOND RESULT: the vector states plus, node by node, the sum of the vector messages of the edges that end there. -/
theorem k119 : W13 m ρ c (Proc.devRef .tc main_v119)
    = addf (m ((c : Thread nD τ).loc main_arg1)) (Host.scatterAdd scatter_S50000x3x128_S400000x1_S400000x3x128_12_0_0_1
        (broadcastInDim S50000x3x128 ![] bcast_S_S50000x3x128 (constant S_ .f32 0x00000000#32))
        (broadcastInDim S400000x1 ![0] bcast_S400000_S400000x1_0 (idxD m ρ c))
        (msgVArr (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) (VGk m ρ c) (m ((c : Thread nD τ).loc main_arg3)))) := by
  show StableHlo.after hostOps2 (W12 m ρ c) (Proc.devRef .tc main_v119) = _
  after_results_simp
  simp only [w12_arg1 m ρ c, w12_v71 m ρ c, w12_v110_1 m ρ c]
  have hr := recast_flat (fun e j => msgV (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) (VGk m ρ c) (m ((c : Thread nD τ).loc main_arg3)) e 0 j) (fun e j => msgV (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) (VGk m ρ c) (m ((c : Thread nD τ).loc main_arg3)) e 1 j)
      (fun e j => msgV (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) (VGk m ρ c) (m ((c : Thread nD τ).loc main_arg3)) e 2 j) (msgV (m ((c : Thread nD τ).loc main_arg2)) (m ((c : Thread nD τ).loc main_arg6)) (m ((c : Thread nD τ).loc main_arg7)) (Gk m ρ c) (m ((c : Thread nD τ).loc main_arg12)) (m ((c : Thread nD τ).loc main_arg13)) (VGk m ρ c) (m ((c : Thread nD τ).loc main_arg3)))
      (fun _ _ => rfl) (fun _ _ => rfl) (fun _ _ => rfl) shapeCasts_S400000x384_S400000x3x128
  refine congrArg (addf _) (congrArg (Host.scatterAdd _ _ _) ?_)
  exact hr

end Cert.KernelIdeal.KRead

end
-- ==== Proof.RefValue.lean ====
/- What the reference program's run leaves in the buffers of its message-passing stretch, on the extended reals.

   Writing R b for the contents of buffer b after the whole line from launch contents V: the node network's output is
   the specification's two-layer network of the normalized node states; the scalar and the vector messages are the
   specification's, in terms of the gathered node rows and the gathered vector states; the two gathers and the two
   scatter-additions are read off the line as single operations on those; and the index columns and zero accumulators
   are closed terms of the edge list. The normalized node states R main_v62 are left as they are.

   Each index-level equation goes in two steps: the fold is unfolded at both sides down to the launch contents, which
   shows the buffer holds the program's own composition applied to the named buffers; and that composition is the
   specification's function entry by entry, reading each layout operation at an index: a transposed weight matrix
   reads the weight matrix at the swapped index, a bias laid along the rows reads the bias at the column, the program's
   1 / (1 + e^(-x)) is the logistic function, and a slice of 128 columns from column o reads column o + j. -/
import proofs.«148059_j40003325395258_1_alg».proof.Proof.RefRun
import proofs.«148059_j40003325395258_1_alg».proof.Proof.Spec
import proofs.«148059_j40003325395258_1_alg».proof.Proof.LibPlainDot
import proofs.«148059_j40003325395258_1_alg».proof.Proof.LibKeepdims
import Idealize.ShloMosaic.Lib.Pipeline.Value
import Idealize.ShloMosaic.Lib.ValueLayout
import Idealize.ShloMosaic.Lib.KernelVsHost
import Idealize.ShloMosaic.Lib.IdealHost

noncomputable section

namespace Cert.ReferenceIdeal.RefValue

open Cert.ReferenceIdeal Cert.ReferenceIdeal.Gen Cert.ReferenceIdeal.RefRun Cert.Spec Cert.Lib
open Idealize.ShloMosaic Idealize.ShloMosaic.TcCoe Idealize.ShloMosaic.ValueIdx Idealize.SL.Sem Idealize.ShloMosaic.StableHlo

/-! ## The program's composition as functions of arrays

Each definition applies the operations of a stretch of the program, in the program's order, to arrays standing for the
buffers the stretch reads. -/

/-- The node network's first layer before the activation: the product with the transposed weights plus the bias laid
    along every row. -/
def preT (S : A2 50000 128) (W1 : A2 128 128) (b1 : A1 128) : A2 50000 128 :=
  addf (Host.dotGeneral dot_S50000x128_S128x128_S50000x128_1_0_0_1_n_n none S (transpose S128x128 [1, 0] W1 transposes_S128x128_S128x128_1_0))
    (broadcastInDim S50000x128 ![0, 1] bcast_S1x128_S50000x128_0_1 (broadcastInDim S1x128 ![1] bcast_S128_S1x128_1 b1))

/-- The activation as the program expands it: x · (1 / (1 + e^(-x))), entry by entry. -/
def actT (X : A2 50000 128) : A2 50000 128 :=
  mulf X (Host.divf (broadcastInDim S50000x128 ![] bcast_S_S50000x128 (constant S_ .f32 0x3F800000#32))
    (addf (broadcastInDim S50000x128 ![] bcast_S_S50000x128 (constant S_ .f32 0x3F800000#32)) (Host.exp (Host.negf X))))

/-- The node network's output as the program composes it. -/
def nodeT (S : A2 50000 128) (W1 : A2 128 128) (b1 : A1 128) (W2 : A2 384 128) (b2 : A1 384) : A2 50000 384 :=
  addf (Host.dotGeneral dot_S50000x128_S128x384_S50000x384_1_0_0_1_n_n none (actT (preT S W1 b1)) (transpose S128x384 [1, 0] W2 transposes_S384x128_S128x384_1_0))
    (broadcastInDim S50000x384 ![0, 1] bcast_S1x384_S50000x384_0_1 (broadcastInDim S1x384 ![1] bcast_S384_S1x384_1 b2))

/-- The edge's linear map times the gathered node rows. -/
def wphiT (ES : A2 400000 128) (WW : A2 384 128) (WB : A1 384) (G : A2 400000 384) : A2 400000 384 :=
  mulf (addf (Host.dotGeneral dot_S400000x128_S128x384_S400000x384_1_0_0_1_n_n none ES (transpose S128x384 [1, 0] WW transposes_S384x128_S128x384_1_0))
      (broadcastInDim S400000x384 ![0, 1] bcast_S1x384_S400000x384_0_1 (broadcastInDim S1x384 ![1] bcast_S384_S1x384_1 WB))) G

/-- Columns 0 … 127, 128 … 255 and 256 … 383 of an edge array of 384 columns. -/
def blk0T (X : A2 400000 384) : A2 400000 128 := extractStridedSlice S400000x128 ![0, 0] X slices_S400000x384_S400000x128_0_0
@[inherit_doc blk0T]
def blk1T (X : A2 400000 384) : A2 400000 128 := extractStridedSlice S400000x128 ![0, 128] X slices_S400000x384_S400000x128_0_128
@[inherit_doc blk0T]
def blk2T (X : A2 400000 384) : A2 400000 128 := extractStridedSlice S400000x128 ![0, 256] X slices_S400000x384_S400000x128_0_256

/-- The edge's gate as the program expands it, a column of one entry an edge: 1 / (1 + e^(-(P · EWᵀ + EB))). -/
def gateT (P : A2 400000 128) (EW : A2 1 128) (EB : A1 1) : A2 400000 1 :=
  Host.divf (broadcastInDim S400000x1 ![] bcast_S_S400000x1 (constant S_ .f32 0x3F800000#32))
    (addf (broadcastInDim S400000x1 ![] bcast_S_S400000x1 (constant S_ .f32 0x3F800000#32))
      (Host.exp (Host.negf (addf (Host.dotGeneral dot_S400000x128_S128x1_S400000x1_1_0_0_1_n_n none P (transpose S128x1 [1, 0] EW transposes_S1x128_S128x1_1_0))
        (broadcastInDim S400000x1 ![0, 1] bcast_S1x1_S400000x1_0_1 (broadcastInDim S1x1 ![1] bcast_S1_S1x1_1 EB))))))

/-- The scalar messages as the program composes them. -/
def msgST (ES : A2 400000 128) (WW : A2 384 128) (WB : A1 384) (G : A2 400000 384) (EW : A2 1 128) (EB : A1 1) : A2 400000 128 :=
  mulf (blk0T (wphiT ES WW WB G))
    (broadcastInDim S400000x128 ![0, 1] bcast_S400000x1_S400000x128_0_1 (gateT (blk0T (wphiT ES WW WB G)) EW EB))

/-- The vector messages as the program composes them. -/
def msgVT (ES : A2 400000 128) (WW : A2 384 128) (WB : A1 384) (G : A2 400000 384) (EW : A2 1 128) (EB : A1 1)
    (VG : A3 400000 3 128) (UV : A2 400000 3) : A3 400000 3 128 :=
  mulf (addf
      (mulf VG (broadcastInDim S400000x3x128 ![0, 1, 2] bcast_S400000x1x128_S400000x3x128_0_1_2
        (broadcastInDim S400000x1x128 ![0, 2] bcast_S400000x128_S400000x1x128_0_2 (blk1T (wphiT ES WW WB G)))))
      (mulf (broadcastInDim S400000x3x128 ![0, 1, 2] bcast_S400000x1x128_S400000x3x128_0_1_2
          (broadcastInDim S400000x1x128 ![0, 2] bcast_S400000x128_S400000x1x128_0_2 (blk2T (wphiT ES WW WB G))))
        (broadcastInDim S400000x3x128 ![0, 1, 2] bcast_S400000x3x1_S400000x3x128_0_1_2
          (broadcastInDim S400000x3x1 ![0, 1] bcast_S400000x3_S400000x3x1_0_1 UV))))
    (broadcastInDim S400000x3x128 ![0, 1, 2] bcast_S400000x1x1_S400000x3x128_0_1_2
      (broadcastInDim S400000x1x1 ![0, 1] bcast_S400000x1_S400000x1x1_0_1 (gateT (blk0T (wphiT ES WW WB G)) EW EB)))

/-- Column 0 and column 1 of the edge list, each as a vector over the edges. -/
abbrev endT (o : ℕ) (h : S400000x2.Slices ![0, o] S400000x1) (E : IVec S400000x2 32) : IVec S400000 32 :=
  shapeCast S400000 (extractStridedSlice S400000x1 ![0, o] E h) shapeCasts_S400000x1_S400000

/-- An index vector with its negative entries moved up by the number of rows, as a column. -/
abbrev wrapT (X : IVec S400000 32) : IVec S400000x1 32 :=
  broadcastInDim S400000x1 ![0] bcast_S400000_S400000x1_0
    (select (cmpi .slt X (broadcastInDim S400000 ![] bcast_S_S400000 (constantI S_ 32 0#32)))
      (addi X (broadcastInDim S400000 ![] bcast_S_S400000 (constantI S_ 32 50000#32))) X)

/-! ## The layout operations read at an index -/

/-- The constant 1 spread over any shape reads 1 everywhere. -/
theorem one_apply {t : Shape} (h : S_.BroadcastsInDim t (![] : Fin 0 → Fin t.rank)) (j : t.Idx) :
    broadcastInDim t ![] h (constant (F := Ideal) S_ .f32 0x3F800000#32) j = 1 := by
  rw [broadcastInDim_apply ![] h _ j ix0 (fun a => a.elim0)]
  exact Ideal.ofBits_one_f32

/-- A vector laid as the one row of a `[1, n]` array reads, at `(z, t)`, the vector at `t`. -/
theorem vec_row_apply {α : Type} {n : ℕ} (h : (⟨1, ![n]⟩ : Shape).BroadcastsInDim ⟨2, ![1, n]⟩ ![1])
    (x : (⟨1, ![n]⟩ : Shape).Idx → α) (z : Fin 1) (t : Fin n) :
    broadcastInDim ⟨2, ![1, n]⟩ ![1] h x (ix2 z t) = x (ix1 t) := by
  refine broadcastInDim_apply ![1] h x (ix2 z t) (ix1 t) fun a => ?_
  match a with
  | ⟨0, _⟩ =>
    show t.val = if n = 1 then 0 else t.val
    split
    · have := t.isLt; omega
    · rfl

/-- A bias vector laid as one row and then along every row reads, at `(r, t)`, the vector at `t`. -/
theorem bias_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  rw [broadcastInDim_oneRow_apply, vec_row_apply]

/-- A column of one entry a row spread over `b` columns reads, at `(p, c)`, the entry of row `p`. -/
theorem col_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- An `[edges, 128]` array given a middle unit axis and spread over the three components reads, at `(e, c, j)`, the
    array at `(e, j)`. -/
theorem mid_apply {α : Type} (X : S400000x128.Idx → α) (e : Fin 400000) (c : Fin 3) (j : Fin 128) :
    broadcastInDim S400000x3x128 ![0, 1, 2] bcast_S400000x1x128_S400000x3x128_0_1_2
      (broadcastInDim S400000x1x128 ![0, 2] bcast_S400000x128_S400000x1x128_0_2 X) (ix3 e c j) = X (ix2 e j) := by
  rw [broadcastInDim_apply _ _ _ (ix3 e c j) (ix3 e (0 : Fin 1) j)
      (fun a => match a with | ⟨0, _⟩ => rfl | ⟨1, _⟩ => rfl | ⟨2, _⟩ => rfl),
    broadcastInDim_apply _ _ _ (ix3 e (0 : Fin 1) j) (ix2 e j) (fun a => match a with | ⟨0, _⟩ => rfl | ⟨1, _⟩ => rfl)]

/-- An `[edges, 3]` array given a trailing unit axis and spread over the 128 columns reads, at `(e, c, j)`, the array
    at `(e, c)`. -/
theorem uv_apply {α : Type} (U : S400000x3.Idx → α) (e : Fin 400000) (c : Fin 3) (j : Fin 128) :
    broadcastInDim S400000x3x128 ![0, 1, 2] bcast_S400000x3x1_S400000x3x128_0_1_2
      (broadcastInDim S400000x3x1 ![0, 1] bcast_S400000x3_S400000x3x1_0_1 U) (ix3 e c j) = U (ix2 e c) := by
  rw [broadcastInDim_apply _ _ _ (ix3 e c j) (ix3 e c (0 : Fin 1))
      (fun a => match a with | ⟨0, _⟩ => rfl | ⟨1, _⟩ => rfl | ⟨2, _⟩ => rfl),
    broadcastInDim_apply _ _ _ (ix3 e c (0 : Fin 1)) (ix2 e c) (fun a => match a with | ⟨0, _⟩ => rfl | ⟨1, _⟩ => rfl)]

/-- A column of one entry an edge given a second unit axis and spread over components and columns reads, at
    `(e, c, j)`, the entry of edge `e`. -/
theorem gate3_apply {α : Type} (g : S400000x1.Idx → α) (e : Fin 400000) (c : Fin 3) (j : Fin 128) :
    broadcastInDim S400000x3x128 ![0, 1, 2] bcast_S400000x1x1_S400000x3x128_0_1_2
      (broadcastInDim S400000x1x1 ![0, 1] bcast_S400000x1_S400000x1x1_0_1 g) (ix3 e c j) = g (ix2 e (0 : Fin 1)) := by
  rw [broadcastInDim_apply _ _ _ (ix3 e c j) (ix3 e (0 : Fin 1) (0 : Fin 1))
      (fun a => match a with | ⟨0, _⟩ => rfl | ⟨1, _⟩ => rfl | ⟨2, _⟩ => rfl),
    broadcastInDim_apply _ _ _ (ix3 e (0 : Fin 1) (0 : Fin 1)) (ix2 e (0 : Fin 1))
      (fun a => match a with | ⟨0, _⟩ => rfl | ⟨1, _⟩ => rfl)]

/-- The program's expansion 1 / (1 + e^(-x)) of the logistic function, entry by entry. -/
theorem sigma_apply {t : Shape} (h h' : S_.BroadcastsInDim t (![] : Fin 0 → Fin t.rank)) (X : FVec Ideal t .f32) (i : t.Idx) :
    Host.divf (broadcastInDim t ![] h (constant S_ .f32 0x3F800000#32))
      (addf (broadcastInDim t ![] h' (constant S_ .f32 0x3F800000#32)) (Host.exp (Host.negf X))) i = Ideal.logistic (X i) := by
  show Ideal.div (broadcastInDim t ![] h (constant (F := Ideal) S_ .f32 0x3F800000#32) i)
      (broadcastInDim t ![] h' (constant (F := Ideal) S_ .f32 0x3F800000#32) i + Ideal.exp (-(X i))) = _
  rw [one_apply]
  rfl

/-! ## The program's compositions are the specification's functions -/

theorem actT_apply (X : A2 50000 128) (i : S50000x128.Idx) : actT X i = act (X i) := by
  unfold actT act
  rw [mulf_apply, sigma_apply]

theorem preT_apply (S : A2 50000 128) (W1 : A2 128 128) (b1 : A1 128) (n : Fin 50000) (k : Fin 128) :
    preT S W1 b1 (ix2 n k) = (∑ q : Fin 128, S (ix2 n q) * W1 (ix2 k q)) + b1 (ix1 k) := by
  unfold preT
  rw [addf_apply, dotGeneral_plain dot_S50000x128_S128x128_S50000x128_1_0_0_1_n_n rfl, bias_apply]
  congr 1
  refine Finset.sum_congr rfl fun q _ => ?_
  congr 1
  exact transpose_ix2_apply _ _ _ _

/-- The node network as the program composes it is the specification's, entry by entry. -/
theorem nodeT_eq (S : A2 50000 128) (W1 : A2 128 128) (b1 : A1 128) (W2 : A2 384 128) (b2 : A1 384) :
    nodeT S W1 b1 W2 b2 = phiArr S W1 b1 W2 b2 := by
  funext i
  obtain ⟨n, j, rfl⟩ : ∃ (n : Fin 50000) (j : Fin 384), i = ix2 n j := ⟨i 0, i 1, eq_ix2 i⟩
  show nodeT S W1 b1 W2 b2 (ix2 n j) = phi S W1 b1 W2 b2 n j
  unfold nodeT phi hid
  rw [addf_apply, dotGeneral_plain dot_S50000x128_S128x384_S50000x384_1_0_0_1_n_n rfl, bias_apply]
  simp only [actT_apply, preT_apply]
  congr 1
  refine Finset.sum_congr rfl fun k _ => ?_
  congr 1
  exact transpose_ix2_apply _ _ _ _

theorem wphiT_apply (ES : A2 400000 128) (WW : A2 384 128) (WB : A1 384) (G : A2 400000 384) (e : Fin 400000) (c : Fin 384) :
    wphiT ES WW WB G (ix2 e c) = wphi ES WW WB G e c := by
  unfold wphiT wphi
  rw [mulf_apply, addf_apply, dotGeneral_plain dot_S400000x128_S128x384_S400000x384_1_0_0_1_n_n rfl, bias_apply]
  congr 2
  refine Finset.sum_congr rfl fun q _ => ?_
  congr 1
  exact transpose_ix2_apply _ _ _ _

theorem blk0T_apply (X : A2 400000 384) (e : Fin 400000) (j : Fin 128) :
    blk0T X (ix2 e j) = X (ix2 e (col 0 (by norm_num) j)) :=
  slice2_axis1_apply 0 X _ e j (col 0 (by norm_num) j) rfl

theorem blk1T_apply (X : A2 400000 384) (e : Fin 400000) (j : Fin 128) :
    blk1T X (ix2 e j) = X (ix2 e (col 128 (by norm_num) j)) :=
  slice2_axis1_apply 128 X _ e j (col 128 (by norm_num) j) rfl

theorem blk2T_apply (X : A2 400000 384) (e : Fin 400000) (j : Fin 128) :
    blk2T X (ix2 e j) = X (ix2 e (col 256 (by norm_num) j)) :=
  slice2_axis1_apply 256 X _ e j (col 256 (by norm_num) j) rfl

theorem gateT_apply (ES : A2 400000 128) (WW : A2 384 128) (WB : A1 384) (G : A2 400000 384) (EW : A2 1 128) (EB : A1 1)
    (e : Fin 400000) :
    gateT (blk0T (wphiT ES WW WB G)) EW EB (ix2 e (0 : Fin 1)) = gate ES WW WB G EW EB e := by
  unfold gateT gate
  rw [sigma_apply, addf_apply, dotGeneral_plain dot_S400000x128_S128x1_S400000x1_1_0_0_1_n_n rfl, bias_apply]
  simp only [blk0T_apply, wphiT_apply]
  congr 2
  refine Finset.sum_congr rfl fun q _ => ?_
  congr 1
  exact transpose_ix2_apply _ _ _ _

/-- The scalar messages as the program composes them are the specification's, entry by entry. -/
theorem msgST_eq (ES : A2 400000 128) (WW : A2 384 128) (WB : A1 384) (G : A2 400000 384) (EW : A2 1 128) (EB : A1 1) :
    msgST ES WW WB G EW EB = msgSArr ES WW WB G EW EB := by
  funext i
  obtain ⟨e, j, rfl⟩ : ∃ (e : Fin 400000) (j : Fin 128), i = ix2 e j := ⟨i 0, i 1, eq_ix2 i⟩
  show msgST ES WW WB G EW EB (ix2 e j) = msgS ES WW WB G EW EB e j
  unfold msgST msgS
  rw [mulf_apply, col_apply, gateT_apply, blk0T_apply, wphiT_apply]

/-- The vector messages as the program composes them are the specification's, entry by entry. -/
theorem msgVT_eq (ES : A2 400000 128) (WW : A2 384 128) (WB : A1 384) (G : A2 400000 384) (EW : A2 1 128) (EB : A1 1)
    (VG : A3 400000 3 128) (UV : A2 400000 3) :
    msgVT ES WW WB G EW EB VG UV = msgVArr ES WW WB G EW EB VG UV := by
  funext i
  obtain ⟨e, c, j, rfl⟩ : ∃ (e : Fin 400000) (c : Fin 3) (j : Fin 128), i = ix3 e c j := ⟨i 0, i 1, i 2, eq_ix3 i⟩
  show msgVT ES WW WB G EW EB VG UV (ix3 e c j) = msgV ES WW WB G EW EB VG UV e c j
  unfold msgVT msgV
  rw [mulf_apply, addf_apply, mulf_apply, mulf_apply, mid_apply, mid_apply, uv_apply, gate3_apply, gateT_apply, blk1T_apply, blk2T_apply,
    wphiT_apply, wphiT_apply]

variable (V : Valuation τ sig (Elt Ideal))

/-! ## The fold read at the buffers the statement is about

`R b` below is the contents of buffer `b` after the whole line from launch contents `V`. Each equation unfolds the fold
at both sides down to the launch contents, where the two sides are the same term. -/

set_option maxRecDepth 16384 in
set_option maxHeartbeats 8000000 in
theorem v78_step : after ops V (main_v78 : DevRef τ sig) = nodeT (after ops V (main_v62 : DevRef τ sig)) (V (main_arg8 : DevRef τ sig)) (V (main_arg9 : DevRef τ sig)) (V (main_arg10 : DevRef τ sig)) (V (main_arg11 : DevRef τ sig)) := by
  simp only [ops, after_append, nodeT, actT, preT]
  after_results_simp <;> rfl

set_option maxRecDepth 16384 in
set_option maxHeartbeats 8000000 in
theorem v89_eq : after ops V (main_v89 : DevRef τ sig)
    = Host.gather gather_S50000x384_S400000x1_S400000x384_1_0_n_n_0_1_1384 (after ops V (main_v78 : DevRef τ sig)) (after ops V (main_v88 : DevRef τ sig)) := by
  simp only [ops, after_append]
  after_results_simp <;> rfl

set_option maxRecDepth 16384 in
set_option maxHeartbeats 8000000 in
theorem v113_eq : after ops V (main_v113 : DevRef τ sig)
    = Host.gather gather_S50000x3x128_S400000x1_S400000x3x128_12_0_n_n_0_1_13128 (V (main_arg1 : DevRef τ sig)) (after ops V (main_v112 : DevRef τ sig)) := by
  simp only [ops, after_append]
  after_results_simp <;> rfl

set_option maxRecDepth 16384 in
set_option maxHeartbeats 8000000 in
theorem v106_step : after ops V (main_v106 : DevRef τ sig)
    = msgST (V (main_arg2 : DevRef τ sig)) (V (main_arg6 : DevRef τ sig)) (V (main_arg7 : DevRef τ sig)) (after ops V (main_v89 : DevRef τ sig)) (V (main_arg12 : DevRef τ sig)) (V (main_arg13 : DevRef τ sig)) := by
  simp only [ops, after_append, msgST, gateT, blk0T, wphiT]
  after_results_simp <;> rfl

set_option maxRecDepth 16384 in
set_option maxHeartbeats 8000000 in
theorem v125_step : after ops V (main_v125 : DevRef τ sig)
    = msgVT (V (main_arg2 : DevRef τ sig)) (V (main_arg6 : DevRef τ sig)) (V (main_arg7 : DevRef τ sig)) (after ops V (main_v89 : DevRef τ sig)) (V (main_arg12 : DevRef τ sig)) (V (main_arg13 : DevRef τ sig))
        (after ops V (main_v113 : DevRef τ sig)) (V (main_arg3 : DevRef τ sig)) := by
  simp only [ops, after_append, msgVT, gateT, blk0T, blk1T, blk2T, wphiT]
  after_results_simp <;> rfl

set_option maxRecDepth 16384 in
set_option maxHeartbeats 8000000 in
theorem v132_eq : after ops V (main_v132 : DevRef τ sig)
    = addf (F := Ideal) (s := S50000x128) (φ := .f32) (after ops V (main_v62 : DevRef τ sig)) (Host.scatterAdd scatter_S50000x128_S400000x1_S400000x128_1_0_0_1 (after ops V (main_v126 : DevRef τ sig)) (after ops V (main_v127 : DevRef τ sig)) (after ops V (main_v106 : DevRef τ sig))) := by
  simp only [ops, after_append]
  after_results_simp <;> rfl

set_option maxRecDepth 16384 in
set_option maxHeartbeats 8000000 in
theorem v133_eq : after ops V (main_v133 : DevRef τ sig)
    = addf (F := Ideal) (s := S50000x3x128) (φ := .f32) (V (main_arg1 : DevRef τ sig)) (Host.scatterAdd scatter_S50000x3x128_S400000x1_S400000x3x128_12_0_0_1 (after ops V (main_v129 : DevRef τ sig)) (after ops V (main_v130 : DevRef τ sig)) (after ops V (main_v125 : DevRef τ sig))) := by
  simp only [ops, after_append]
  after_results_simp <;> rfl

set_option maxRecDepth 16384 in
set_option maxHeartbeats 8000000 in
theorem v88_eq : after ops V (main_v88 : DevRef τ sig) = wrapT (endT 0 slices_S400000x2_S400000x1_0_0 (V (main_arg4 : DevRef τ sig))) := by
  simp only [ops, after_append, wrapT, endT]
  after_results_simp <;> rfl

set_option maxRecDepth 16384 in
set_option maxHeartbeats 8000000 in
theorem v112_eq : after ops V (main_v112 : DevRef τ sig) = wrapT (endT 0 slices_S400000x2_S400000x1_0_0 (V (main_arg4 : DevRef τ sig))) := by
  simp only [ops, after_append, wrapT, endT]
  after_results_simp <;> rfl

set_option maxRecDepth 16384 in
set_option maxHeartbeats 8000000 in
theorem v127_eq : after ops V (main_v127 : DevRef τ sig)
    = broadcastInDim S400000x1 ![0] bcast_S400000_S400000x1_0 (endT 1 slices_S400000x2_S400000x1_0_1 (V (main_arg4 : DevRef τ sig))) := by
  simp only [ops, after_append, endT]
  after_results_simp <;> rfl

set_option maxRecDepth 16384 in
set_option maxHeartbeats 8000000 in
theorem v130_eq : after ops V (main_v130 : DevRef τ sig)
    = broadcastInDim S400000x1 ![0] bcast_S400000_S400000x1_0 (endT 1 slices_S400000x2_S400000x1_0_1 (V (main_arg4 : DevRef τ sig))) := by
  simp only [ops, after_append, endT]
  after_results_simp <;> rfl

set_option maxRecDepth 16384 in
set_option maxHeartbeats 8000000 in
theorem v126_eq : after ops V (main_v126 : DevRef τ sig) = broadcastInDim S50000x128 ![] bcast_S_S50000x128 (constant (F := Ideal) S_ .f32 0x00000000#32) := by
  simp only [ops, after_append]
  after_results_simp <;> rfl

set_option maxRecDepth 16384 in
set_option maxHeartbeats 8000000 in
theorem v129_eq : after ops V (main_v129 : DevRef τ sig) = broadcastInDim S50000x3x128 ![] bcast_S_S50000x3x128 (constant (F := Ideal) S_ .f32 0x00000000#32) := by
  simp only [ops, after_append]
  after_results_simp <;> rfl

/-! ## The statements -/

/-- The node network's output buffer holds the specification's two-layer network of the normalized node states. -/
theorem v78_eq : after ops V (main_v78 : DevRef τ sig)
    = phiArr (after ops V (main_v62 : DevRef τ sig)) (V (main_arg8 : DevRef τ sig)) (V (main_arg9 : DevRef τ sig)) (V (main_arg10 : DevRef τ sig)) (V (main_arg11 : DevRef τ sig)) :=
  (v78_step V).trans (nodeT_eq _ _ _ _ _)

/-- The scalar messages' buffer holds the specification's scalar messages of the gathered node rows. -/
theorem v106_eq : after ops V (main_v106 : DevRef τ sig)
    = msgSArr (V (main_arg2 : DevRef τ sig)) (V (main_arg6 : DevRef τ sig)) (V (main_arg7 : DevRef τ sig)) (after ops V (main_v89 : DevRef τ sig)) (V (main_arg12 : DevRef τ sig)) (V (main_arg13 : DevRef τ sig)) :=
  (v106_step V).trans (msgST_eq _ _ _ _ _ _)

/-- The vector messages' buffer holds the specification's vector messages of the gathered node rows and vector states. -/
theorem v125_eq : after ops V (main_v125 : DevRef τ sig)
    = msgVArr (V (main_arg2 : DevRef τ sig)) (V (main_arg6 : DevRef τ sig)) (V (main_arg7 : DevRef τ sig)) (after ops V (main_v89 : DevRef τ sig)) (V (main_arg12 : DevRef τ sig)) (V (main_arg13 : DevRef τ sig))
        (after ops V (main_v113 : DevRef τ sig)) (V (main_arg3 : DevRef τ sig)) :=
  (v125_step V).trans (msgVT_eq _ _ _ _ _ _ _ _)

end Cert.ReferenceIdeal.RefValue

end
-- ==== Proof.BridgeIdx.lean ====
/-
  The two programs' index arrays are one array.

  Both programs read the edges' source node from column 0 of the edge list (wrapping a negative index by the number of
  nodes) and the destination node from column 1, by the same operations on the same argument.
-/
import proofs.«148059_j40003325395258_1_alg».proof.Proof.KernelRead4
import proofs.«148059_j40003325395258_1_alg».proof.Proof.RefValue

set_option maxRecDepth 16384
set_option maxHeartbeats 2000000

noncomputable section

namespace Cert.Bridge

open Idealize.ShloMosaic Idealize.ShloMosaic.TcCoe Idealize.SL.Sem Idealize.ShloMosaic.StableHlo Cert.Spec

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The source rows for the node network's output. -/
theorem idxS_bridge (h4 : launchContents m' c (Proc.devRef .tc Cert.ReferenceIdeal.main_arg4) = m ((c.tc : Thread Cert.KernelIdeal.nD Cert.KernelIdeal.τ).loc Cert.KernelIdeal.main_arg4)) :
    after Cert.ReferenceIdeal.RefRun.ops (launchContents m' c) (Proc.devRef .tc Cert.ReferenceIdeal.main_v88) = Cert.KernelIdeal.KRead.idxS m ρ c := by
  rw [Cert.ReferenceIdeal.RefValue.v88_eq, h4]
  unfold Cert.KernelIdeal.KRead.idxS
  show _ = StableHlo.after Cert.KernelIdeal.Gen.hostOps1 (Cert.KernelIdeal.Gen.W10 m ρ c) (Proc.devRef .tc Cert.KernelIdeal.main_v77)
  after_results_simp
  simp only [Cert.KernelIdeal.KRead.w10_arg4 m ρ c]
  rfl

/-- The source rows for the vector states. -/
theorem idxS'_bridge (h4 : launchContents m' c (Proc.devRef .tc Cert.ReferenceIdeal.main_arg4) = m ((c.tc : Thread Cert.KernelIdeal.nD Cert.KernelIdeal.τ).loc Cert.KernelIdeal.main_arg4)) :
    after Cert.ReferenceIdeal.RefRun.ops (launchContents m' c) (Proc.devRef .tc Cert.ReferenceIdeal.main_v112) = Cert.KernelIdeal.KRead.idxS' m ρ c := by
  rw [Cert.ReferenceIdeal.RefValue.v112_eq, h4]
  unfold Cert.KernelIdeal.KRead.idxS'
  show _ = StableHlo.after Cert.KernelIdeal.Gen.hostOps1 (Cert.KernelIdeal.Gen.W10 m ρ c) (Proc.devRef .tc Cert.KernelIdeal.main_v87)
  after_results_simp
  simp only [Cert.KernelIdeal.KRead.w10_arg4 m ρ c]
  rfl

/-- The destination nodes, as the column the sums over edges take. -/
theorem idxD_bridge (h4 : launchContents m' c (Proc.devRef .tc Cert.ReferenceIdeal.main_arg4) = m ((c.tc : Thread Cert.KernelIdeal.nD Cert.KernelIdeal.τ).loc Cert.KernelIdeal.main_arg4)) :
    after Cert.ReferenceIdeal.RefRun.ops (launchContents m' c) (Proc.devRef .tc Cert.ReferenceIdeal.main_v127) = broadcastInDim Cert.KernelIdeal.S400000x1 ![0] Cert.KernelIdeal.Facts₀.bcast_S400000_S400000x1_0 (Cert.KernelIdeal.KRead.idxD m ρ c) := by
  rw [Cert.ReferenceIdeal.RefValue.v127_eq, h4]
  unfold Cert.KernelIdeal.KRead.idxD
  show _ = broadcastInDim Cert.KernelIdeal.S400000x1 ![0] Cert.KernelIdeal.Facts₀.bcast_S400000_S400000x1_0 (StableHlo.after Cert.KernelIdeal.Gen.hostOps1 (Cert.KernelIdeal.Gen.W10 m ρ c) (Proc.devRef .tc Cert.KernelIdeal.main_v71))
  after_results_simp
  simp only [Cert.KernelIdeal.KRead.w10_arg4 m ρ c]
  rfl

theorem idxD'_bridge (h4 : launchContents m' c (Proc.devRef .tc Cert.ReferenceIdeal.main_arg4) = m ((c.tc : Thread Cert.KernelIdeal.nD Cert.KernelIdeal.τ).loc Cert.KernelIdeal.main_arg4)) :
    after Cert.ReferenceIdeal.RefRun.ops (launchContents m' c) (Proc.devRef .tc Cert.ReferenceIdeal.main_v130) = broadcastInDim Cert.KernelIdeal.S400000x1 ![0] Cert.KernelIdeal.Facts₀.bcast_S400000_S400000x1_0 (Cert.KernelIdeal.KRead.idxD m ρ c) := by
  rw [Cert.ReferenceIdeal.RefValue.v130_eq, h4]
  unfold Cert.KernelIdeal.KRead.idxD
  show _ = broadcastInDim Cert.KernelIdeal.S400000x1 ![0] Cert.KernelIdeal.Facts₀.bcast_S400000_S400000x1_0 (StableHlo.after Cert.KernelIdeal.Gen.hostOps1 (Cert.KernelIdeal.Gen.W10 m ρ c) (Proc.devRef .tc Cert.KernelIdeal.main_v71))
  after_results_simp
  simp only [Cert.KernelIdeal.KRead.w10_arg4 m ρ c]
  rfl

end Cert.Bridge

end
-- ==== Proof.BridgeMain.lean ====
/-
  The two programs end with the same results.

  The reference's first result is its normalized states plus the sum over edges, by destination node, of its scalar
  messages; the kernel program's is the same expression of ITS normalized states, index arrays and messages. Both
  message arrays are the specification's function of the arguments, of the gathered node rows and of the gathered
  vector states; the gathered node rows are the same gather of the specification's node network of the normalized
  states. So, the arguments agreeing, the results are equal as soon as the two normalized-state arrays are (the same
  host operations applied to the same arguments) — and likewise the second result.
-/
import proofs.«148059_j40003325395258_1_alg».proof.Proof.BridgeIdx

set_option maxRecDepth 16384
set_option maxHeartbeats 2000000

noncomputable section

namespace Cert.Bridge

open Idealize.ShloMosaic Idealize.ShloMosaic.TcCoe Idealize.SL.Sem Idealize.ShloMosaic.StableHlo Cert.Spec

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

attribute [local irreducible] Host.gather Host.scatterAdd in
/-- The first results agree. -/
theorem out0 (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hS : after Cert.ReferenceIdeal.RefRun.ops (launchContents m' c) (Proc.devRef .tc Cert.ReferenceIdeal.main_v62) = Cert.KernelIdeal.KRead.sK m ρ c) :
    after Cert.ReferenceIdeal.RefRun.ops (launchContents m' c) (Proc.devRef .tc Cert.ReferenceIdeal.main_v132) = Cert.KernelIdeal.Gen.W13 m ρ c (Proc.devRef .tc Cert.KernelIdeal.main_v118) := by
  obtain ⟨h0, h1, h2, h3, h4, h5, h6, h7, h8, h9, h10, h11, h12, h13, h14, h15⟩ := hagree
  have a2 : launchContents m' c (Proc.devRef .tc Cert.ReferenceIdeal.main_arg2) = m ((c.tc : Thread Cert.KernelIdeal.nD Cert.KernelIdeal.τ).loc Cert.KernelIdeal.main_arg2) := h2
  have a4 : launchContents m' c (Proc.devRef .tc Cert.ReferenceIdeal.main_arg4) = m ((c.tc : Thread Cert.KernelIdeal.nD Cert.KernelIdeal.τ).loc Cert.KernelIdeal.main_arg4) := h4
  have a6 : launchContents m' c (Proc.devRef .tc Cert.ReferenceIdeal.main_arg6) = m ((c.tc : Thread Cert.KernelIdeal.nD Cert.KernelIdeal.τ).loc Cert.KernelIdeal.main_arg6) := h6
  have a7 : launchContents m' c (Proc.devRef .tc Cert.ReferenceIdeal.main_arg7) = m ((c.tc : Thread Cert.KernelIdeal.nD Cert.KernelIdeal.τ).loc Cert.KernelIdeal.main_arg7) := h7
  have a8 : launchContents m' c (Proc.devRef .tc Cert.ReferenceIdeal.main_arg8) = m ((c.tc : Thread Cert.KernelIdeal.nD Cert.KernelIdeal.τ).loc Cert.KernelIdeal.main_arg8) := h8
  have a9 : launchContents m' c (Proc.devRef .tc Cert.ReferenceIdeal.main_arg9) = m ((c.tc : Thread Cert.KernelIdeal.nD Cert.KernelIdeal.τ).loc Cert.KernelIdeal.main_arg9) := h9
  have a10 : launchContents m' c (Proc.devRef .tc Cert.ReferenceIdeal.main_arg10) = m ((c.tc : Thread Cert.KernelIdeal.nD Cert.KernelIdeal.τ).loc Cert.KernelIdeal.main_arg10) := h10
  have a11 : launchContents m' c (Proc.devRef .tc Cert.ReferenceIdeal.main_arg11) = m ((c.tc : Thread Cert.KernelIdeal.nD Cert.KernelIdeal.τ).loc Cert.KernelIdeal.main_arg11) := h11
  have a12 : launchContents m' c (Proc.devRef .tc Cert.ReferenceIdeal.main_arg12) = m ((c.tc : Thread Cert.KernelIdeal.nD Cert.KernelIdeal.τ).loc Cert.KernelIdeal.main_arg12) := h12
  have a13 : launchContents m' c (Proc.devRef .tc Cert.ReferenceIdeal.main_arg13) = m ((c.tc : Thread Cert.KernelIdeal.nD Cert.KernelIdeal.τ).loc Cert.KernelIdeal.main_arg13) := h13
  rw [Cert.ReferenceIdeal.RefValue.v132_eq, Cert.ReferenceIdeal.RefValue.v106_eq, Cert.ReferenceIdeal.RefValue.v89_eq, Cert.ReferenceIdeal.RefValue.v78_eq, Cert.ReferenceIdeal.RefValue.v126_eq,
    Cert.KernelIdeal.KRead.k118 m ρ c, hS, idxS_bridge m ρ m' c a4, idxD_bridge m ρ m' c a4]
  simp only [a2, a6, a7, a8, a9, a10, a11, a12, a13]
  unfold Cert.KernelIdeal.KRead.Gk
  rfl

attribute [local irreducible] Host.gather Host.scatterAdd in
/-- The second results agree. -/
theorem out1 (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hS : after Cert.ReferenceIdeal.RefRun.ops (launchContents m' c) (Proc.devRef .tc Cert.ReferenceIdeal.main_v62) = Cert.KernelIdeal.KRead.sK m ρ c) :
    after Cert.ReferenceIdeal.RefRun.ops (launchContents m' c) (Proc.devRef .tc Cert.ReferenceIdeal.main_v133) = Cert.KernelIdeal.Gen.W13 m ρ c (Proc.devRef .tc Cert.KernelIdeal.main_v119) := by
  obtain ⟨h0, h1, h2, h3, h4, h5, h6, h7, h8, h9, h10, h11, h12, h13, h14, h15⟩ := hagree
  have a1 : launchContents m' c (Proc.devRef .tc Cert.ReferenceIdeal.main_arg1) = m ((c.tc : Thread Cert.KernelIdeal.nD Cert.KernelIdeal.τ).loc Cert.KernelIdeal.main_arg1) := h1
  have a2 : launchContents m' c (Proc.devRef .tc Cert.ReferenceIdeal.main_arg2) = m ((c.tc : Thread Cert.KernelIdeal.nD Cert.KernelIdeal.τ).loc Cert.KernelIdeal.main_arg2) := h2
  have a3 : launchContents m' c (Proc.devRef .tc Cert.ReferenceIdeal.main_arg3) = m ((c.tc : Thread Cert.KernelIdeal.nD Cert.KernelIdeal.τ).loc Cert.KernelIdeal.main_arg3) := h3
  have a4 : launchContents m' c (Proc.devRef .tc Cert.ReferenceIdeal.main_arg4) = m ((c.tc : Thread Cert.KernelIdeal.nD Cert.KernelIdeal.τ).loc Cert.KernelIdeal.main_arg4) := h4
  have a6 : launchContents m' c (Proc.devRef .tc Cert.ReferenceIdeal.main_arg6) = m ((c.tc : Thread Cert.KernelIdeal.nD Cert.KernelIdeal.τ).loc Cert.KernelIdeal.main_arg6) := h6
  have a7 : launchContents m' c (Proc.devRef .tc Cert.ReferenceIdeal.main_arg7) = m ((c.tc : Thread Cert.KernelIdeal.nD Cert.KernelIdeal.τ).loc Cert.KernelIdeal.main_arg7) := h7
  have a8 : launchContents m' c (Proc.devRef .tc Cert.ReferenceIdeal.main_arg8) = m ((c.tc : Thread Cert.KernelIdeal.nD Cert.KernelIdeal.τ).loc Cert.KernelIdeal.main_arg8) := h8
  have a9 : launchContents m' c (Proc.devRef .tc Cert.ReferenceIdeal.main_arg9) = m ((c.tc : Thread Cert.KernelIdeal.nD Cert.KernelIdeal.τ).loc Cert.KernelIdeal.main_arg9) := h9
  have a10 : launchContents m' c (Proc.devRef .tc Cert.ReferenceIdeal.main_arg10) = m ((c.tc : Thread Cert.KernelIdeal.nD Cert.KernelIdeal.τ).loc Cert.KernelIdeal.main_arg10) := h10
  have a11 : launchContents m' c (Proc.devRef .tc Cert.ReferenceIdeal.main_arg11) = m ((c.tc : Thread Cert.KernelIdeal.nD Cert.KernelIdeal.τ).loc Cert.KernelIdeal.main_arg11) := h11
  have a12 : launchContents m' c (Proc.devRef .tc Cert.ReferenceIdeal.main_arg12) = m ((c.tc : Thread Cert.KernelIdeal.nD Cert.KernelIdeal.τ).loc Cert.KernelIdeal.main_arg12) := h12
  have a13 : launchContents m' c (Proc.devRef .tc Cert.ReferenceIdeal.main_arg13) = m ((c.tc : Thread Cert.KernelIdeal.nD Cert.KernelIdeal.τ).loc Cert.KernelIdeal.main_arg13) := h13
  rw [Cert.ReferenceIdeal.RefValue.v133_eq, Cert.ReferenceIdeal.RefValue.v125_eq, Cert.ReferenceIdeal.RefValue.v113_eq, Cert.ReferenceIdeal.RefValue.v89_eq, Cert.ReferenceIdeal.RefValue.v78_eq, Cert.ReferenceIdeal.RefValue.v129_eq,
    Cert.KernelIdeal.KRead.k119 m ρ c, hS, idxS_bridge m ρ m' c a4, idxS'_bridge m ρ m' c a4, idxD'_bridge m ρ m' c a4]
  simp only [a1, a2, a3, a6, a7, a8, a9, a10, a11, a12, a13]
  unfold Cert.KernelIdeal.KRead.Gk Cert.KernelIdeal.KRead.VGk
  rfl

end Cert.Bridge

end
-- ==== Proof.lean ====
/-
  The claim: the message-passing layer written as two launches among host operations computes, on the extended reals,
  what its reference computes, and all three programs run without fault and leave their arguments as they were.

  Both programs normalize the node states per graph by the same host operations. The node network (two linear layers
  around x · σ(x)) is one launch over blocks of 5000 nodes in the kernel program and two matrix products on the host
  in the reference; the edge messages (three linear layers of the edge states times the gathered node row, a gate, the
  scalar message and three vector-message components) are one launch over blocks of 2000 edges against the host's
  products, slices and broadcasts. Entry by entry both are the same sums of the same products in the same order, and
  the activation σ is one function of an extended real however it is spelt (one operation in a launch; negate,
  exponential, add and divide on the host). The row gathers by source node and the sums over edges by destination node
  are the same host operations on both sides. No law used needs an entry to be finite, so the precondition is never
  opened.

  The word-level kernel and its idealization have generated frames; the idealization pass rewrote nothing, so
  "preserves" is trivial. The reference's frame is its run with the results dropped.
-/
import proofs.«148059_j40003325395258_1_alg».proof.Defs
import proofs.«148059_j40003325395258_1_alg».proof.Proof.Gen.Kernel
import proofs.«148059_j40003325395258_1_alg».proof.Proof.Gen.Kernel.Frame
import proofs.«148059_j40003325395258_1_alg».proof.Proof.Gen.KernelIdeal
import proofs.«148059_j40003325395258_1_alg».proof.Proof.Gen.KernelIdeal.Frame
import proofs.«148059_j40003325395258_1_alg».proof.Proof.Gen.ReferenceIdeal
import proofs.«148059_j40003325395258_1_alg».proof.Proof.Gen.Pre_finite_inputs
import proofs.«148059_j40003325395258_1_alg».proof.Proof.KernelRun
import proofs.«148059_j40003325395258_1_alg».proof.Proof.RefRun
import proofs.«148059_j40003325395258_1_alg».proof.Proof.BridgeNorm
import proofs.«148059_j40003325395258_1_alg».proof.Proof.BridgeMain
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference is host operations only: its run leaves every argument buffer at its launch contents. -/
theorem frame_ri : Cert.frame_ReferenceIdeal := fun m ρ _ =>
  (θ_run Cert.ReferenceIdeal.defs _ _).mono (fun r h c =>
    ⟨(h c _).trans (Cert.ReferenceIdeal.RefRun.arg_eq0 _),
      (h c _).trans (Cert.ReferenceIdeal.RefRun.arg_eq1 _),
      (h c _).trans (Cert.ReferenceIdeal.RefRun.arg_eq2 _),
      (h c _).trans (Cert.ReferenceIdeal.RefRun.arg_eq3 _),
      (h c _).trans (Cert.ReferenceIdeal.RefRun.arg_eq4 _),
      (h c _).trans (Cert.ReferenceIdeal.RefRun.arg_eq5 _),
      (h c _).trans (Cert.ReferenceIdeal.RefRun.arg_eq6 _),
      (h c _).trans (Cert.ReferenceIdeal.RefRun.arg_eq7 _),
      (h c _).trans (Cert.ReferenceIdeal.RefRun.arg_eq8 _),
      (h c _).trans (Cert.ReferenceIdeal.RefRun.arg_eq9 _),
      (h c _).trans (Cert.ReferenceIdeal.RefRun.arg_eq10 _),
      (h c _).trans (Cert.ReferenceIdeal.RefRun.arg_eq11 _),
      (h c _).trans (Cert.ReferenceIdeal.RefRun.arg_eq12 _),
      (h c _).trans (Cert.ReferenceIdeal.RefRun.arg_eq13 _),
      (h c _).trans (Cert.ReferenceIdeal.RefRun.arg_eq14 _),
      (h c _).trans (Cert.ReferenceIdeal.RefRun.arg_eq15 _)⟩)
    (Cert.ReferenceIdeal.RefRun.run_main (F := Ideal) m ρ)

/-- The idealization pass rewrote no operation. -/
theorem preserves : Cert.preserves_Kernel_KernelIdeal := trivial

/-- From memories agreeing on the arguments both idealized programs end with the same two results: the kernel
    program's own final contents, which the reference's run also reaches. -/
theorem algebraic : Cert.algebraic_KernelIdeal_ReferenceIdeal := by
  intro m ρ m' ρ' _ hagree
  refine ⟨fun c => Cert.KernelIdeal.Gen.W13 m ρ c (Proc.devRef .tc Cert.KernelIdeal.main_v118),
    fun c => Cert.KernelIdeal.Gen.W13 m ρ c (Proc.devRef .tc Cert.KernelIdeal.main_v119),
    Cert.KernelIdeal.KRun.run_values (F := Ideal) m ρ, ?_⟩
  refine (θ_run Cert.ReferenceIdeal.defs _ _).mono (fun r h c => ?_) (Cert.ReferenceIdeal.RefRun.run_main (F := Ideal) m' ρ')
  have hS := Cert.Bridge.norm_bridge m ρ m' c (hagree c)
  exact ⟨(h c _).trans (Cert.Bridge.out0 m ρ m' c (hagree c) hS),
      (h c _).trans (Cert.Bridge.out1 m ρ m' c (hagree c) hS),
      (h c _).trans (Cert.ReferenceIdeal.RefRun.arg_eq0 _),
      (h c _).trans (Cert.ReferenceIdeal.RefRun.arg_eq1 _),
      (h c _).trans (Cert.ReferenceIdeal.RefRun.arg_eq2 _),
      (h c _).trans (Cert.ReferenceIdeal.RefRun.arg_eq3 _),
      (h c _).trans (Cert.ReferenceIdeal.RefRun.arg_eq4 _),
      (h c _).trans (Cert.ReferenceIdeal.RefRun.arg_eq5 _),
      (h c _).trans (Cert.ReferenceIdeal.RefRun.arg_eq6 _),
      (h c _).trans (Cert.ReferenceIdeal.RefRun.arg_eq7 _),
      (h c _).trans (Cert.ReferenceIdeal.RefRun.arg_eq8 _),
      (h c _).trans (Cert.ReferenceIdeal.RefRun.arg_eq9 _),
      (h c _).trans (Cert.ReferenceIdeal.RefRun.arg_eq10 _),
      (h c _).trans (Cert.ReferenceIdeal.RefRun.arg_eq11 _),
      (h c _).trans (Cert.ReferenceIdeal.RefRun.arg_eq12 _),
      (h c _).trans (Cert.ReferenceIdeal.RefRun.arg_eq13 _),
      (h c _).trans (Cert.ReferenceIdeal.RefRun.arg_eq14 _),
      (h c _).trans (Cert.ReferenceIdeal.RefRun.arg_eq15 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
